-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128 .f32) (main_arg10 : FVec F S128x64 .f32) (main_arg11 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S1600000 .f32) (main_arg4 : FVec F S128 .f32) (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x128 : Shape := ⟨2, ![1, 128]⟩
abbrev S2000x128 : Shape := ⟨2, ![2000, 128]⟩
abbrev S1600000x1 : Shape := ⟨2, ![1600000, 1]⟩
abbrev S_ : Shape := ⟨0, ![]⟩
abbrev S1600000x128 : Shape := ⟨2, ![1600000, 128]⟩
abbrev S1x64 : Shape := ⟨2, ![1, 64]⟩
abbrev S100000x64 : Shape := ⟨2, ![100000, 64]⟩
abbrev S2000x64 : Shape := ⟨2, ![2000, 64]⟩

abbrev nBuf : Space → Nat
  | .hbm => 89
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S1x128, .f32⟩
  | .hbm, ⟨13, _⟩ => ⟨S1x128, .f32⟩
  | .hbm, ⟨14, _⟩ => ⟨S128, .f32⟩
  | .hbm, ⟨15, _⟩ => ⟨S128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S100000x128, .f32⟩
  | .hbm, ⟨22, _⟩ => ⟨S1600000x1, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S1600000x128, .f32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S1600000x1, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S1600000x128, .f32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S1600000x1, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S1600000x128, .f32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S1600000x1, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S1600000x128, .f32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S1x128, .f32⟩
  | .hbm, ⟨87, _⟩ => ⟨S1x64, .f32⟩
  | .hbm, ⟨88, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S1x128, .f32⟩
  | .local _ .vmem, ⟨20, _⟩ => ⟨S128x64, .f32⟩
  | .local _ .vmem, ⟨21, _⟩ => ⟨S1x64, .f32⟩
  | .local _ .vmem, ⟨22, _⟩ => ⟨S2000x64, .f32⟩
  | .local _ .vmem, ⟨23, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_1 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_4 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_7 : Ref sig .tc := ⟨.hbm, 71, rfl⟩
abbrev main_v49 : Ref sig .tc := ⟨.hbm, 72, rfl⟩
abbrev main_v50 : Ref sig .tc := ⟨.hbm, 73, rfl⟩
abbrev main_c_8 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem7_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v19 : BitVec 1 := Scalar.cmpi .eq arg0 c49_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  reduces_S2000x128_S128 : S2000x128.Reduces [0] S128
  shapeCasts_S128_S1x128 : S128.ShapeCasts S1x128
  shapeCasts_S1x128_S128 : S1x128.ShapeCasts S128
  broadcasts_S1x128_S2000x128 : S1x128.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S64_S1x64 : S64.ShapeCasts S1x64
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S100000x128.size a
  hwx1_7 : ∀ i : grid1.Coords, EltTy.bits .f32 = 32 ∨ (Rect.block (s := S100000x128) S2000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x128.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v60) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S1x128 : Shape := ⟨2, ![1, 128]⟩
abbrev S1600000x1 : Shape := ⟨2, ![1600000, 1]⟩
abbrev S1600000x128 : Shape := ⟨2, ![1600000, 128]⟩
abbrev S100000x64 : Shape := ⟨2, ![100000, 64]⟩
abbrev S1x64 : Shape := ⟨2, ![1, 64]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S1x128, .f32⟩
  | .hbm, ⟨18, _⟩ => ⟨S100000x128, .f32⟩
  | .hbm, ⟨19, _⟩ => ⟨S100000x128, .f32⟩
  | .hbm, ⟨20, _⟩ => ⟨S100000x128, .f32⟩
  | .hbm, ⟨21, _⟩ => ⟨S_, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S1600000x1, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1600000x1, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S1600000x128, .f32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S1600000x1, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x128, .f32⟩
  | .hbm, ⟨89, _⟩ => ⟨S1600000x128, .f32⟩
  | .hbm, ⟨90, _⟩ => ⟨S1600000x128, .f32⟩
  | .hbm, ⟨91, _⟩ => ⟨S_, .f32⟩
  | .hbm, ⟨92, _⟩ => ⟨S100000x128, .f32⟩
  | .hbm, ⟨93, _⟩ => ⟨S1600000x1, .i32⟩
  | .hbm, ⟨94, _⟩ => ⟨S100000x128, .f32⟩
  | .hbm, ⟨95, _⟩ => ⟨S1600000x1, .f32⟩
  | .hbm, ⟨96, _⟩ => ⟨S_, .i32⟩
  | .hbm, ⟨97, _⟩ => ⟨S1600000, .i32⟩
  | .hbm, ⟨98, _⟩ => ⟨S1600000, .i1⟩
  | .hbm, ⟨99, _⟩ => ⟨S_, .i32⟩
  | .hbm, ⟨100, _⟩ => ⟨S1600000, .i32⟩
  | .hbm, ⟨101, _⟩ => ⟨S1600000, .i32⟩
  | .hbm, ⟨102, _⟩ => ⟨S1600000, .i32⟩
  | .hbm, ⟨103, _⟩ => ⟨S1600000x1, .i32⟩
  | .hbm, ⟨104, _⟩ => ⟨S1600000x128, .f32⟩
  | .hbm, ⟨105, _⟩ => ⟨S1600000x128, .f32⟩
  | .hbm, ⟨106, _⟩ => ⟨S1600000x128, .f32⟩
  | .hbm, ⟨107, _⟩ => ⟨S_, .f32⟩
  | .hbm, ⟨108, _⟩ => ⟨S100000x128, .f32⟩
  | .hbm, ⟨109, _⟩ => ⟨S1600000x1, .i32⟩
  | .hbm, ⟨110, _⟩ => ⟨S100000x128, .f32⟩
  | .hbm, ⟨111, _⟩ => ⟨S100000x128, .f32⟩
  | .hbm, ⟨112, _⟩ => ⟨S1x128, .f32⟩
  | .hbm, ⟨113, _⟩ => ⟨S100000x128, .f32⟩
  | .hbm, ⟨114, _⟩ => ⟨S100000x128, .f32⟩
  | .hbm, ⟨115, _⟩ => ⟨S100000x128, .f32⟩
  | .hbm, ⟨116, _⟩ => ⟨S100000x64, .f32⟩
  | .hbm, ⟨117, _⟩ => ⟨S1x64, .f32⟩
  | .hbm, ⟨118, _⟩ => ⟨S100000x64, .f32⟩
  | .hbm, ⟨119, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_6 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_9 : Ref sig .tc := ⟨.hbm, 80, rfl⟩
abbrev main_v57 : Ref sig .tc := ⟨.hbm, 81, rfl⟩
abbrev main_v58 : Ref sig .tc := ⟨.hbm, 82, rfl⟩
abbrev main_c_10 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_12 : Ref sig .tc := ⟨.hbm, 96, rfl⟩
abbrev main_v70 : Ref sig .tc := ⟨.hbm, 97, rfl⟩
abbrev main_v71 : Ref sig .tc := ⟨.hbm, 98, rfl⟩
abbrev main_c_13 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_14 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩

abbrev nD : Nat := 1
abbrev τ : Topo := Topo.v7x

variable {F : FTy → Type} [FloatOps F]

class Facts₀ : Prop where
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.K.R0Runs.lean ====
import proofs.«158204_j29978871726570_1_alg».proof.Proof.Gen.Kernel.Launch
import proofs.«158204_j29978871726570_1_alg».proof.Proof.Gen.Kernel.Skeleton
import proofs.«158204_j29978871726570_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region (the first of the three kernel regions): the body, case by case

The body adds the tile's column sums and column sums of squares into two carried buffers; at the first
grid point it first clears them, at the last it also divides by the row count and stores the mean and
the variance. Three control cases over the 50 points: the first, the middle ones, the last. -/

/-- The first branch's condition from the grid coordinate: "this is point 0". -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)
/-- The second branch's condition: "this is the last point". -/
abbrev cond0_2 (i : grid0.Coords) : Prop := k0_cond2 i = 1#1
theorem hcond0_2 : ∀ t : Fin cfg0.N, cond0_2 (grid0.coords t) ↔ t.val % 50 = 49 :=
  (by decide +kernel : ∀ t : Fin grid0.N, cond0_2 (grid0.coords t) ↔ t.val % 50 = 49)

/-- The tile window is never idle; the two result windows are idle, and not written back, away from the last point. -/
theorem liveAt0_0 : ∀ t : Fin cfg0.N, cfg0.idle 0 (grid0.coords t) = false := by decide +kernel
theorem idleAt0_1 : ∀ t : Fin cfg0.N, ¬cond0_2 (grid0.coords t) → cfg0.idle 1 (grid0.coords t) = true := by decide +kernel
theorem idleAt0_2 : ∀ t : Fin cfg0.N, ¬cond0_2 (grid0.coords t) → cfg0.idle 2 (grid0.coords t) = true := by decide +kernel
theorem noFlush0_1 : ∀ t : Fin cfg0.N, ¬cond0_2 (grid0.coords t) → (cfg0.win 1).flush t = false := by decide +kernel
theorem noFlush0_2 : ∀ t : Fin cfg0.N, ¬cond0_2 (grid0.coords t) → (cfg0.win 2).flush t = false := by decide +kernel
theorem liveAt0_1 : ∀ t : Fin cfg0.N, cond0_2 (grid0.coords t) → cfg0.idle 1 (grid0.coords t) = false := by decide +kernel
theorem liveAt0_2 : ∀ t : Fin cfg0.N, cond0_2 (grid0.coords t) → cfg0.idle 2 (grid0.coords t) = false := by decide +kernel

/-- The windows' current staging memrefs at a point, and the two carried buffers. -/
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev scM0_0 : Memref sig .tc .vmem S1x128 .f32 := Memref.whole cc0_scratch0
abbrev scM0_1 : Memref sig .tc .vmem S1x128 .f32 := Memref.whole cc0_scratch1
/-- Views through which a buffer's contents after a list of stores are stated (the choice does not matter). -/
abbrev VO0_1 : View sig .tc .vmem S1x128 .f32 := (Memref.whole cc0_stg1_0 : Memref sig .tc .vmem S1x128 .f32).view
abbrev VO0_2 : View sig .tc .vmem S1x128 .f32 := (Memref.whole cc0_stg2_0 : Memref sig .tc .vmem S1x128 .f32).view
abbrev VS0_0 : View sig .tc .vmem S1x128 .f32 := scM0_0.view
abbrev VS0_1 : View sig .tc .vmem S1x128 .f32 := scM0_1.view

set_option maxHeartbeats 2000000 in
/-- The first point: the carried buffers hold anything, are cleared and then added to; the result windows are untouched.
    The lists are the stores each carried buffer received, last first. -/
noncomputable def kernelRun0_A (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond0_0 i) (hc2 : ¬cond0_2 i)
    (x0 : Vec F S2000x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, fun xi1 xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 2000000 in
/-- A middle point: the carried buffers hold what the point before left and are added to. -/
noncomputable def kernelRun0_B (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : ¬cond0_2 i)
    (x0 : Vec F S2000x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, fun xi1 xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 2000000 in
/-- The last point: the carried buffers are added to, then the mean and the variance are stored into the result windows. -/
noncomputable def kernelRun0_C (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : cond0_2 i)
    (x0 : Vec F S2000x128 .f32) (xs0 xs1 : Vec F S1x128 .f32) :
    Σ' (L1 : List (View.Piece (Elt F) S1x128 .f32)) (L2 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc2)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.Kernel.Hand

end
-- ==== Proof.K.R0.lean ====
import proofs.«158204_j29978871726570_1_alg».proof.Proof.Gen.Kernel.Launch
import proofs.«158204_j29978871726570_1_alg».proof.Proof.Gen.Kernel.Skeleton
import proofs.«158204_j29978871726570_1_alg».proof.Proof.Gen.Kernel.Points
import proofs.«158204_j29978871726570_1_alg».proof.Proof.K.R0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region: what the carried buffers and the result windows hold after each point,
the region's invariant, its proof data and its body obligation — at a parameter `V`, the buffer
contents when the region is entered. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile window's staging buffer holds its block at every point, for any proof data over `V`'s array
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: its stores read back -/

def sout0_A_0 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond0_0 i) (hc2 : ¬cond0_2 i) (x0 : Vec F S2000x128 .f32) : Vec F S1x128 .f32 :=
  VS0_0.read (Elt F) (VS0_0.writes (Elt F) VS0_0.junk (kernelRun0_A c i arg1 harg1 arg2 harg2 arg3 harg3 arg4 harg4 arg5 harg5 hc0 hc2 x0).1)
def sout0_A_1 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond0_0 i) (hc2 : ¬cond0_2 i) (x0 : Vec F S2000x128 .f32) : Vec F S1x128 .f32 :=
  VS0_1.read (Elt F) (VS0_1.writes (Elt F) VS0_1.junk (kernelRun0_A c i arg1 harg1 arg2 harg2 arg3 harg3 arg4 harg4 arg5 harg5 hc0 hc2 x0).2.1)
def sout0_B_0 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : ¬cond0_2 i) (x0 : Vec F S2000x128 .f32) (xs0 xs1 : Vec F S1x128 .f32) : Vec F S1x128 .f32 :=
  VS0_0.read (Elt F) (VS0_0.writes (Elt F) VS0_0.junk (kernelRun0_B c i arg1 harg1 arg2 harg2 arg3 harg3 arg4 harg4 arg5 harg5 hc0 hc2 x0 xs0 xs1).1)
def sout0_B_1 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : ¬cond0_2 i) (x0 : Vec F S2000x128 .f32) (xs0 xs1 : Vec F S1x128 .f32) : Vec F S1x128 .f32 :=
  VS0_1.read (Elt F) (VS0_1.writes (Elt F) VS0_1.junk (kernelRun0_B c i arg1 harg1 arg2 harg2 arg3 harg3 arg4 harg4 arg5 harg5 hc0 hc2 x0 xs0 xs1).2.1)
def out0_C_1 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : cond0_2 i) (x0 : Vec F S2000x128 .f32) (xs0 xs1 : Vec F S1x128 .f32) : Vec F S1x128 .f32 :=
  VO0_1.read (Elt F) (VO0_1.writes (Elt F) VO0_1.junk (kernelRun0_C c i arg1 harg1 arg2 harg2 arg3 harg3 arg4 harg4 arg5 harg5 hc0 hc2 x0 xs0 xs1).1)
def out0_C_2 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : cond0_2 i) (x0 : Vec F S2000x128 .f32) (xs0 xs1 : Vec F S1x128 .f32) : Vec F S1x128 .f32 :=
  VO0_2.read (Elt F) (VO0_2.writes (Elt F) VO0_2.junk (kernelRun0_C c i arg1 harg1 arg2 harg2 arg3 harg3 arg4 harg4 arg5 harg5 hc0 hc2 x0 xs0 xs1).2.1)
def sout0_C_0 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : cond0_2 i) (x0 : Vec F S2000x128 .f32) (xs0 xs1 : Vec F S1x128 .f32) : Vec F S1x128 .f32 :=
  VS0_0.read (Elt F) (VS0_0.writes (Elt F) VS0_0.junk (kernelRun0_C c i arg1 harg1 arg2 harg2 arg3 harg3 arg4 harg4 arg5 harg5 hc0 hc2 x0 xs0 xs1).2.2.1)
def sout0_C_1 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : cond0_2 i) (x0 : Vec F S2000x128 .f32) (xs0 xs1 : Vec F S1x128 .f32) : Vec F S1x128 .f32 :=
  VS0_1.read (Elt F) (VS0_1.writes (Elt F) VS0_1.junk (kernelRun0_C c i arg1 harg1 arg2 harg2 arg3 harg3 arg4 harg4 arg5 harg5 hc0 hc2 x0 xs0 xs1).2.2.2.1)

/-- Every store of the body writes a whole buffer, so a list of stores whose head is one covers the buffer. -/
theorem cover_head (p : Vec F S1x128 .f32) (L : List (View.Piece (Elt F) S1x128 .f32)) (y : S1x128.Idx) :
    ∃ pc ∈ (⟨Rect.unit (s := S1x128) ![0, 0] S1x128.size inb_S1x128_S1x128_0_0, p⟩ :: L : List (View.Piece (Elt F) S1x128 .f32)), y ∈ pc.1.set := by
  obtain ⟨pc, hpc, hy⟩ := View.cover_of_tiled ([⟨Rect.unit (s := S1x128) ![0, 0] S1x128.size inb_S1x128_S1x128_0_0, p⟩] : List (View.Piece (Elt F) S1x128 .f32)) S1x128.size (by rfl) y
  rw [List.mem_singleton] at hpc
  subst hpc
  exact ⟨_, List.mem_cons_self, hy⟩

theorem scover0_A_0 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond0_0 i) (hc2 : ¬cond0_2 i) (x0 : Vec F S2000x128 .f32) (y : S1x128.Idx) :
    ∃ pc ∈ (kernelRun0_A c i arg1 harg1 arg2 harg2 arg3 harg3 arg4 harg4 arg5 harg5 hc0 hc2 x0).1, y ∈ pc.1.set := cover_head _ _ y
theorem scover0_A_1 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond0_0 i) (hc2 : ¬cond0_2 i) (x0 : Vec F S2000x128 .f32) (y : S1x128.Idx) :
    ∃ pc ∈ (kernelRun0_A c i arg1 harg1 arg2 harg2 arg3 harg3 arg4 harg4 arg5 harg5 hc0 hc2 x0).2.1, y ∈ pc.1.set := cover_head _ _ y
theorem scover0_B_0 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : ¬cond0_2 i) (x0 : Vec F S2000x128 .f32) (xs0 xs1 : Vec F S1x128 .f32) (y : S1x128.Idx) :
    ∃ pc ∈ (kernelRun0_B c i arg1 harg1 arg2 harg2 arg3 harg3 arg4 harg4 arg5 harg5 hc0 hc2 x0 xs0 xs1).1, y ∈ pc.1.set := cover_head _ _ y
theorem scover0_B_1 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : ¬cond0_2 i) (x0 : Vec F S2000x128 .f32) (xs0 xs1 : Vec F S1x128 .f32) (y : S1x128.Idx) :
    ∃ pc ∈ (kernelRun0_B c i arg1 harg1 arg2 harg2 arg3 harg3 arg4 harg4 arg5 harg5 hc0 hc2 x0 xs0 xs1).2.1, y ∈ pc.1.set := cover_head _ _ y
theorem cover0_C_1 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : cond0_2 i) (x0 : Vec F S2000x128 .f32) (xs0 xs1 : Vec F S1x128 .f32) (y : S1x128.Idx) :
    ∃ pc ∈ (kernelRun0_C c i arg1 harg1 arg2 harg2 arg3 harg3 arg4 harg4 arg5 harg5 hc0 hc2 x0 xs0 xs1).1, y ∈ pc.1.set := cover_head _ _ y
theorem cover0_C_2 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : cond0_2 i) (x0 : Vec F S2000x128 .f32) (xs0 xs1 : Vec F S1x128 .f32) (y : S1x128.Idx) :
    ∃ pc ∈ (kernelRun0_C c i arg1 harg1 arg2 harg2 arg3 harg3 arg4 harg4 arg5 harg5 hc0 hc2 x0 xs0 xs1).2.1, y ∈ pc.1.set := cover_head _ _ y
theorem scover0_C_0 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : cond0_2 i) (x0 : Vec F S2000x128 .f32) (xs0 xs1 : Vec F S1x128 .f32) (y : S1x128.Idx) :
    ∃ pc ∈ (kernelRun0_C c i arg1 harg1 arg2 harg2 arg3 harg3 arg4 harg4 arg5 harg5 hc0 hc2 x0 xs0 xs1).2.2.1, y ∈ pc.1.set := cover_head _ _ y
theorem scover0_C_1 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : cond0_2 i) (x0 : Vec F S2000x128 .f32) (xs0 xs1 : Vec F S1x128 .f32) (y : S1x128.Idx) :
    ∃ pc ∈ (kernelRun0_C c i arg1 harg1 arg2 harg2 arg3 harg3 arg4 harg4 arg5 harg5 hc0 hc2 x0 xs0 xs1).2.2.2.1, y ∈ pc.1.set := cover_head _ _ y

/-! ## The accumulation -/

/-- A placeholder for a result window's buffer at the points where the body does not touch it: nothing reads it. -/
def idleOut : Vec F S1x128 .f32 := VO0_1.read (Elt F) VO0_1.junk

/-- What the two carried buffers hold after the body at position `n`: the first point's stores, then each later
    point's stores over what the point before left. -/
def acc0 (c : Dev nD) : (n : ℕ) → n < cfg0.N → Vec F S1x128 .f32 × Vec F S1x128 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => absurd ((hcond0_2 ⟨0, hn⟩).mp h) (by simp only []; omega)) (iblk0 V c 0 ⟨0, hn⟩),
              sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => absurd ((hcond0_2 ⟨0, hn⟩).mp h) (by simp only []; omega)) (iblk0 V c 0 ⟨0, hn⟩))
  | n + 1, hn =>
    if h2 : (n + 1) % 50 = 49 then
      (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (by have hN : n + 1 < 50 := lt_of_lt_of_eq hn (show cfg0.N = 50 from N_0); simp only []; omega)) ((hcond0_2 ⟨n + 1, hn⟩).mpr h2) (iblk0 V c 0 ⟨n + 1, hn⟩) (acc0 c n (Nat.lt_of_succ_lt hn)).1 (acc0 c n (Nat.lt_of_succ_lt hn)).2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (by have hN : n + 1 < 50 := lt_of_lt_of_eq hn (show cfg0.N = 50 from N_0); simp only []; omega)) ((hcond0_2 ⟨n + 1, hn⟩).mpr h2) (iblk0 V c 0 ⟨n + 1, hn⟩) (acc0 c n (Nat.lt_of_succ_lt hn)).1 (acc0 c n (Nat.lt_of_succ_lt hn)).2)
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (by have hN : n + 1 < 50 := lt_of_lt_of_eq hn (show cfg0.N = 50 from N_0); simp only []; omega)) (fun h => h2 ((hcond0_2 ⟨n + 1, hn⟩).mp h)) (iblk0 V c 0 ⟨n + 1, hn⟩) (acc0 c n (Nat.lt_of_succ_lt hn)).1 (acc0 c n (Nat.lt_of_succ_lt hn)).2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (by have hN : n + 1 < 50 := lt_of_lt_of_eq hn (show cfg0.N = 50 from N_0); simp only []; omega)) (fun h => h2 ((hcond0_2 ⟨n + 1, hn⟩).mp h)) (iblk0 V c 0 ⟨n + 1, hn⟩) (acc0 c n (Nat.lt_of_succ_lt hn)).1 (acc0 c n (Nat.lt_of_succ_lt hn)).2)

/-- What the two result windows' buffers hold after the body at point `t`: the mean and the variance at the last
    point, nothing that matters before it. -/
def outs0 (c : Dev nD) (t : Fin cfg0.N) : Vec F S1x128 .f32 × Vec F S1x128 .f32 :=
  if h2 : t.val % 50 = 49 then
    have hlt : t.val - 1 < cfg0.N := Nat.lt_of_le_of_lt (Nat.sub_le _ _) t.isLt
    have hc0 : ¬cond0_0 (grid0.coords t) := fun h => absurd ((hcond0_0 t).mp h) (by omega)
    (out0_C_1 c (grid0.coords t) (ms0_0 t) (hs0_0 t) (ms0_1 t) (hs0_1 t) (ms0_2 t) (hs0_2 t) scM0_0 (Memref.isWhole_whole _) scM0_1 (Memref.isWhole_whole _) hc0 ((hcond0_2 t).mpr h2) (iblk0 V c 0 t) (acc0 V c (t.val - 1) hlt).1 (acc0 V c (t.val - 1) hlt).2,
     out0_C_2 c (grid0.coords t) (ms0_0 t) (hs0_0 t) (ms0_1 t) (hs0_1 t) (ms0_2 t) (hs0_2 t) scM0_0 (Memref.isWhole_whole _) scM0_1 (Memref.isWhole_whole _) hc0 ((hcond0_2 t).mpr h2) (iblk0 V c 0 t) (acc0 V c (t.val - 1) hlt).1 (acc0 V c (t.val - 1) hlt).2)
  else (idleOut, idleOut)

/-- `acc0` at the first point, at a middle point, at the last point. -/
theorem acc0_A (c : Dev nD) (t : Fin cfg0.N) (hz : t.val = 0) (h0 : cond0_0 (grid0.coords t)) (h2 : ¬cond0_2 (grid0.coords t)) :
    acc0 V c t.val t.isLt = (sout0_A_0 c (grid0.coords t) (ms0_0 t) (hs0_0 t) (ms0_1 t) (hs0_1 t) (ms0_2 t) (hs0_2 t) scM0_0 (Memref.isWhole_whole _) scM0_1 (Memref.isWhole_whole _) h0 h2 (iblk0 V c 0 t), sout0_A_1 c (grid0.coords t) (ms0_0 t) (hs0_0 t) (ms0_1 t) (hs0_1 t) (ms0_2 t) (hs0_2 t) scM0_0 (Memref.isWhole_whole _) scM0_1 (Memref.isWhole_whole _) h0 h2 (iblk0 V c 0 t)) := by
  obtain ⟨n, hn⟩ := t
  cases n with
  | zero => rfl
  | succ n => exact absurd hz (Nat.succ_ne_zero n)
theorem acc0_B (c : Dev nD) (t : Fin cfg0.N) (hz : t.val ≠ 0) (h49 : ¬t.val % 50 = 49) (h0 : ¬cond0_0 (grid0.coords t)) (h2 : ¬cond0_2 (grid0.coords t)) :
    acc0 V c t.val t.isLt = (sout0_B_0 c (grid0.coords t) (ms0_0 t) (hs0_0 t) (ms0_1 t) (hs0_1 t) (ms0_2 t) (hs0_2 t) scM0_0 (Memref.isWhole_whole _) scM0_1 (Memref.isWhole_whole _) h0 h2 (iblk0 V c 0 t) (acc0 V c (t.val - 1) (Nat.lt_of_le_of_lt (Nat.sub_le _ _) t.isLt)).1 (acc0 V c (t.val - 1) (Nat.lt_of_le_of_lt (Nat.sub_le _ _) t.isLt)).2, sout0_B_1 c (grid0.coords t) (ms0_0 t) (hs0_0 t) (ms0_1 t) (hs0_1 t) (ms0_2 t) (hs0_2 t) scM0_0 (Memref.isWhole_whole _) scM0_1 (Memref.isWhole_whole _) h0 h2 (iblk0 V c 0 t) (acc0 V c (t.val - 1) (Nat.lt_of_le_of_lt (Nat.sub_le _ _) t.isLt)).1 (acc0 V c (t.val - 1) (Nat.lt_of_le_of_lt (Nat.sub_le _ _) t.isLt)).2) := by
  obtain ⟨n, hn⟩ := t
  cases n with
  | zero => exact absurd rfl hz
  | succ n => exact (dif_neg h49).trans rfl
theorem acc0_C (c : Dev nD) (t : Fin cfg0.N) (hz : t.val ≠ 0) (h49 : t.val % 50 = 49) (h0 : ¬cond0_0 (grid0.coords t)) (h2 : cond0_2 (grid0.coords t)) :
    acc0 V c t.val t.isLt = (sout0_C_0 c (grid0.coords t) (ms0_0 t) (hs0_0 t) (ms0_1 t) (hs0_1 t) (ms0_2 t) (hs0_2 t) scM0_0 (Memref.isWhole_whole _) scM0_1 (Memref.isWhole_whole _) h0 h2 (iblk0 V c 0 t) (acc0 V c (t.val - 1) (Nat.lt_of_le_of_lt (Nat.sub_le _ _) t.isLt)).1 (acc0 V c (t.val - 1) (Nat.lt_of_le_of_lt (Nat.sub_le _ _) t.isLt)).2, sout0_C_1 c (grid0.coords t) (ms0_0 t) (hs0_0 t) (ms0_1 t) (hs0_1 t) (ms0_2 t) (hs0_2 t) scM0_0 (Memref.isWhole_whole _) scM0_1 (Memref.isWhole_whole _) h0 h2 (iblk0 V c 0 t) (acc0 V c (t.val - 1) (Nat.lt_of_le_of_lt (Nat.sub_le _ _) t.isLt)).1 (acc0 V c (t.val - 1) (Nat.lt_of_le_of_lt (Nat.sub_le _ _) t.isLt)).2) := by
  obtain ⟨n, hn⟩ := t
  cases n with
  | zero => exact absurd rfl hz
  | succ n => exact (dif_pos h49).trans rfl
theorem outs0_C (c : Dev nD) (t : Fin cfg0.N) (h49 : t.val % 50 = 49) (h0 : ¬cond0_0 (grid0.coords t)) (h2 : cond0_2 (grid0.coords t)) :
    outs0 V c t = (out0_C_1 c (grid0.coords t) (ms0_0 t) (hs0_0 t) (ms0_1 t) (hs0_1 t) (ms0_2 t) (hs0_2 t) scM0_0 (Memref.isWhole_whole _) scM0_1 (Memref.isWhole_whole _) h0 h2 (iblk0 V c 0 t) (acc0 V c (t.val - 1) (Nat.lt_of_le_of_lt (Nat.sub_le _ _) t.isLt)).1 (acc0 V c (t.val - 1) (Nat.lt_of_le_of_lt (Nat.sub_le _ _) t.isLt)).2, out0_C_2 c (grid0.coords t) (ms0_0 t) (hs0_0 t) (ms0_1 t) (hs0_1 t) (ms0_2 t) (hs0_2 t) scM0_0 (Memref.isWhole_whole _) scM0_1 (Memref.isWhole_whole _) h0 h2 (iblk0 V c 0 t) (acc0 V c (t.val - 1) (Nat.lt_of_le_of_lt (Nat.sub_le _ _) t.isLt)).1 (acc0 V c (t.val - 1) (Nat.lt_of_le_of_lt (Nat.sub_le _ _) t.isLt)).2) := by
  unfold outs0; rw [dif_pos h49]

/-! ## The region's invariant -/

/-- The scoped buffers of the core that are neither a staging buffer of this region nor one of its two carried buffers. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The class invariant with the two carried buffers split off as memrefs owned at some contents. -/
theorem PhiA0_eq (c : Dev nD) :
    (Pipeline.ΦA spec0 c : sProp 𝕄)
      = iprop(((iprop(∃ d, owns (c : Thread nD τ) scM0_0 fullShare d) ∗ iprop(∃ d, owns (c : Thread nD τ) scM0_1 fullShare d)) ∗ restBut0 c) ∗ (∃ r, prngReg c r)) := by
  unfold Pipeline.ΦA
  rw [Pipeline.scopedRest_split_of_list spec0 c [cc0_scratch0, cc0_scratch1] (by decide) (by decide)]
  simp only [BI.bigSepL_cons_cons, BI.bigSepL_singleton, scM0_0, scM0_1, owns_whole]; try rfl

/-- Before the first point the carried buffers hold anything; before a later point, what the point before left. -/
def PhiS (c : Dev nD) : (n : ℕ) → n ≤ cfg0.N → sProp 𝕄
  | 0, _ => Pipeline.ΦA spec0 c
  | n + 1, hn => iprop(((owns (c : Thread nD τ) scM0_0 fullShare (acc0 V c n hn).1 ∗ owns (c : Thread nD τ) scM0_1 fullShare (acc0 V c n hn).2) ∗ restBut0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(((owns (c : Thread nD τ) scM0_0 fullShare (acc0 V c n hn).1 ∗ owns (c : Thread nD τ) scM0_1 fullShare (acc0 V c n hn).2) ∗ restBut0 c) ∗ (∃ r, prngReg c r)) := rfl
theorem PhiS_pos (c : Dev nD) (n : ℕ) (h : n ≤ cfg0.N) (hz : n ≠ 0) :
    PhiS V c n h = iprop(((owns (c : Thread nD τ) scM0_0 fullShare (acc0 V c (n - 1) (by omega)).1 ∗ owns (c : Thread nD τ) scM0_1 fullShare (acc0 V c (n - 1) (by omega)).2) ∗ restBut0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outs0 V c t).1
    | ⟨2, _⟩ => (outs0 V c t).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outs0 V c t).1 := by dsimp only [dat0]
theorem after0_2 (c : Dev nD) (t : Fin cfg0.N) : (dat0 V c).after 2 t = (outs0 V c t).2 := by dsimp only [dat0]
theorem before0_0 (c : Dev nD) (t : Fin cfg0.N) (d) : (dat0 V c).before 0 t d = iblk0 V c 0 t :=
  before0_0_of V (dat0 V c) (A_eq0 V c 0) (after0_0 V c) t d

/-- A buffer that received a covering list of stores is owned at those stores read back, whatever it held before
    and through whichever view the result is stated. -/
theorem owns_back (c : Dev nD) (M : Memref sig .tc .vmem S1x128 .f32) (es : BufTy.Contents (Elt F) M.view.ty)
    (L : List (View.Piece (Elt F) S1x128 .f32)) (v' : View sig .tc .vmem S1x128 .f32) (hcov : ∀ y, ∃ pc ∈ L, y ∈ pc.1.set) :
    (M.view.loc (c : Thread nD τ) ↦[M.view.set]{fullShare} M.view.writes (Elt F) es L : sProp 𝕄)
      ⊢ owns (c : Thread nD τ) M fullShare (v'.read (Elt F) (v'.writes (Elt F) v'.junk L)) := by
  unfold owns
  iintro H
  iexists _; isplitr
  swap; · iexact H
  ipureintro; exact View.read_writes_of_cover _ _ _ _ _ hcov

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the case is decided by the point's position; the invariant hands the body the carried
    buffers at what the point before left (at anything at the first point) and takes them back at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
      unfold Dat.leavesExact; rw [liveAt0_0 t], after0_0]
  have hN : t.val < 50 := lt_of_lt_of_eq t.isLt (show cfg0.N = 50 from N_0)
  by_cases hz : t.val = 0
  · have h0 : cond0_0 (grid0.coords t) := (hcond0_0 t).mpr (by omega)
    have h2 : ¬cond0_2 (grid0.coords t) := fun h => by have := (hcond0_2 t).mp h; omega
    rw [Dat.leavesExact_idle (dat0 V c) 1 t (idleAt0_1 t h2) (noFlush0_1 t h2), Dat.leavesExact_idle (dat0 V c) 2 t (idleAt0_2 t h2) (noFlush0_2 t h2)]
    rw [acc0_A V c t hz h0 h2]
    unfold sout0_A_0 sout0_A_1; (try dsimp only)
    rw [PhiS_castSucc V c t, PhiS_zero V c _ _ hz, PhiA0_eq]
    iintro ⟨⟨⟨⟨HS0, HS1⟩, Hb⟩, Hg⟩, Ho, ⟨%d0, H0⟩, ⟨%d1, H1⟩, ⟨%d2, H2⟩⟩
    iapply ((kernelRun0_A c (grid0.coords t) _ _ _ _ _ _ _ _ _ _ h0 h2 (iblk0 V c 0 t)).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hb Hg]
    · isplitl [HS0 HS1 Hb]
      · isplitl [HS0 HS1]
        · isplitl [HS0]
          · iapply (owns_back c _ _ _ _ (scover0_A_0 c _ _ _ _ _ _ _ _ _ _ _ _ _ _)); iexact HS0
          iapply (owns_back c _ _ _ _ (scover0_A_1 c _ _ _ _ _ _ _ _ _ _ _ _ _ _)); iexact HS1
        iexact Hb
      iexact Hg
    isplitl [Ho]; · iexact Ho
    isplitl [H0]; · iexact H0
    isplitl [H1]; · iexists _; iexact H1
    iexists _; iexact H2
  · have h0 : ¬cond0_0 (grid0.coords t) := fun h => hz (by have := (hcond0_0 t).mp h; omega)
    rw [PhiS_castSucc V c t, PhiS_pos V c _ _ hz]
    by_cases h49 : t.val % 50 = 49
    · have h2 : cond0_2 (grid0.coords t) := (hcond0_2 t).mpr h49
      rw [show (dat0 V c).leavesExact 1 t = owns (c : Thread nD τ) (ms0_1 t) fullShare ((dat0 V c).after 1 t) from by
          unfold Dat.leavesExact; rw [liveAt0_1 t h2], after0_1,
        show (dat0 V c).leavesExact 2 t = owns (c : Thread nD τ) (ms0_2 t) fullShare ((dat0 V c).after 2 t) from by
          unfold Dat.leavesExact; rw [liveAt0_2 t h2], after0_2]
      rw [acc0_C V c t hz h49 h0 h2, outs0_C V c t h49 h0 h2]
      unfold sout0_C_0 sout0_C_1 out0_C_1 out0_C_2; (try dsimp only)
      iintro ⟨⟨⟨⟨HS0, HS1⟩, Hb⟩, Hg⟩, Ho, ⟨%d0, H0⟩, ⟨%d1, H1⟩, ⟨%d2, H2⟩⟩
      iapply ((kernelRun0_C c (grid0.coords t) _ _ _ _ _ _ _ _ _ _ h0 h2 (iblk0 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hb Hg]
      · isplitl [HS0 HS1 Hb]
        · isplitl [HS0 HS1]
          · isplitl [HS0]
            · iapply (owns_back c _ _ _ _ (scover0_C_0 c _ _ _ _ _ _ _ _ _ _ _ _ _ _ _ _)); iexact HS0
            iapply (owns_back c _ _ _ _ (scover0_C_1 c _ _ _ _ _ _ _ _ _ _ _ _ _ _ _ _)); iexact HS1
          iexact Hb
        iexact Hg
      isplitl [Ho]; · iexact Ho
      isplitl [H0]; · iexact H0
      isplitl [H1]
      · iapply (owns_back c _ _ _ _ (cover0_C_1 c _ _ _ _ _ _ _ _ _ _ _ _ _ _ _ _)); iexact H1
      iapply (owns_back c _ _ _ _ (cover0_C_2 c _ _ _ _ _ _ _ _ _ _ _ _ _ _ _ _)); iexact H2
    · have h2 : ¬cond0_2 (grid0.coords t) := fun h => h49 ((hcond0_2 t).mp h)
      rw [Dat.leavesExact_idle (dat0 V c) 1 t (idleAt0_1 t h2) (noFlush0_1 t h2), Dat.leavesExact_idle (dat0 V c) 2 t (idleAt0_2 t h2) (noFlush0_2 t h2)]
      rw [acc0_B V c t hz h49 h0 h2]
      unfold sout0_B_0 sout0_B_1; (try dsimp only)
      iintro ⟨⟨⟨⟨HS0, HS1⟩, Hb⟩, Hg⟩, Ho, ⟨%d0, H0⟩, ⟨%d1, H1⟩, ⟨%d2, H2⟩⟩
      iapply ((kernelRun0_B c (grid0.coords t) _ _ _ _ _ _ _ _ _ _ h0 h2 (iblk0 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hb Hg]
      · isplitl [HS0 HS1 Hb]
        · isplitl [HS0 HS1]
          · isplitl [HS0]
            · iapply (owns_back c _ _ _ _ (scover0_B_0 c _ _ _ _ _ _ _ _ _ _ _ _ _ _ _ _)); iexact HS0
            iapply (owns_back c _ _ _ _ (scover0_B_1 c _ _ _ _ _ _ _ _ _ _ _ _ _ _ _ _)); iexact HS1
          iexact Hb
        iexact Hg
      isplitl [Ho]; · iexact Ho
      isplitl [H0]; · iexact H0
      isplitl [H1]; · iexists _; iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point; after any later point the invariant
    gives it back, the carried buffers' contents forgotten. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨⟨HS0, HS1⟩, Hb⟩, Hg⟩
  isplitl [HS0 HS1 Hb]
  · isplitl [HS0 HS1]
    · isplitl [HS0]
      · iexists _; iexact HS0
      iexists _; iexact HS1
    iexact Hb
  iexact Hg
theorem hout0 (c : Dev nD) : (dat0 V c).Φ (Fin.last cfg0.N) ⊢ Pipeline.ΦA spec0 c :=
  Phi_out0 V c _ (by rw [Fin.val_last]; have : cfg0.N = 50 := N_0; omega)

end Cert.Kernel.Hand

end
-- ==== Proof.K.Reg1.lean ====
/- Region 1 of the program, at a generic grid point and at arbitrary entry contents `V` of the core's buffers:
   the body normalises a 2000×128 block of rows, (x − mean)·rsqrt(var + ε)·γ + β with the four 1×128 rows
   broadcast down the block, multiplies by a 128×128 matrix, adds a bias row and takes tanh.
   Every load and the one store go through the whole staging buffer, so the output window's buffer after the
   body is the stored value as a function of the input windows' blocks, and each input window's buffer holds
   that window's block at the point whether or not it was transferred there (a block whose index does not move
   between consecutive points is still the same block). -/
import proofs.«158204_j29978871726570_1_alg».proof.Proof.Gen.Kernel.Launch
import proofs.«158204_j29978871726570_1_alg».proof.Proof.Gen.Kernel.Skeleton
import proofs.«158204_j29978871726570_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, transferred there or not, for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, transferred there or not, for any
    proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, transferred there or not, for any
    proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, transferred there or not, for any
    proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, transferred there or not, for any
    proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, transferred there or not, for any
    proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, transferred there or not, for any
    proof data whose array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole of its buffer -/

abbrev r1_0 : Rect S2000x128 := Rect.unit (s := S2000x128) ![0, 0] S2000x128.size inb_S2000x128_S2000x128_0_0
abbrev r1_1 : Rect S1x128 := Rect.unit (s := S1x128) ![0, 0] S1x128.size inb_S1x128_S1x128_0_0
abbrev r1_2 : Rect S128x128 := Rect.unit (s := S128x128) ![0, 0] S128x128.size inb_S128x128_S128x128_0_0

/-! ## What the body leaves in the output window's buffer -/

/-- Window 7's staging buffer after the body, from the input windows' blocks: the one stored value laid over
    the whole buffer. -/
def out1_7 (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) : Vec F S2000x128 .f32 :=
  View.canon [⟨r1_0, k1_pay1 (View.ld x0 r1_0) (View.ld x1 r1_1) (View.ld x2 r1_1) (View.ld x3 r1_1) (View.ld x4 r1_1) (View.ld x5 r1_2) (View.ld x6 r1_1)⟩]

/-- The one store covers the buffer. -/
theorem cover1_7 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 1000000 in
/-- The body on whole staging buffers, the inputs' at read contents `xW` and the output's at anything, runs to the
    continuation holding the inputs' as they were and the output's at `out1_7` of the inputs'. -/
theorem sound_kernel1 (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__bn_lin_tanh_kernel i arg1 harg1 arg2 harg2 arg3 harg3 arg4 harg4 arg5 harg5 arg6 harg6 arg7 harg7 arg8 harg8) K := by
  simp only [cc1__bn_lin_tanh_kernel_eq_skeleton]; unfold cc1__bn_lin_tanh_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of region 1 on core `c`: the arrays at the entry contents `V`; after the body at point `t` each
    input's buffer at its block and the output's at `out1_7` of the input blocks; the invariant that of a body
    keeping nothing between points; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.K.Reg2.lean ====
/- Region 2 of the program, at a generic grid point and at arbitrary entry contents `V` of the core's buffers:
   the body multiplies a 2000×128 block of rows by a 128×128 matrix, adds a bias row, takes tanh, multiplies
   by a 128×64 matrix and adds a second bias row, leaving a 2000×64 block.
   Every load and the one store go through the whole staging buffer, so the output window's buffer after the
   body is the stored value as a function of the input windows' blocks, and each input window's buffer holds
   that window's block at the point whether or not it was transferred there (a block whose index does not move
   between consecutive points is still the same block). -/
import proofs.«158204_j29978871726570_1_alg».proof.Proof.Gen.Kernel.Launch
import proofs.«158204_j29978871726570_1_alg».proof.Proof.Gen.Kernel.Skeleton
import proofs.«158204_j29978871726570_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array at the entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, transferred there or not, for any
    proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, transferred there or not, for any
    proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, transferred there or not, for any
    proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, transferred there or not, for any
    proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, transferred there or not, for any
    proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each the whole of its buffer -/

abbrev r2_0 : Rect S2000x128 := Rect.unit (s := S2000x128) ![0, 0] S2000x128.size inb_S2000x128_S2000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0
abbrev r2_3 : Rect S128x64 := Rect.unit (s := S128x64) ![0, 0] S128x64.size inb_S128x64_S128x64_0_0
abbrev r2_4 : Rect S1x64 := Rect.unit (s := S1x64) ![0, 0] S1x64.size inb_S1x64_S1x64_0_0
abbrev r2_5 : Rect S2000x64 := Rect.unit (s := S2000x64) ![0, 0] S2000x64.size inb_S2000x64_S2000x64_0_0

/-! ## What the body leaves in the output window's buffer -/

/-- Window 5's staging buffer after the body, from the input windows' blocks: the one stored value laid over
    the whole buffer. -/
def out2_5 (x0 : Vec F S2000x128 .f32) (x1 : Vec F S128x128 .f32) (x2 : Vec F S1x128 .f32) (x3 : Vec F S128x64 .f32) (x4 : Vec F S1x64 .f32) : Vec F S2000x64 .f32 :=
  View.canon [⟨r2_5, k2_pay1 (View.ld x0 r2_0) (View.ld x1 r2_1) (View.ld x2 r2_2) (View.ld x3 r2_3) (View.ld x4 r2_4)⟩]

/-- The one store covers the buffer. -/
theorem cover2_5 (p0 : Vec F S2000x64 .f32) (y : S2000x64.Idx) :
    ∃ pc ∈ ([⟨r2_5, p0⟩] : List (View.Piece (Elt F) S2000x64 .f32)), y ∈ pc.1.set :=
  View.cover_of_tiled [⟨r2_5, p0⟩] S2000x64.size (by rfl) y

/-! ## The body's triple -/

set_option maxHeartbeats 1000000 in
/-- The body on whole staging buffers, the inputs' at read contents `xW` and the output's at anything, runs to the
    continuation holding the inputs' as they were and the output's at `out2_5` of the inputs'. -/
theorem sound_kernel2 (c : Dev nD) (E : Set ℕ) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x64 .f32) (harg6 : arg6.IsWhole)
    (x0 : Vec F S2000x128 .f32) (x1 : Vec F S128x128 .f32) (x2 : Vec F S1x128 .f32) (x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__sg_out_kernel i arg1 harg1 arg2 harg2 arg3 harg3 arg4 harg4 arg5 harg5 arg6 harg6) K := by
  simp only [cc2__sg_out_kernel_eq_skeleton]; unfold cc2__sg_out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of region 2 on core `c`: the arrays at the entry contents `V`; after the body at point `t` each
    input's buffer at its block and the output's at `out2_5` of the input blocks; the invariant that of a body
    keeping nothing between points; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Region

end Cert.Kernel.Hand

end
-- ==== Proof.K.Run.lean ====
import proofs.«158204_j29978871726570_1_alg».proof.Proof.Gen.Kernel.Launch
import proofs.«158204_j29978871726570_1_alg».proof.Proof.Gen.Kernel.Skeleton
import proofs.«158204_j29978871726570_1_alg».proof.Proof.Gen.Kernel.Points
import proofs.«158204_j29978871726570_1_alg».proof.Proof.K.R0
import proofs.«158204_j29978871726570_1_alg».proof.Proof.K.Reg1
import proofs.«158204_j29978871726570_1_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: three kernel regions among three stretches of host operations

The buffer contents at every boundary are a fold from the launch memory: a host stretch applies its
operations, a region replaces its arrays by what its write-backs leave. Every weakly fair execution ends
with every unscoped buffer at the last boundary's contents. -/

variable (m : (ℓ : Loc nD τ sig) → Buf (Elt F) ℓ) (ρ : Dev nD → PrngReg)

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

abbrev W2 : Dev nD → Valuation τ sig (Elt F) := fun c => StableHlo.after main_part0_ops0 (W1 m ρ c)
abbrev V2 : (c : Dev nD) → (b : Ref sig .tc) → Buf (Elt F) ((c : Thread nD τ).loc b) := fun c b => W2 m ρ c b

/-- After region 1: its arrays at what its write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

abbrev W4 : Dev nD → Valuation τ sig (Elt F) := fun c => StableHlo.after main_part0_ops1 (W3 m ρ c)
abbrev W5 : Dev nD → Valuation τ sig (Elt F) := fun c => StableHlo.after main_part1_ops0 (W4 m ρ c)
abbrev V5 : (c : Dev nD) → (b : Ref sig .tc) → Buf (Elt F) ((c : Thread nD τ).loc b) := fun c b => W5 m ρ c b

/-- After region 2: its arrays at what its write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (main_part0_ops0 : List (HloOp τ sig (Elt F))).Forall fun op => op.fresh = ∅ := by
  simp only [List.Forall]; repeat' constructor
set_option maxHeartbeats 4000000 in
theorem ops1_fresh : (main_part0_ops1 : List (HloOp τ sig (Elt F))).Forall fun op => op.fresh = ∅ := by
  simp only [List.Forall]; repeat' constructor
theorem ops2_fresh : (main_part1_ops0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have hh : (pdats m ρ 0 c).Φ (Fin.last _) ⊢ iprop(Pipeline.scopedRest spec0 c ∗ ∃ r, prngReg c r) := hout0 (V0 m ρ) c
    iintro HP
    ihave H := hh $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg main_part0_ops0 main_part0_ops0_sub ops0_fresh (W1 m ρ)),
    .region (reg1 m ρ),
    .host (hseg main_part0_ops1 main_part0_ops1_sub ops1_fresh (W3 m ρ)),
    .host (hseg main_part1_ops0 main_part1_ops0_sub ops2_fresh (W4 m ρ)),
    .region (reg2 m ρ) ]
theorem main_run (c : Dev nD) : main (F := F) c = Pipeline.Seg.run (segs m ρ) := (main_chain_windows c).trans (by chain_rfl)

set_option backward.isDefEq.respectTransparency.types false in
/-- From any memory with zero counters every weakly fair execution of the program terminates, nothing faulting, and
    ends with every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Hand

end
-- ==== Proof.K.Args.lean ====
import proofs.«158204_j29978871726570_1_alg».proof.Proof.Gen.Kernel.Launch
import proofs.«158204_j29978871726570_1_alg».proof.Proof.Gen.Kernel.Skeleton
import proofs.«158204_j29978871726570_1_alg».proof.Proof.Gen.Kernel.Points
import proofs.«158204_j29978871726570_1_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The argument arrays end as launched

No host operation writes an argument and no region writes one back: a region reads an argument through an input
window, whose array its write-backs leave alone. So the last boundary's contents at an argument walk back to the
launch memory. -/

variable (m : (ℓ : Loc nD τ sig) → Buf (Elt F) ℓ) (ρ : Dev nD → PrngReg)

abbrev ops0_W : List (Ref sig .tc) := [main_v1, main_v2, main_v3, main_v4, main_v5, main_v6, main_v7]
abbrev ops1_W : List (Ref sig .tc) := [main_v9, main_c, main_v10, main_v11, main_c_0, main_v12, main_v13, main_v14, main_v15, main_v16, main_v17, main_v18, main_cst, main_v19, main_v20, main_v21, main_v22, main_c_1, main_v23, main_v24, main_c_2, main_v25, main_v26, main_v27, main_v28, main_v29, main_v30, main_v31, main_cst_3, main_v32, main_v33, main_v34, main_v35, main_c_4, main_v36, main_v37, main_c_5, main_v38, main_v39, main_v40, main_v41, main_v42, main_v43, main_v44, main_cst_6, main_v45, main_v46, main_v47, main_v48, main_c_7, main_v49]
abbrev ops2_W : List (Ref sig .tc) := [main_v50, main_c_8, main_v51, main_v52, main_v53, main_v54, main_v55, main_v56, main_v57, main_cst_9, main_v58, main_v59, main_v60, main_v61, main_v62]
theorem ops0_writes : (main_part0_ops0 : List (HloOp τ sig (Elt F))).Forall fun op => op.writes ⊆ (ops0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxHeartbeats 4000000 in
theorem ops1_writes : (main_part0_ops1 : List (HloOp τ sig (Elt F))).Forall fun op => op.writes ⊆ (ops1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem ops2_writes : (main_part1_ops0 : List (HloOp τ sig (Elt F))).Forall fun op => op.writes ⊆ (ops2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem W2_of (c : Dev nD) (r : Ref sig .tc) (h : r ∉ ops0_W) : W2 m ρ c r = W1 m ρ c r :=
  StableHlo.after_of_writes_sub main_part0_ops0 _ ops0_writes h
theorem W4_of (c : Dev nD) (r : Ref sig .tc) (h : r ∉ ops1_W) : W4 m ρ c r = W3 m ρ c r :=
  StableHlo.after_of_writes_sub main_part0_ops1 _ ops1_writes h
theorem W5_of (c : Dev nD) (r : Ref sig .tc) (h : r ∉ ops2_W) : W5 m ρ c r = W4 m ρ c r :=
  StableHlo.after_of_writes_sub main_part1_ops0 _ ops2_writes h

/-- A region leaves every buffer that is not one of its output arrays as it found it. -/
theorem W1_keep (c : Dev nD) (b : Ref sig .tc) (h1 : b ≠ main_v0_0) (h2 : b ≠ main_v0_1) :
    W1 m ρ c (Proc.devRef .tc b) = W0 m ρ c (Proc.devRef .tc b) := by
  by_cases h : ∃ w, Pipeline.arrRef spec0 w = b
  · obtain ⟨w, rfl⟩ := h
    match w with
    | ⟨0, _⟩ => exact (W1_arr m ρ c 0).trans (((dat0 (V0 m ρ) c).arrAt_in 0 rfl _).trans (A_eq0 _ c 0))
    | ⟨1, _⟩ => exact absurd rfl h1
    | ⟨2, _⟩ => exact absurd rfl h2
  · exact W1_of_ne m ρ c b (fun w e => h ⟨w, e⟩)
theorem W3_keep (c : Dev nD) (b : Ref sig .tc) (h1 : b ≠ main_v8) :
    W3 m ρ c (Proc.devRef .tc b) = W2 m ρ c (Proc.devRef .tc b) := by
  by_cases h : ∃ w, Pipeline.arrRef spec1 w = b
  · obtain ⟨w, rfl⟩ := h
    match w with
    | ⟨0, _⟩ => exact (W3_arr m ρ c 0).trans (((dat1 (V2 m ρ) c).arrAt_in 0 rfl _).trans (A_eq1 _ c 0))
    | ⟨1, _⟩ => exact (W3_arr m ρ c 1).trans (((dat1 (V2 m ρ) c).arrAt_in 1 rfl _).trans (A_eq1 _ c 1))
    | ⟨2, _⟩ => exact (W3_arr m ρ c 2).trans (((dat1 (V2 m ρ) c).arrAt_in 2 rfl _).trans (A_eq1 _ c 2))
    | ⟨3, _⟩ => exact (W3_arr m ρ c 3).trans (((dat1 (V2 m ρ) c).arrAt_in 3 rfl _).trans (A_eq1 _ c 3))
    | ⟨4, _⟩ => exact (W3_arr m ρ c 4).trans (((dat1 (V2 m ρ) c).arrAt_in 4 rfl _).trans (A_eq1 _ c 4))
    | ⟨5, _⟩ => exact (W3_arr m ρ c 5).trans (((dat1 (V2 m ρ) c).arrAt_in 5 rfl _).trans (A_eq1 _ c 5))
    | ⟨6, _⟩ => exact (W3_arr m ρ c 6).trans (((dat1 (V2 m ρ) c).arrAt_in 6 rfl _).trans (A_eq1 _ c 6))
    | ⟨7, _⟩ => exact absurd rfl h1
  · exact W3_of_ne m ρ c b (fun w e => h ⟨w, e⟩)
theorem W6_keep (c : Dev nD) (b : Ref sig .tc) (h1 : b ≠ main_v63) :
    W6 m ρ c (Proc.devRef .tc b) = W5 m ρ c (Proc.devRef .tc b) := by
  by_cases h : ∃ w, Pipeline.arrRef spec2 w = b
  · obtain ⟨w, rfl⟩ := h
    match w with
    | ⟨0, _⟩ => exact (W6_arr m ρ c 0).trans (((dat2 (V5 m ρ) c).arrAt_in 0 rfl _).trans (A_eq2 _ c 0))
    | ⟨1, _⟩ => exact (W6_arr m ρ c 1).trans (((dat2 (V5 m ρ) c).arrAt_in 1 rfl _).trans (A_eq2 _ c 1))
    | ⟨2, _⟩ => exact (W6_arr m ρ c 2).trans (((dat2 (V5 m ρ) c).arrAt_in 2 rfl _).trans (A_eq2 _ c 2))
    | ⟨3, _⟩ => exact (W6_arr m ρ c 3).trans (((dat2 (V5 m ρ) c).arrAt_in 3 rfl _).trans (A_eq2 _ c 3))
    | ⟨4, _⟩ => exact (W6_arr m ρ c 4).trans (((dat2 (V5 m ρ) c).arrAt_in 4 rfl _).trans (A_eq2 _ c 4))
    | ⟨5, _⟩ => exact absurd rfl h1
  · exact W6_of_ne m ρ c b (fun w e => h ⟨w, e⟩)

/-- A buffer no region writes back and no host operation writes ends holding its launch contents. -/
theorem W6_launch (c : Dev nD) (a : Ref sig .tc) (h63 : a ≠ main_v63) (h2 : a ∉ ops2_W) (h1 : a ∉ ops1_W) (h8 : a ≠ main_v8)
    (h0 : a ∉ ops0_W) (ha : a ≠ main_v0_0) (hb : a ≠ main_v0_1) :
    W6 m ρ c (Proc.devRef .tc a) = m ((c : Thread nD τ).loc a) :=
  (W6_keep m ρ c a h63).trans <| (W5_of m ρ c a h2).trans <| (W4_of m ρ c a h1).trans <| (W3_keep m ρ c a h8).trans <|
    (W2_of m ρ c a h0).trans <| (W1_keep m ρ c a ha hb).trans rfl

theorem W6_arg0 (c : Dev nD) : W6 m ρ c (Proc.devRef .tc main_arg0) = m ((c : Thread nD τ).loc main_arg0) :=
  W6_launch m ρ c main_arg0 (by decide) (by decide) (by decide) (by decide) (by decide) (by decide) (by decide)
theorem W6_arg1 (c : Dev nD) : W6 m ρ c (Proc.devRef .tc main_arg1) = m ((c : Thread nD τ).loc main_arg1) :=
  W6_launch m ρ c main_arg1 (by decide) (by decide) (by decide) (by decide) (by decide) (by decide) (by decide)
theorem W6_arg2 (c : Dev nD) : W6 m ρ c (Proc.devRef .tc main_arg2) = m ((c : Thread nD τ).loc main_arg2) :=
  W6_launch m ρ c main_arg2 (by decide) (by decide) (by decide) (by decide) (by decide) (by decide) (by decide)
theorem W6_arg3 (c : Dev nD) : W6 m ρ c (Proc.devRef .tc main_arg3) = m ((c : Thread nD τ).loc main_arg3) :=
  W6_launch m ρ c main_arg3 (by decide) (by decide) (by decide) (by decide) (by decide) (by decide) (by decide)
theorem W6_arg4 (c : Dev nD) : W6 m ρ c (Proc.devRef .tc main_arg4) = m ((c : Thread nD τ).loc main_arg4) :=
  W6_launch m ρ c main_arg4 (by decide) (by decide) (by decide) (by decide) (by decide) (by decide) (by decide)
theorem W6_arg5 (c : Dev nD) : W6 m ρ c (Proc.devRef .tc main_arg5) = m ((c : Thread nD τ).loc main_arg5) :=
  W6_launch m ρ c main_arg5 (by decide) (by decide) (by decide) (by decide) (by decide) (by decide) (by decide)
theorem W6_arg6 (c : Dev nD) : W6 m ρ c (Proc.devRef .tc main_arg6) = m ((c : Thread nD τ).loc main_arg6) :=
  W6_launch m ρ c main_arg6 (by decide) (by decide) (by decide) (by decide) (by decide) (by decide) (by decide)
theorem W6_arg7 (c : Dev nD) : W6 m ρ c (Proc.devRef .tc main_arg7) = m ((c : Thread nD τ).loc main_arg7) :=
  W6_launch m ρ c main_arg7 (by decide) (by decide) (by decide) (by decide) (by decide) (by decide) (by decide)
theorem W6_arg8 (c : Dev nD) : W6 m ρ c (Proc.devRef .tc main_arg8) = m ((c : Thread nD τ).loc main_arg8) :=
  W6_launch m ρ c main_arg8 (by decide) (by decide) (by decide) (by decide) (by decide) (by decide) (by decide)
theorem W6_arg9 (c : Dev nD) : W6 m ρ c (Proc.devRef .tc main_arg9) = m ((c : Thread nD τ).loc main_arg9) :=
  W6_launch m ρ c main_arg9 (by decide) (by decide) (by decide) (by decide) (by decide) (by decide) (by decide)
theorem W6_arg10 (c : Dev nD) : W6 m ρ c (Proc.devRef .tc main_arg10) = m ((c : Thread nD τ).loc main_arg10) :=
  W6_launch m ρ c main_arg10 (by decide) (by decide) (by decide) (by decide) (by decide) (by decide) (by decide)
theorem W6_arg11 (c : Dev nD) : W6 m ρ c (Proc.devRef .tc main_arg11) = m ((c : Thread nD τ).loc main_arg11) :=
  W6_launch m ρ c main_arg11 (by decide) (by decide) (by decide) (by decide) (by decide) (by decide) (by decide)

/-- The frame: every execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W6_arg0 m ρ c),
     (h c _ (mem_uc main_arg1 (by decide))).trans (W6_arg1 m ρ c),
     (h c _ (mem_uc main_arg2 (by decide))).trans (W6_arg2 m ρ c),
     (h c _ (mem_uc main_arg3 (by decide))).trans (W6_arg3 m ρ c),
     (h c _ (mem_uc main_arg4 (by decide))).trans (W6_arg4 m ρ c),
     (h c _ (mem_uc main_arg5 (by decide))).trans (W6_arg5 m ρ c),
     (h c _ (mem_uc main_arg6 (by decide))).trans (W6_arg6 m ρ c),
     (h c _ (mem_uc main_arg7 (by decide))).trans (W6_arg7 m ρ c),
     (h c _ (mem_uc main_arg8 (by decide))).trans (W6_arg8 m ρ c),
     (h c _ (mem_uc main_arg9 (by decide))).trans (W6_arg9 m ρ c),
     (h c _ (mem_uc main_arg10 (by decide))).trans (W6_arg10 m ρ c),
     (h c _ (mem_uc main_arg11 (by decide))).trans (W6_arg11 m ρ c)⟩) (run_all m ρ)

/-- The same run, with the result array named: it ends at the last boundary's contents. -/
theorem run_result : θ_run defs (onTc (τ := τ) (main (F := F))) ⟨m, fun _ => 0, ρ⟩ (fun r => ∀ c : Dev nD,
      r.2.mem ((c.tc : Thread nD τ).loc main_v63) = W6 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v63 (by decide)),
     (h c _ (mem_uc main_arg0 (by decide))).trans (W6_arg0 m ρ c),
     (h c _ (mem_uc main_arg1 (by decide))).trans (W6_arg1 m ρ c),
     (h c _ (mem_uc main_arg2 (by decide))).trans (W6_arg2 m ρ c),
     (h c _ (mem_uc main_arg3 (by decide))).trans (W6_arg3 m ρ c),
     (h c _ (mem_uc main_arg4 (by decide))).trans (W6_arg4 m ρ c),
     (h c _ (mem_uc main_arg5 (by decide))).trans (W6_arg5 m ρ c),
     (h c _ (mem_uc main_arg6 (by decide))).trans (W6_arg6 m ρ c),
     (h c _ (mem_uc main_arg7 (by decide))).trans (W6_arg7 m ρ c),
     (h c _ (mem_uc main_arg8 (by decide))).trans (W6_arg8 m ρ c),
     (h c _ (mem_uc main_arg9 (by decide))).trans (W6_arg9 m ρ c),
     (h c _ (mem_uc main_arg10 (by decide))).trans (W6_arg10 m ρ c),
     (h c _ (mem_uc main_arg11 (by decide))).trans (W6_arg11 m ρ c)⟩) (run_all m ρ)

end Cert.Kernel.Hand

end
-- ==== Proof.KI.R0Runs.lean ====
import proofs.«158204_j29978871726570_1_alg».proof.Proof.Gen.KernelIdeal.Launch
import proofs.«158204_j29978871726570_1_alg».proof.Proof.Gen.KernelIdeal.Skeleton
import proofs.«158204_j29978871726570_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region (the first of the three kernel regions): the body, case by case

The body adds the tile's column sums and column sums of squares into two carried buffers; at the first
grid point it first clears them, at the last it also divides by the row count and stores the mean and
the variance. Three control cases over the 50 points: the first, the middle ones, the last. -/

/-- The first branch's condition from the grid coordinate: "this is point 0". -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)
/-- The second branch's condition: "this is the last point". -/
abbrev cond0_2 (i : grid0.Coords) : Prop := k0_cond2 i = 1#1
theorem hcond0_2 : ∀ t : Fin cfg0.N, cond0_2 (grid0.coords t) ↔ t.val % 50 = 49 :=
  (by decide +kernel : ∀ t : Fin grid0.N, cond0_2 (grid0.coords t) ↔ t.val % 50 = 49)

/-- The tile window is never idle; the two result windows are idle, and not written back, away from the last point. -/
theorem liveAt0_0 : ∀ t : Fin cfg0.N, cfg0.idle 0 (grid0.coords t) = false := by decide +kernel
theorem idleAt0_1 : ∀ t : Fin cfg0.N, ¬cond0_2 (grid0.coords t) → cfg0.idle 1 (grid0.coords t) = true := by decide +kernel
theorem idleAt0_2 : ∀ t : Fin cfg0.N, ¬cond0_2 (grid0.coords t) → cfg0.idle 2 (grid0.coords t) = true := by decide +kernel
theorem noFlush0_1 : ∀ t : Fin cfg0.N, ¬cond0_2 (grid0.coords t) → (cfg0.win 1).flush t = false := by decide +kernel
theorem noFlush0_2 : ∀ t : Fin cfg0.N, ¬cond0_2 (grid0.coords t) → (cfg0.win 2).flush t = false := by decide +kernel
theorem liveAt0_1 : ∀ t : Fin cfg0.N, cond0_2 (grid0.coords t) → cfg0.idle 1 (grid0.coords t) = false := by decide +kernel
theorem liveAt0_2 : ∀ t : Fin cfg0.N, cond0_2 (grid0.coords t) → cfg0.idle 2 (grid0.coords t) = false := by decide +kernel

/-- The windows' current staging memrefs at a point, and the two carried buffers. -/
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev scM0_0 : Memref sig .tc .vmem S1x128 .f32 := Memref.whole cc0_scratch0
abbrev scM0_1 : Memref sig .tc .vmem S1x128 .f32 := Memref.whole cc0_scratch1
/-- Views through which a buffer's contents after a list of stores are stated (the choice does not matter). -/
abbrev VO0_1 : View sig .tc .vmem S1x128 .f32 := (Memref.whole cc0_stg1_0 : Memref sig .tc .vmem S1x128 .f32).view
abbrev VO0_2 : View sig .tc .vmem S1x128 .f32 := (Memref.whole cc0_stg2_0 : Memref sig .tc .vmem S1x128 .f32).view
abbrev VS0_0 : View sig .tc .vmem S1x128 .f32 := scM0_0.view
abbrev VS0_1 : View sig .tc .vmem S1x128 .f32 := scM0_1.view

set_option maxHeartbeats 2000000 in
/-- The first point: the carried buffers hold anything, are cleared and then added to; the result windows are untouched.
    The lists are the stores each carried buffer received, last first. -/
noncomputable def kernelRun0_A (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond0_0 i) (hc2 : ¬cond0_2 i)
    (x0 : Vec F S2000x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, fun xi1 xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 2000000 in
/-- A middle point: the carried buffers hold what the point before left and are added to. -/
noncomputable def kernelRun0_B (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : ¬cond0_2 i)
    (x0 : Vec F S2000x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, fun xi1 xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 2000000 in
/-- The last point: the carried buffers are added to, then the mean and the variance are stored into the result windows. -/
noncomputable def kernelRun0_C (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : cond0_2 i)
    (x0 : Vec F S2000x128 .f32) (xs0 xs1 : Vec F S1x128 .f32) :
    Σ' (L1 : List (View.Piece (Elt F) S1x128 .f32)) (L2 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc2)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.KernelIdeal.Hand

end
-- ==== Proof.KI.R0.lean ====
import proofs.«158204_j29978871726570_1_alg».proof.Proof.Gen.KernelIdeal.Launch
import proofs.«158204_j29978871726570_1_alg».proof.Proof.Gen.KernelIdeal.Skeleton
import proofs.«158204_j29978871726570_1_alg».proof.Proof.Gen.KernelIdeal.Points
import proofs.«158204_j29978871726570_1_alg».proof.Proof.KI.R0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region: what the carried buffers and the result windows hold after each point,
the region's invariant, its proof data and its body obligation — at a parameter `V`, the buffer
contents when the region is entered. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile window's staging buffer holds its block at every point, for any proof data over `V`'s array
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: its stores read back -/

def sout0_A_0 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond0_0 i) (hc2 : ¬cond0_2 i) (x0 : Vec F S2000x128 .f32) : Vec F S1x128 .f32 :=
  VS0_0.read (Elt F) (VS0_0.writes (Elt F) VS0_0.junk (kernelRun0_A c i arg1 harg1 arg2 harg2 arg3 harg3 arg4 harg4 arg5 harg5 hc0 hc2 x0).1)
def sout0_A_1 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond0_0 i) (hc2 : ¬cond0_2 i) (x0 : Vec F S2000x128 .f32) : Vec F S1x128 .f32 :=
  VS0_1.read (Elt F) (VS0_1.writes (Elt F) VS0_1.junk (kernelRun0_A c i arg1 harg1 arg2 harg2 arg3 harg3 arg4 harg4 arg5 harg5 hc0 hc2 x0).2.1)
def sout0_B_0 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : ¬cond0_2 i) (x0 : Vec F S2000x128 .f32) (xs0 xs1 : Vec F S1x128 .f32) : Vec F S1x128 .f32 :=
  VS0_0.read (Elt F) (VS0_0.writes (Elt F) VS0_0.junk (kernelRun0_B c i arg1 harg1 arg2 harg2 arg3 harg3 arg4 harg4 arg5 harg5 hc0 hc2 x0 xs0 xs1).1)
def sout0_B_1 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : ¬cond0_2 i) (x0 : Vec F S2000x128 .f32) (xs0 xs1 : Vec F S1x128 .f32) : Vec F S1x128 .f32 :=
  VS0_1.read (Elt F) (VS0_1.writes (Elt F) VS0_1.junk (kernelRun0_B c i arg1 harg1 arg2 harg2 arg3 harg3 arg4 harg4 arg5 harg5 hc0 hc2 x0 xs0 xs1).2.1)
def out0_C_1 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : cond0_2 i) (x0 : Vec F S2000x128 .f32) (xs0 xs1 : Vec F S1x128 .f32) : Vec F S1x128 .f32 :=
  VO0_1.read (Elt F) (VO0_1.writes (Elt F) VO0_1.junk (kernelRun0_C c i arg1 harg1 arg2 harg2 arg3 harg3 arg4 harg4 arg5 harg5 hc0 hc2 x0 xs0 xs1).1)
def out0_C_2 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : cond0_2 i) (x0 : Vec F S2000x128 .f32) (xs0 xs1 : Vec F S1x128 .f32) : Vec F S1x128 .f32 :=
  VO0_2.read (Elt F) (VO0_2.writes (Elt F) VO0_2.junk (kernelRun0_C c i arg1 harg1 arg2 harg2 arg3 harg3 arg4 harg4 arg5 harg5 hc0 hc2 x0 xs0 xs1).2.1)
def sout0_C_0 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : cond0_2 i) (x0 : Vec F S2000x128 .f32) (xs0 xs1 : Vec F S1x128 .f32) : Vec F S1x128 .f32 :=
  VS0_0.read (Elt F) (VS0_0.writes (Elt F) VS0_0.junk (kernelRun0_C c i arg1 harg1 arg2 harg2 arg3 harg3 arg4 harg4 arg5 harg5 hc0 hc2 x0 xs0 xs1).2.2.1)
def sout0_C_1 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : cond0_2 i) (x0 : Vec F S2000x128 .f32) (xs0 xs1 : Vec F S1x128 .f32) : Vec F S1x128 .f32 :=
  VS0_1.read (Elt F) (VS0_1.writes (Elt F) VS0_1.junk (kernelRun0_C c i arg1 harg1 arg2 harg2 arg3 harg3 arg4 harg4 arg5 harg5 hc0 hc2 x0 xs0 xs1).2.2.2.1)

/-- Every store of the body writes a whole buffer, so a list of stores whose head is one covers the buffer. -/
theorem cover_head (p : Vec F S1x128 .f32) (L : List (View.Piece (Elt F) S1x128 .f32)) (y : S1x128.Idx) :
    ∃ pc ∈ (⟨Rect.unit (s := S1x128) ![0, 0] S1x128.size inb_S1x128_S1x128_0_0, p⟩ :: L : List (View.Piece (Elt F) S1x128 .f32)), y ∈ pc.1.set := by
  obtain ⟨pc, hpc, hy⟩ := View.cover_of_tiled ([⟨Rect.unit (s := S1x128) ![0, 0] S1x128.size inb_S1x128_S1x128_0_0, p⟩] : List (View.Piece (Elt F) S1x128 .f32)) S1x128.size (by rfl) y
  rw [List.mem_singleton] at hpc
  subst hpc
  exact ⟨_, List.mem_cons_self, hy⟩

theorem scover0_A_0 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond0_0 i) (hc2 : ¬cond0_2 i) (x0 : Vec F S2000x128 .f32) (y : S1x128.Idx) :
    ∃ pc ∈ (kernelRun0_A c i arg1 harg1 arg2 harg2 arg3 harg3 arg4 harg4 arg5 harg5 hc0 hc2 x0).1, y ∈ pc.1.set := cover_head _ _ y
theorem scover0_A_1 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond0_0 i) (hc2 : ¬cond0_2 i) (x0 : Vec F S2000x128 .f32) (y : S1x128.Idx) :
    ∃ pc ∈ (kernelRun0_A c i arg1 harg1 arg2 harg2 arg3 harg3 arg4 harg4 arg5 harg5 hc0 hc2 x0).2.1, y ∈ pc.1.set := cover_head _ _ y
theorem scover0_B_0 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : ¬cond0_2 i) (x0 : Vec F S2000x128 .f32) (xs0 xs1 : Vec F S1x128 .f32) (y : S1x128.Idx) :
    ∃ pc ∈ (kernelRun0_B c i arg1 harg1 arg2 harg2 arg3 harg3 arg4 harg4 arg5 harg5 hc0 hc2 x0 xs0 xs1).1, y ∈ pc.1.set := cover_head _ _ y
theorem scover0_B_1 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : ¬cond0_2 i) (x0 : Vec F S2000x128 .f32) (xs0 xs1 : Vec F S1x128 .f32) (y : S1x128.Idx) :
    ∃ pc ∈ (kernelRun0_B c i arg1 harg1 arg2 harg2 arg3 harg3 arg4 harg4 arg5 harg5 hc0 hc2 x0 xs0 xs1).2.1, y ∈ pc.1.set := cover_head _ _ y
theorem cover0_C_1 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : cond0_2 i) (x0 : Vec F S2000x128 .f32) (xs0 xs1 : Vec F S1x128 .f32) (y : S1x128.Idx) :
    ∃ pc ∈ (kernelRun0_C c i arg1 harg1 arg2 harg2 arg3 harg3 arg4 harg4 arg5 harg5 hc0 hc2 x0 xs0 xs1).1, y ∈ pc.1.set := cover_head _ _ y
theorem cover0_C_2 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : cond0_2 i) (x0 : Vec F S2000x128 .f32) (xs0 xs1 : Vec F S1x128 .f32) (y : S1x128.Idx) :
    ∃ pc ∈ (kernelRun0_C c i arg1 harg1 arg2 harg2 arg3 harg3 arg4 harg4 arg5 harg5 hc0 hc2 x0 xs0 xs1).2.1, y ∈ pc.1.set := cover_head _ _ y
theorem scover0_C_0 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : cond0_2 i) (x0 : Vec F S2000x128 .f32) (xs0 xs1 : Vec F S1x128 .f32) (y : S1x128.Idx) :
    ∃ pc ∈ (kernelRun0_C c i arg1 harg1 arg2 harg2 arg3 harg3 arg4 harg4 arg5 harg5 hc0 hc2 x0 xs0 xs1).2.2.1, y ∈ pc.1.set := cover_head _ _ y
theorem scover0_C_1 (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : cond0_2 i) (x0 : Vec F S2000x128 .f32) (xs0 xs1 : Vec F S1x128 .f32) (y : S1x128.Idx) :
    ∃ pc ∈ (kernelRun0_C c i arg1 harg1 arg2 harg2 arg3 harg3 arg4 harg4 arg5 harg5 hc0 hc2 x0 xs0 xs1).2.2.2.1, y ∈ pc.1.set := cover_head _ _ y

/-! ## The accumulation -/

/-- A placeholder for a result window's buffer at the points where the body does not touch it: nothing reads it. -/
def idleOut : Vec F S1x128 .f32 := VO0_1.read (Elt F) VO0_1.junk

/-- What the two carried buffers hold after the body at position `n`: the first point's stores, then each later
    point's stores over what the point before left. -/
def acc0 (c : Dev nD) : (n : ℕ) → n < cfg0.N → Vec F S1x128 .f32 × Vec F S1x128 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => absurd ((hcond0_2 ⟨0, hn⟩).mp h) (by simp only []; omega)) (iblk0 V c 0 ⟨0, hn⟩),
              sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => absurd ((hcond0_2 ⟨0, hn⟩).mp h) (by simp only []; omega)) (iblk0 V c 0 ⟨0, hn⟩))
  | n + 1, hn =>
    if h2 : (n + 1) % 50 = 49 then
      (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (by have hN : n + 1 < 50 := lt_of_lt_of_eq hn (show cfg0.N = 50 from N_0); simp only []; omega)) ((hcond0_2 ⟨n + 1, hn⟩).mpr h2) (iblk0 V c 0 ⟨n + 1, hn⟩) (acc0 c n (Nat.lt_of_succ_lt hn)).1 (acc0 c n (Nat.lt_of_succ_lt hn)).2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (by have hN : n + 1 < 50 := lt_of_lt_of_eq hn (show cfg0.N = 50 from N_0); simp only []; omega)) ((hcond0_2 ⟨n + 1, hn⟩).mpr h2) (iblk0 V c 0 ⟨n + 1, hn⟩) (acc0 c n (Nat.lt_of_succ_lt hn)).1 (acc0 c n (Nat.lt_of_succ_lt hn)).2)
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (by have hN : n + 1 < 50 := lt_of_lt_of_eq hn (show cfg0.N = 50 from N_0); simp only []; omega)) (fun h => h2 ((hcond0_2 ⟨n + 1, hn⟩).mp h)) (iblk0 V c 0 ⟨n + 1, hn⟩) (acc0 c n (Nat.lt_of_succ_lt hn)).1 (acc0 c n (Nat.lt_of_succ_lt hn)).2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (by have hN : n + 1 < 50 := lt_of_lt_of_eq hn (show cfg0.N = 50 from N_0); simp only []; omega)) (fun h => h2 ((hcond0_2 ⟨n + 1, hn⟩).mp h)) (iblk0 V c 0 ⟨n + 1, hn⟩) (acc0 c n (Nat.lt_of_succ_lt hn)).1 (acc0 c n (Nat.lt_of_succ_lt hn)).2)

/-- What the two result windows' buffers hold after the body at point `t`: the mean and the variance at the last
    point, nothing that matters before it. -/
def outs0 (c : Dev nD) (t : Fin cfg0.N) : Vec F S1x128 .f32 × Vec F S1x128 .f32 :=
  if h2 : t.val % 50 = 49 then
    have hlt : t.val - 1 < cfg0.N := Nat.lt_of_le_of_lt (Nat.sub_le _ _) t.isLt
    have hc0 : ¬cond0_0 (grid0.coords t) := fun h => absurd ((hcond0_0 t).mp h) (by omega)
    (out0_C_1 c (grid0.coords t) (ms0_0 t) (hs0_0 t) (ms0_1 t) (hs0_1 t) (ms0_2 t) (hs0_2 t) scM0_0 (Memref.isWhole_whole _) scM0_1 (Memref.isWhole_whole _) hc0 ((hcond0_2 t).mpr h2) (iblk0 V c 0 t) (acc0 V c (t.val - 1) hlt).1 (acc0 V c (t.val - 1) hlt).2,
     out0_C_2 c (grid0.coords t) (ms0_0 t) (hs0_0 t) (ms0_1 t) (hs0_1 t) (ms0_2 t) (hs0_2 t) scM0_0 (Memref.isWhole_whole _) scM0_1 (Memref.isWhole_whole _) hc0 ((hcond0_2 t).mpr h2) (iblk0 V c 0 t) (acc0 V c (t.val - 1) hlt).1 (acc0 V c (t.val - 1) hlt).2)
  else (idleOut, idleOut)

/-- `acc0` at the first point, at a middle point, at the last point. -/
theorem acc0_A (c : Dev nD) (t : Fin cfg0.N) (hz : t.val = 0) (h0 : cond0_0 (grid0.coords t)) (h2 : ¬cond0_2 (grid0.coords t)) :
    acc0 V c t.val t.isLt = (sout0_A_0 c (grid0.coords t) (ms0_0 t) (hs0_0 t) (ms0_1 t) (hs0_1 t) (ms0_2 t) (hs0_2 t) scM0_0 (Memref.isWhole_whole _) scM0_1 (Memref.isWhole_whole _) h0 h2 (iblk0 V c 0 t), sout0_A_1 c (grid0.coords t) (ms0_0 t) (hs0_0 t) (ms0_1 t) (hs0_1 t) (ms0_2 t) (hs0_2 t) scM0_0 (Memref.isWhole_whole _) scM0_1 (Memref.isWhole_whole _) h0 h2 (iblk0 V c 0 t)) := by
  obtain ⟨n, hn⟩ := t
  cases n with
  | zero => rfl
  | succ n => exact absurd hz (Nat.succ_ne_zero n)
theorem acc0_B (c : Dev nD) (t : Fin cfg0.N) (hz : t.val ≠ 0) (h49 : ¬t.val % 50 = 49) (h0 : ¬cond0_0 (grid0.coords t)) (h2 : ¬cond0_2 (grid0.coords t)) :
    acc0 V c t.val t.isLt = (sout0_B_0 c (grid0.coords t) (ms0_0 t) (hs0_0 t) (ms0_1 t) (hs0_1 t) (ms0_2 t) (hs0_2 t) scM0_0 (Memref.isWhole_whole _) scM0_1 (Memref.isWhole_whole _) h0 h2 (iblk0 V c 0 t) (acc0 V c (t.val - 1) (Nat.lt_of_le_of_lt (Nat.sub_le _ _) t.isLt)).1 (acc0 V c (t.val - 1) (Nat.lt_of_le_of_lt (Nat.sub_le _ _) t.isLt)).2, sout0_B_1 c (grid0.coords t) (ms0_0 t) (hs0_0 t) (ms0_1 t) (hs0_1 t) (ms0_2 t) (hs0_2 t) scM0_0 (Memref.isWhole_whole _) scM0_1 (Memref.isWhole_whole _) h0 h2 (iblk0 V c 0 t) (acc0 V c (t.val - 1) (Nat.lt_of_le_of_lt (Nat.sub_le _ _) t.isLt)).1 (acc0 V c (t.val - 1) (Nat.lt_of_le_of_lt (Nat.sub_le _ _) t.isLt)).2) := by
  obtain ⟨n, hn⟩ := t
  cases n with
  | zero => exact absurd rfl hz
  | succ n => exact (dif_neg h49).trans rfl
theorem acc0_C (c : Dev nD) (t : Fin cfg0.N) (hz : t.val ≠ 0) (h49 : t.val % 50 = 49) (h0 : ¬cond0_0 (grid0.coords t)) (h2 : cond0_2 (grid0.coords t)) :
    acc0 V c t.val t.isLt = (sout0_C_0 c (grid0.coords t) (ms0_0 t) (hs0_0 t) (ms0_1 t) (hs0_1 t) (ms0_2 t) (hs0_2 t) scM0_0 (Memref.isWhole_whole _) scM0_1 (Memref.isWhole_whole _) h0 h2 (iblk0 V c 0 t) (acc0 V c (t.val - 1) (Nat.lt_of_le_of_lt (Nat.sub_le _ _) t.isLt)).1 (acc0 V c (t.val - 1) (Nat.lt_of_le_of_lt (Nat.sub_le _ _) t.isLt)).2, sout0_C_1 c (grid0.coords t) (ms0_0 t) (hs0_0 t) (ms0_1 t) (hs0_1 t) (ms0_2 t) (hs0_2 t) scM0_0 (Memref.isWhole_whole _) scM0_1 (Memref.isWhole_whole _) h0 h2 (iblk0 V c 0 t) (acc0 V c (t.val - 1) (Nat.lt_of_le_of_lt (Nat.sub_le _ _) t.isLt)).1 (acc0 V c (t.val - 1) (Nat.lt_of_le_of_lt (Nat.sub_le _ _) t.isLt)).2) := by
  obtain ⟨n, hn⟩ := t
  cases n with
  | zero => exact absurd rfl hz
  | succ n => exact (dif_pos h49).trans rfl
theorem outs0_C (c : Dev nD) (t : Fin cfg0.N) (h49 : t.val % 50 = 49) (h0 : ¬cond0_0 (grid0.coords t)) (h2 : cond0_2 (grid0.coords t)) :
    outs0 V c t = (out0_C_1 c (grid0.coords t) (ms0_0 t) (hs0_0 t) (ms0_1 t) (hs0_1 t) (ms0_2 t) (hs0_2 t) scM0_0 (Memref.isWhole_whole _) scM0_1 (Memref.isWhole_whole _) h0 h2 (iblk0 V c 0 t) (acc0 V c (t.val - 1) (Nat.lt_of_le_of_lt (Nat.sub_le _ _) t.isLt)).1 (acc0 V c (t.val - 1) (Nat.lt_of_le_of_lt (Nat.sub_le _ _) t.isLt)).2, out0_C_2 c (grid0.coords t) (ms0_0 t) (hs0_0 t) (ms0_1 t) (hs0_1 t) (ms0_2 t) (hs0_2 t) scM0_0 (Memref.isWhole_whole _) scM0_1 (Memref.isWhole_whole _) h0 h2 (iblk0 V c 0 t) (acc0 V c (t.val - 1) (Nat.lt_of_le_of_lt (Nat.sub_le _ _) t.isLt)).1 (acc0 V c (t.val - 1) (Nat.lt_of_le_of_lt (Nat.sub_le _ _) t.isLt)).2) := by
  unfold outs0; rw [dif_pos h49]

/-! ## The region's invariant -/

/-- The scoped buffers of the core that are neither a staging buffer of this region nor one of its two carried buffers. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The class invariant with the two carried buffers split off as memrefs owned at some contents. -/
theorem PhiA0_eq (c : Dev nD) :
    (Pipeline.ΦA spec0 c : sProp 𝕄)
      = iprop(((iprop(∃ d, owns (c : Thread nD τ) scM0_0 fullShare d) ∗ iprop(∃ d, owns (c : Thread nD τ) scM0_1 fullShare d)) ∗ restBut0 c) ∗ (∃ r, prngReg c r)) := by
  unfold Pipeline.ΦA
  rw [Pipeline.scopedRest_split_of_list spec0 c [cc0_scratch0, cc0_scratch1] (by decide) (by decide)]
  simp only [BI.bigSepL_cons_cons, BI.bigSepL_singleton, scM0_0, scM0_1, owns_whole]; try rfl

/-- Before the first point the carried buffers hold anything; before a later point, what the point before left. -/
def PhiS (c : Dev nD) : (n : ℕ) → n ≤ cfg0.N → sProp 𝕄
  | 0, _ => Pipeline.ΦA spec0 c
  | n + 1, hn => iprop(((owns (c : Thread nD τ) scM0_0 fullShare (acc0 V c n hn).1 ∗ owns (c : Thread nD τ) scM0_1 fullShare (acc0 V c n hn).2) ∗ restBut0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(((owns (c : Thread nD τ) scM0_0 fullShare (acc0 V c n hn).1 ∗ owns (c : Thread nD τ) scM0_1 fullShare (acc0 V c n hn).2) ∗ restBut0 c) ∗ (∃ r, prngReg c r)) := rfl
theorem PhiS_pos (c : Dev nD) (n : ℕ) (h : n ≤ cfg0.N) (hz : n ≠ 0) :
    PhiS V c n h = iprop(((owns (c : Thread nD τ) scM0_0 fullShare (acc0 V c (n - 1) (by omega)).1 ∗ owns (c : Thread nD τ) scM0_1 fullShare (acc0 V c (n - 1) (by omega)).2) ∗ restBut0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outs0 V c t).1
    | ⟨2, _⟩ => (outs0 V c t).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outs0 V c t).1 := by dsimp only [dat0]
theorem after0_2 (c : Dev nD) (t : Fin cfg0.N) : (dat0 V c).after 2 t = (outs0 V c t).2 := by dsimp only [dat0]
theorem before0_0 (c : Dev nD) (t : Fin cfg0.N) (d) : (dat0 V c).before 0 t d = iblk0 V c 0 t :=
  before0_0_of V (dat0 V c) (A_eq0 V c 0) (after0_0 V c) t d

/-- A buffer that received a covering list of stores is owned at those stores read back, whatever it held before
    and through whichever view the result is stated. -/
theorem owns_back (c : Dev nD) (M : Memref sig .tc .vmem S1x128 .f32) (es : BufTy.Contents (Elt F) M.view.ty)
    (L : List (View.Piece (Elt F) S1x128 .f32)) (v' : View sig .tc .vmem S1x128 .f32) (hcov : ∀ y, ∃ pc ∈ L, y ∈ pc.1.set) :
    (M.view.loc (c : Thread nD τ) ↦[M.view.set]{fullShare} M.view.writes (Elt F) es L : sProp 𝕄)
      ⊢ owns (c : Thread nD τ) M fullShare (v'.read (Elt F) (v'.writes (Elt F) v'.junk L)) := by
  unfold owns
  iintro H
  iexists _; isplitr
  swap; · iexact H
  ipureintro; exact View.read_writes_of_cover _ _ _ _ _ hcov

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the case is decided by the point's position; the invariant hands the body the carried
    buffers at what the point before left (at anything at the first point) and takes them back at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
      unfold Dat.leavesExact; rw [liveAt0_0 t], after0_0]
  have hN : t.val < 50 := lt_of_lt_of_eq t.isLt (show cfg0.N = 50 from N_0)
  by_cases hz : t.val = 0
  · have h0 : cond0_0 (grid0.coords t) := (hcond0_0 t).mpr (by omega)
    have h2 : ¬cond0_2 (grid0.coords t) := fun h => by have := (hcond0_2 t).mp h; omega
    rw [Dat.leavesExact_idle (dat0 V c) 1 t (idleAt0_1 t h2) (noFlush0_1 t h2), Dat.leavesExact_idle (dat0 V c) 2 t (idleAt0_2 t h2) (noFlush0_2 t h2)]
    rw [acc0_A V c t hz h0 h2]
    unfold sout0_A_0 sout0_A_1; (try dsimp only)
    rw [PhiS_castSucc V c t, PhiS_zero V c _ _ hz, PhiA0_eq]
    iintro ⟨⟨⟨⟨HS0, HS1⟩, Hb⟩, Hg⟩, Ho, ⟨%d0, H0⟩, ⟨%d1, H1⟩, ⟨%d2, H2⟩⟩
    iapply ((kernelRun0_A c (grid0.coords t) _ _ _ _ _ _ _ _ _ _ h0 h2 (iblk0 V c 0 t)).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hb Hg]
    · isplitl [HS0 HS1 Hb]
      · isplitl [HS0 HS1]
        · isplitl [HS0]
          · iapply (owns_back c _ _ _ _ (scover0_A_0 c _ _ _ _ _ _ _ _ _ _ _ _ _ _)); iexact HS0
          iapply (owns_back c _ _ _ _ (scover0_A_1 c _ _ _ _ _ _ _ _ _ _ _ _ _ _)); iexact HS1
        iexact Hb
      iexact Hg
    isplitl [Ho]; · iexact Ho
    isplitl [H0]; · iexact H0
    isplitl [H1]; · iexists _; iexact H1
    iexists _; iexact H2
  · have h0 : ¬cond0_0 (grid0.coords t) := fun h => hz (by have := (hcond0_0 t).mp h; omega)
    rw [PhiS_castSucc V c t, PhiS_pos V c _ _ hz]
    by_cases h49 : t.val % 50 = 49
    · have h2 : cond0_2 (grid0.coords t) := (hcond0_2 t).mpr h49
      rw [show (dat0 V c).leavesExact 1 t = owns (c : Thread nD τ) (ms0_1 t) fullShare ((dat0 V c).after 1 t) from by
          unfold Dat.leavesExact; rw [liveAt0_1 t h2], after0_1,
        show (dat0 V c).leavesExact 2 t = owns (c : Thread nD τ) (ms0_2 t) fullShare ((dat0 V c).after 2 t) from by
          unfold Dat.leavesExact; rw [liveAt0_2 t h2], after0_2]
      rw [acc0_C V c t hz h49 h0 h2, outs0_C V c t h49 h0 h2]
      unfold sout0_C_0 sout0_C_1 out0_C_1 out0_C_2; (try dsimp only)
      iintro ⟨⟨⟨⟨HS0, HS1⟩, Hb⟩, Hg⟩, Ho, ⟨%d0, H0⟩, ⟨%d1, H1⟩, ⟨%d2, H2⟩⟩
      iapply ((kernelRun0_C c (grid0.coords t) _ _ _ _ _ _ _ _ _ _ h0 h2 (iblk0 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hb Hg]
      · isplitl [HS0 HS1 Hb]
        · isplitl [HS0 HS1]
          · isplitl [HS0]
            · iapply (owns_back c _ _ _ _ (scover0_C_0 c _ _ _ _ _ _ _ _ _ _ _ _ _ _ _ _)); iexact HS0
            iapply (owns_back c _ _ _ _ (scover0_C_1 c _ _ _ _ _ _ _ _ _ _ _ _ _ _ _ _)); iexact HS1
          iexact Hb
        iexact Hg
      isplitl [Ho]; · iexact Ho
      isplitl [H0]; · iexact H0
      isplitl [H1]
      · iapply (owns_back c _ _ _ _ (cover0_C_1 c _ _ _ _ _ _ _ _ _ _ _ _ _ _ _ _)); iexact H1
      iapply (owns_back c _ _ _ _ (cover0_C_2 c _ _ _ _ _ _ _ _ _ _ _ _ _ _ _ _)); iexact H2
    · have h2 : ¬cond0_2 (grid0.coords t) := fun h => h49 ((hcond0_2 t).mp h)
      rw [Dat.leavesExact_idle (dat0 V c) 1 t (idleAt0_1 t h2) (noFlush0_1 t h2), Dat.leavesExact_idle (dat0 V c) 2 t (idleAt0_2 t h2) (noFlush0_2 t h2)]
      rw [acc0_B V c t hz h49 h0 h2]
      unfold sout0_B_0 sout0_B_1; (try dsimp only)
      iintro ⟨⟨⟨⟨HS0, HS1⟩, Hb⟩, Hg⟩, Ho, ⟨%d0, H0⟩, ⟨%d1, H1⟩, ⟨%d2, H2⟩⟩
      iapply ((kernelRun0_B c (grid0.coords t) _ _ _ _ _ _ _ _ _ _ h0 h2 (iblk0 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hb Hg]
      · isplitl [HS0 HS1 Hb]
        · isplitl [HS0 HS1]
          · isplitl [HS0]
            · iapply (owns_back c _ _ _ _ (scover0_B_0 c _ _ _ _ _ _ _ _ _ _ _ _ _ _ _ _)); iexact HS0
            iapply (owns_back c _ _ _ _ (scover0_B_1 c _ _ _ _ _ _ _ _ _ _ _ _ _ _ _ _)); iexact HS1
          iexact Hb
        iexact Hg
      isplitl [Ho]; · iexact Ho
      isplitl [H0]; · iexact H0
      isplitl [H1]; · iexists _; iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point; after any later point the invariant
    gives it back, the carried buffers' contents forgotten. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨⟨HS0, HS1⟩, Hb⟩, Hg⟩
  isplitl [HS0 HS1 Hb]
  · isplitl [HS0 HS1]
    · isplitl [HS0]
      · iexists _; iexact HS0
      iexists _; iexact HS1
    iexact Hb
  iexact Hg
theorem hout0 (c : Dev nD) : (dat0 V c).Φ (Fin.last cfg0.N) ⊢ Pipeline.ΦA spec0 c :=
  Phi_out0 V c _ (by rw [Fin.val_last]; have : cfg0.N = 50 := N_0; omega)

end Cert.KernelIdeal.Hand

end
-- ==== Proof.KI.Reg1.lean ====
/- Region 1 of the program, at a generic grid point and at arbitrary entry contents `V` of the core's buffers:
   the body normalises a 2000×128 block of rows, (x − mean)·rsqrt(var + ε)·γ + β with the four 1×128 rows
   broadcast down the block, multiplies by a 128×128 matrix, adds a bias row and takes tanh.
   Every load and the one store go through the whole staging buffer, so the output window's buffer after the
   body is the stored value as a function of the input windows' blocks, and each input window's buffer holds
   that window's block at the point whether or not it was transferred there (a block whose index does not move
   between consecutive points is still the same block). -/
import proofs.«158204_j29978871726570_1_alg».proof.Proof.Gen.KernelIdeal.Launch
import proofs.«158204_j29978871726570_1_alg».proof.Proof.Gen.KernelIdeal.Skeleton
import proofs.«158204_j29978871726570_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, transferred there or not, for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, transferred there or not, for any
    proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, transferred there or not, for any
    proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, transferred there or not, for any
    proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, transferred there or not, for any
    proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, transferred there or not, for any
    proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, transferred there or not, for any
    proof data whose array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole of its buffer -/

abbrev r1_0 : Rect S2000x128 := Rect.unit (s := S2000x128) ![0, 0] S2000x128.size inb_S2000x128_S2000x128_0_0
abbrev r1_1 : Rect S1x128 := Rect.unit (s := S1x128) ![0, 0] S1x128.size inb_S1x128_S1x128_0_0
abbrev r1_2 : Rect S128x128 := Rect.unit (s := S128x128) ![0, 0] S128x128.size inb_S128x128_S128x128_0_0

/-! ## What the body leaves in the output window's buffer -/

/-- Window 7's staging buffer after the body, from the input windows' blocks: the one stored value laid over
    the whole buffer. -/
def out1_7 (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) : Vec F S2000x128 .f32 :=
  View.canon [⟨r1_0, k1_pay1 (View.ld x0 r1_0) (View.ld x1 r1_1) (View.ld x2 r1_1) (View.ld x3 r1_1) (View.ld x4 r1_1) (View.ld x5 r1_2) (View.ld x6 r1_1)⟩]

/-- The one store covers the buffer. -/
theorem cover1_7 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 1000000 in
/-- The body on whole staging buffers, the inputs' at read contents `xW` and the output's at anything, runs to the
    continuation holding the inputs' as they were and the output's at `out1_7` of the inputs'. -/
theorem sound_kernel1 (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__bn_lin_tanh_kernel i arg1 harg1 arg2 harg2 arg3 harg3 arg4 harg4 arg5 harg5 arg6 harg6 arg7 harg7 arg8 harg8) K := by
  simp only [cc1__bn_lin_tanh_kernel_eq_skeleton]; unfold cc1__bn_lin_tanh_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of region 1 on core `c`: the arrays at the entry contents `V`; after the body at point `t` each
    input's buffer at its block and the output's at `out1_7` of the input blocks; the invariant that of a body
    keeping nothing between points; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KI.Reg2.lean ====
/- Region 2 of the program, at a generic grid point and at arbitrary entry contents `V` of the core's buffers:
   the body multiplies a 2000×128 block of rows by a 128×128 matrix, adds a bias row, takes tanh, multiplies
   by a 128×64 matrix and adds a second bias row, leaving a 2000×64 block.
   Every load and the one store go through the whole staging buffer, so the output window's buffer after the
   body is the stored value as a function of the input windows' blocks, and each input window's buffer holds
   that window's block at the point whether or not it was transferred there (a block whose index does not move
   between consecutive points is still the same block). -/
import proofs.«158204_j29978871726570_1_alg».proof.Proof.Gen.KernelIdeal.Launch
import proofs.«158204_j29978871726570_1_alg».proof.Proof.Gen.KernelIdeal.Skeleton
import proofs.«158204_j29978871726570_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array at the entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, transferred there or not, for any
    proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, transferred there or not, for any
    proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, transferred there or not, for any
    proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, transferred there or not, for any
    proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, transferred there or not, for any
    proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each the whole of its buffer -/

abbrev r2_0 : Rect S2000x128 := Rect.unit (s := S2000x128) ![0, 0] S2000x128.size inb_S2000x128_S2000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0
abbrev r2_3 : Rect S128x64 := Rect.unit (s := S128x64) ![0, 0] S128x64.size inb_S128x64_S128x64_0_0
abbrev r2_4 : Rect S1x64 := Rect.unit (s := S1x64) ![0, 0] S1x64.size inb_S1x64_S1x64_0_0
abbrev r2_5 : Rect S2000x64 := Rect.unit (s := S2000x64) ![0, 0] S2000x64.size inb_S2000x64_S2000x64_0_0

/-! ## What the body leaves in the output window's buffer -/

/-- Window 5's staging buffer after the body, from the input windows' blocks: the one stored value laid over
    the whole buffer. -/
def out2_5 (x0 : Vec F S2000x128 .f32) (x1 : Vec F S128x128 .f32) (x2 : Vec F S1x128 .f32) (x3 : Vec F S128x64 .f32) (x4 : Vec F S1x64 .f32) : Vec F S2000x64 .f32 :=
  View.canon [⟨r2_5, k2_pay1 (View.ld x0 r2_0) (View.ld x1 r2_1) (View.ld x2 r2_2) (View.ld x3 r2_3) (View.ld x4 r2_4)⟩]

/-- The one store covers the buffer. -/
theorem cover2_5 (p0 : Vec F S2000x64 .f32) (y : S2000x64.Idx) :
    ∃ pc ∈ ([⟨r2_5, p0⟩] : List (View.Piece (Elt F) S2000x64 .f32)), y ∈ pc.1.set :=
  View.cover_of_tiled [⟨r2_5, p0⟩] S2000x64.size (by rfl) y

/-! ## The body's triple -/

set_option maxHeartbeats 1000000 in
/-- The body on whole staging buffers, the inputs' at read contents `xW` and the output's at anything, runs to the
    continuation holding the inputs' as they were and the output's at `out2_5` of the inputs'. -/
theorem sound_kernel2 (c : Dev nD) (E : Set ℕ) (i : grid2.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x64 .f32) (harg6 : arg6.IsWhole)
    (x0 : Vec F S2000x128 .f32) (x1 : Vec F S128x128 .f32) (x2 : Vec F S1x128 .f32) (x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__sg_out_kernel i arg1 harg1 arg2 harg2 arg3 harg3 arg4 harg4 arg5 harg5 arg6 harg6) K := by
  simp only [cc2__sg_out_kernel_eq_skeleton]; unfold cc2__sg_out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of region 2 on core `c`: the arrays at the entry contents `V`; after the body at point `t` each
    input's buffer at its block and the output's at `out2_5` of the input blocks; the invariant that of a body
    keeping nothing between points; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Region

end Cert.KernelIdeal.Hand

end
-- ==== Proof.KI.Run.lean ====
import proofs.«158204_j29978871726570_1_alg».proof.Proof.Gen.KernelIdeal.Launch
import proofs.«158204_j29978871726570_1_alg».proof.Proof.Gen.KernelIdeal.Skeleton
import proofs.«158204_j29978871726570_1_alg».proof.Proof.Gen.KernelIdeal.Points
import proofs.«158204_j29978871726570_1_alg».proof.Proof.KI.R0
import proofs.«158204_j29978871726570_1_alg».proof.Proof.KI.Reg1
import proofs.«158204_j29978871726570_1_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: three kernel regions among three stretches of host operations

The buffer contents at every boundary are a fold from the launch memory: a host stretch applies its
operations, a region replaces its arrays by what its write-backs leave. Every weakly fair execution ends
with every unscoped buffer at the last boundary's contents. -/

variable (m : (ℓ : Loc nD τ sig) → Buf (Elt F) ℓ) (ρ : Dev nD → PrngReg)

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

abbrev W2 : Dev nD → Valuation τ sig (Elt F) := fun c => StableHlo.after main_part0_ops0 (W1 m ρ c)
abbrev V2 : (c : Dev nD) → (b : Ref sig .tc) → Buf (Elt F) ((c : Thread nD τ).loc b) := fun c b => W2 m ρ c b

/-- After region 1: its arrays at what its write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

abbrev W4 : Dev nD → Valuation τ sig (Elt F) := fun c => StableHlo.after main_part0_ops1 (W3 m ρ c)
abbrev W5 : Dev nD → Valuation τ sig (Elt F) := fun c => StableHlo.after main_part1_ops0 (W4 m ρ c)
abbrev V5 : (c : Dev nD) → (b : Ref sig .tc) → Buf (Elt F) ((c : Thread nD τ).loc b) := fun c b => W5 m ρ c b

/-- After region 2: its arrays at what its write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (main_part0_ops0 : List (HloOp τ sig (Elt F))).Forall fun op => op.fresh = ∅ := by
  simp only [List.Forall]; repeat' constructor
set_option maxHeartbeats 4000000 in
theorem ops1_fresh : (main_part0_ops1 : List (HloOp τ sig (Elt F))).Forall fun op => op.fresh = ∅ := by
  simp only [List.Forall]; repeat' constructor
theorem ops2_fresh : (main_part1_ops0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have hh : (pdats m ρ 0 c).Φ (Fin.last _) ⊢ iprop(Pipeline.scopedRest spec0 c ∗ ∃ r, prngReg c r) := hout0 (V0 m ρ) c
    iintro HP
    ihave H := hh $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg main_part0_ops0 main_part0_ops0_sub ops0_fresh (W1 m ρ)),
    .region (reg1 m ρ),
    .host (hseg main_part0_ops1 main_part0_ops1_sub ops1_fresh (W3 m ρ)),
    .host (hseg main_part1_ops0 main_part1_ops0_sub ops2_fresh (W4 m ρ)),
    .region (reg2 m ρ) ]
theorem main_run (c : Dev nD) : main (F := F) c = Pipeline.Seg.run (segs m ρ) := (main_chain_windows c).trans (by chain_rfl)

set_option backward.isDefEq.respectTransparency.types false in
/-- From any memory with zero counters every weakly fair execution of the program terminates, nothing faulting, and
    ends with every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand

end
-- ==== Proof.KI.Args.lean ====
import proofs.«158204_j29978871726570_1_alg».proof.Proof.Gen.KernelIdeal.Launch
import proofs.«158204_j29978871726570_1_alg».proof.Proof.Gen.KernelIdeal.Skeleton
import proofs.«158204_j29978871726570_1_alg».proof.Proof.Gen.KernelIdeal.Points
import proofs.«158204_j29978871726570_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The argument arrays end as launched

No host operation writes an argument and no region writes one back: a region reads an argument through an input
window, whose array its write-backs leave alone. So the last boundary's contents at an argument walk back to the
launch memory. -/

variable (m : (ℓ : Loc nD τ sig) → Buf (Elt F) ℓ) (ρ : Dev nD → PrngReg)

abbrev ops0_W : List (Ref sig .tc) := [main_v1, main_v2, main_v3, main_v4, main_v5, main_v6, main_v7]
abbrev ops1_W : List (Ref sig .tc) := [main_v9, main_c, main_v10, main_v11, main_c_0, main_v12, main_v13, main_v14, main_v15, main_v16, main_v17, main_v18, main_cst, main_v19, main_v20, main_v21, main_v22, main_c_1, main_v23, main_v24, main_c_2, main_v25, main_v26, main_v27, main_v28, main_v29, main_v30, main_v31, main_cst_3, main_v32, main_v33, main_v34, main_v35, main_c_4, main_v36, main_v37, main_c_5, main_v38, main_v39, main_v40, main_v41, main_v42, main_v43, main_v44, main_cst_6, main_v45, main_v46, main_v47, main_v48, main_c_7, main_v49]
abbrev ops2_W : List (Ref sig .tc) := [main_v50, main_c_8, main_v51, main_v52, main_v53, main_v54, main_v55, main_v56, main_v57, main_cst_9, main_v58, main_v59, main_v60, main_v61, main_v62]
theorem ops0_writes : (main_part0_ops0 : List (HloOp τ sig (Elt F))).Forall fun op => op.writes ⊆ (ops0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxHeartbeats 4000000 in
theorem ops1_writes : (main_part0_ops1 : List (HloOp τ sig (Elt F))).Forall fun op => op.writes ⊆ (ops1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem ops2_writes : (main_part1_ops0 : List (HloOp τ sig (Elt F))).Forall fun op => op.writes ⊆ (ops2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem W2_of (c : Dev nD) (r : Ref sig .tc) (h : r ∉ ops0_W) : W2 m ρ c r = W1 m ρ c r :=
  StableHlo.after_of_writes_sub main_part0_ops0 _ ops0_writes h
theorem W4_of (c : Dev nD) (r : Ref sig .tc) (h : r ∉ ops1_W) : W4 m ρ c r = W3 m ρ c r :=
  StableHlo.after_of_writes_sub main_part0_ops1 _ ops1_writes h
theorem W5_of (c : Dev nD) (r : Ref sig .tc) (h : r ∉ ops2_W) : W5 m ρ c r = W4 m ρ c r :=
  StableHlo.after_of_writes_sub main_part1_ops0 _ ops2_writes h

/-- A region leaves every buffer that is not one of its output arrays as it found it. -/
theorem W1_keep (c : Dev nD) (b : Ref sig .tc) (h1 : b ≠ main_v0_0) (h2 : b ≠ main_v0_1) :
    W1 m ρ c (Proc.devRef .tc b) = W0 m ρ c (Proc.devRef .tc b) := by
  by_cases h : ∃ w, Pipeline.arrRef spec0 w = b
  · obtain ⟨w, rfl⟩ := h
    match w with
    | ⟨0, _⟩ => exact (W1_arr m ρ c 0).trans (((dat0 (V0 m ρ) c).arrAt_in 0 rfl _).trans (A_eq0 _ c 0))
    | ⟨1, _⟩ => exact absurd rfl h1
    | ⟨2, _⟩ => exact absurd rfl h2
  · exact W1_of_ne m ρ c b (fun w e => h ⟨w, e⟩)
theorem W3_keep (c : Dev nD) (b : Ref sig .tc) (h1 : b ≠ main_v8) :
    W3 m ρ c (Proc.devRef .tc b) = W2 m ρ c (Proc.devRef .tc b) := by
  by_cases h : ∃ w, Pipeline.arrRef spec1 w = b
  · obtain ⟨w, rfl⟩ := h
    match w with
    | ⟨0, _⟩ => exact (W3_arr m ρ c 0).trans (((dat1 (V2 m ρ) c).arrAt_in 0 rfl _).trans (A_eq1 _ c 0))
    | ⟨1, _⟩ => exact (W3_arr m ρ c 1).trans (((dat1 (V2 m ρ) c).arrAt_in 1 rfl _).trans (A_eq1 _ c 1))
    | ⟨2, _⟩ => exact (W3_arr m ρ c 2).trans (((dat1 (V2 m ρ) c).arrAt_in 2 rfl _).trans (A_eq1 _ c 2))
    | ⟨3, _⟩ => exact (W3_arr m ρ c 3).trans (((dat1 (V2 m ρ) c).arrAt_in 3 rfl _).trans (A_eq1 _ c 3))
    | ⟨4, _⟩ => exact (W3_arr m ρ c 4).trans (((dat1 (V2 m ρ) c).arrAt_in 4 rfl _).trans (A_eq1 _ c 4))
    | ⟨5, _⟩ => exact (W3_arr m ρ c 5).trans (((dat1 (V2 m ρ) c).arrAt_in 5 rfl _).trans (A_eq1 _ c 5))
    | ⟨6, _⟩ => exact (W3_arr m ρ c 6).trans (((dat1 (V2 m ρ) c).arrAt_in 6 rfl _).trans (A_eq1 _ c 6))
    | ⟨7, _⟩ => exact absurd rfl h1
  · exact W3_of_ne m ρ c b (fun w e => h ⟨w, e⟩)
theorem W6_keep (c : Dev nD) (b : Ref sig .tc) (h1 : b ≠ main_v63) :
    W6 m ρ c (Proc.devRef .tc b) = W5 m ρ c (Proc.devRef .tc b) := by
  by_cases h : ∃ w, Pipeline.arrRef spec2 w = b
  · obtain ⟨w, rfl⟩ := h
    match w with
    | ⟨0, _⟩ => exact (W6_arr m ρ c 0).trans (((dat2 (V5 m ρ) c).arrAt_in 0 rfl _).trans (A_eq2 _ c 0))
    | ⟨1, _⟩ => exact (W6_arr m ρ c 1).trans (((dat2 (V5 m ρ) c).arrAt_in 1 rfl _).trans (A_eq2 _ c 1))
    | ⟨2, _⟩ => exact (W6_arr m ρ c 2).trans (((dat2 (V5 m ρ) c).arrAt_in 2 rfl _).trans (A_eq2 _ c 2))
    | ⟨3, _⟩ => exact (W6_arr m ρ c 3).trans (((dat2 (V5 m ρ) c).arrAt_in 3 rfl _).trans (A_eq2 _ c 3))
    | ⟨4, _⟩ => exact (W6_arr m ρ c 4).trans (((dat2 (V5 m ρ) c).arrAt_in 4 rfl _).trans (A_eq2 _ c 4))
    | ⟨5, _⟩ => exact absurd rfl h1
  · exact W6_of_ne m ρ c b (fun w e => h ⟨w, e⟩)

/-- A buffer no region writes back and no host operation writes ends holding its launch contents. -/
theorem W6_launch (c : Dev nD) (a : Ref sig .tc) (h63 : a ≠ main_v63) (h2 : a ∉ ops2_W) (h1 : a ∉ ops1_W) (h8 : a ≠ main_v8)
    (h0 : a ∉ ops0_W) (ha : a ≠ main_v0_0) (hb : a ≠ main_v0_1) :
    W6 m ρ c (Proc.devRef .tc a) = m ((c : Thread nD τ).loc a) :=
  (W6_keep m ρ c a h63).trans <| (W5_of m ρ c a h2).trans <| (W4_of m ρ c a h1).trans <| (W3_keep m ρ c a h8).trans <|
    (W2_of m ρ c a h0).trans <| (W1_keep m ρ c a ha hb).trans rfl

theorem W6_arg0 (c : Dev nD) : W6 m ρ c (Proc.devRef .tc main_arg0) = m ((c : Thread nD τ).loc main_arg0) :=
  W6_launch m ρ c main_arg0 (by decide) (by decide) (by decide) (by decide) (by decide) (by decide) (by decide)
theorem W6_arg1 (c : Dev nD) : W6 m ρ c (Proc.devRef .tc main_arg1) = m ((c : Thread nD τ).loc main_arg1) :=
  W6_launch m ρ c main_arg1 (by decide) (by decide) (by decide) (by decide) (by decide) (by decide) (by decide)
theorem W6_arg2 (c : Dev nD) : W6 m ρ c (Proc.devRef .tc main_arg2) = m ((c : Thread nD τ).loc main_arg2) :=
  W6_launch m ρ c main_arg2 (by decide) (by decide) (by decide) (by decide) (by decide) (by decide) (by decide)
theorem W6_arg3 (c : Dev nD) : W6 m ρ c (Proc.devRef .tc main_arg3) = m ((c : Thread nD τ).loc main_arg3) :=
  W6_launch m ρ c main_arg3 (by decide) (by decide) (by decide) (by decide) (by decide) (by decide) (by decide)
theorem W6_arg4 (c : Dev nD) : W6 m ρ c (Proc.devRef .tc main_arg4) = m ((c : Thread nD τ).loc main_arg4) :=
  W6_launch m ρ c main_arg4 (by decide) (by decide) (by decide) (by decide) (by decide) (by decide) (by decide)
theorem W6_arg5 (c : Dev nD) : W6 m ρ c (Proc.devRef .tc main_arg5) = m ((c : Thread nD τ).loc main_arg5) :=
  W6_launch m ρ c main_arg5 (by decide) (by decide) (by decide) (by decide) (by decide) (by decide) (by decide)
theorem W6_arg6 (c : Dev nD) : W6 m ρ c (Proc.devRef .tc main_arg6) = m ((c : Thread nD τ).loc main_arg6) :=
  W6_launch m ρ c main_arg6 (by decide) (by decide) (by decide) (by decide) (by decide) (by decide) (by decide)
theorem W6_arg7 (c : Dev nD) : W6 m ρ c (Proc.devRef .tc main_arg7) = m ((c : Thread nD τ).loc main_arg7) :=
  W6_launch m ρ c main_arg7 (by decide) (by decide) (by decide) (by decide) (by decide) (by decide) (by decide)
theorem W6_arg8 (c : Dev nD) : W6 m ρ c (Proc.devRef .tc main_arg8) = m ((c : Thread nD τ).loc main_arg8) :=
  W6_launch m ρ c main_arg8 (by decide) (by decide) (by decide) (by decide) (by decide) (by decide) (by decide)
theorem W6_arg9 (c : Dev nD) : W6 m ρ c (Proc.devRef .tc main_arg9) = m ((c : Thread nD τ).loc main_arg9) :=
  W6_launch m ρ c main_arg9 (by decide) (by decide) (by decide) (by decide) (by decide) (by decide) (by decide)
theorem W6_arg10 (c : Dev nD) : W6 m ρ c (Proc.devRef .tc main_arg10) = m ((c : Thread nD τ).loc main_arg10) :=
  W6_launch m ρ c main_arg10 (by decide) (by decide) (by decide) (by decide) (by decide) (by decide) (by decide)
theorem W6_arg11 (c : Dev nD) : W6 m ρ c (Proc.devRef .tc main_arg11) = m ((c : Thread nD τ).loc main_arg11) :=
  W6_launch m ρ c main_arg11 (by decide) (by decide) (by decide) (by decide) (by decide) (by decide) (by decide)

/-- The frame: every execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W6_arg0 m ρ c),
     (h c _ (mem_uc main_arg1 (by decide))).trans (W6_arg1 m ρ c),
     (h c _ (mem_uc main_arg2 (by decide))).trans (W6_arg2 m ρ c),
     (h c _ (mem_uc main_arg3 (by decide))).trans (W6_arg3 m ρ c),
     (h c _ (mem_uc main_arg4 (by decide))).trans (W6_arg4 m ρ c),
     (h c _ (mem_uc main_arg5 (by decide))).trans (W6_arg5 m ρ c),
     (h c _ (mem_uc main_arg6 (by decide))).trans (W6_arg6 m ρ c),
     (h c _ (mem_uc main_arg7 (by decide))).trans (W6_arg7 m ρ c),
     (h c _ (mem_uc main_arg8 (by decide))).trans (W6_arg8 m ρ c),
     (h c _ (mem_uc main_arg9 (by decide))).trans (W6_arg9 m ρ c),
     (h c _ (mem_uc main_arg10 (by decide))).trans (W6_arg10 m ρ c),
     (h c _ (mem_uc main_arg11 (by decide))).trans (W6_arg11 m ρ c)⟩) (run_all m ρ)

/-- The same run, with the result array named: it ends at the last boundary's contents. -/
theorem run_result : θ_run defs (onTc (τ := τ) (main (F := F))) ⟨m, fun _ => 0, ρ⟩ (fun r => ∀ c : Dev nD,
      r.2.mem ((c.tc : Thread nD τ).loc main_v63) = W6 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v63 (by decide)),
     (h c _ (mem_uc main_arg0 (by decide))).trans (W6_arg0 m ρ c),
     (h c _ (mem_uc main_arg1 (by decide))).trans (W6_arg1 m ρ c),
     (h c _ (mem_uc main_arg2 (by decide))).trans (W6_arg2 m ρ c),
     (h c _ (mem_uc main_arg3 (by decide))).trans (W6_arg3 m ρ c),
     (h c _ (mem_uc main_arg4 (by decide))).trans (W6_arg4 m ρ c),
     (h c _ (mem_uc main_arg5 (by decide))).trans (W6_arg5 m ρ c),
     (h c _ (mem_uc main_arg6 (by decide))).trans (W6_arg6 m ρ c),
     (h c _ (mem_uc main_arg7 (by decide))).trans (W6_arg7 m ρ c),
     (h c _ (mem_uc main_arg8 (by decide))).trans (W6_arg8 m ρ c),
     (h c _ (mem_uc main_arg9 (by decide))).trans (W6_arg9 m ρ c),
     (h c _ (mem_uc main_arg10 (by decide))).trans (W6_arg10 m ρ c),
     (h c _ (mem_uc main_arg11 (by decide))).trans (W6_arg11 m ρ c)⟩) (run_all m ρ)

end Cert.KernelIdeal.Hand

end
-- ==== Proof.LibRowSum.lean ====
/-
  Indices named by their coordinates, and a sum along the second axis of a matrix read at a row.

  An index of a rank-1 or rank-2 shape is determined by its coordinates' values, whatever term spells it (a composed
  index map of a broadcast, a lifted index of a reduction, a block's embedded index).  A lane reduction
  `multi_reduction <add>` of an [a, K] array along its second axis, from the zero word, read at row r over the
  extended reals, is the sum over k of the entries (r, k).
-/
import Idealize.ShloMosaic.PureOps.Ideal.Laws
import Idealize.ShloMosaic.Lib.ValueIdx

namespace Idealize.ShloMosaic.ValueIdx

open Idealize.ShloMosaic

/-- An index of a rank-2 shape is the one with the same two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a rank-1 shape is the one with the same coordinate. -/
theorem idx1_ext {n : Nat} (j : (⟨1, ![n]⟩ : Shape).Idx) (a : Fin n) (h0 : (j 0).val = a.val) : j = ix1 a :=
  funext fun d => Fin.ext (by match d with | ⟨0, _⟩ => exact h0)

/-- A sum along the second axis of an [a, K] array, from the zero word, read at row `r`: `∑ k, src (r, k)`. The shape
    fact, the format fact and the accumulator's neutrality are whatever proofs the printed operation carries. -/
theorem multiReduction_add_rows_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 hr hφ hacc (ix1 r) = ∑ k : Fin K, src (ix2 r k) :=
  (Ideal.multiReduction_add_single src _ hr hφ hacc (ix1 r)).trans
    (Finset.sum_congr rfl fun k _ => congrArg src (idx2_ext _ r k rfl rfl))

end Idealize.ShloMosaic.ValueIdx
-- ==== Proof.LibColSum.lean ====
/-
  A sum along the FIRST axis of a matrix read at a column.

  A sublane reduction `multi_reduction <add>` of a [K, b] array along its first axis, from the zero word, read at
  column j over the extended reals, is the sum over k of the entries (k, j).
-/
import proofs.«158204_j29978871726570_1_alg».proof.Proof.LibRowSum

namespace Idealize.ShloMosaic.ValueIdx

open Idealize.ShloMosaic

/-- A sum along the first axis of a [K, b] array, from the zero word, read at column `j`: `∑ k, src (k, j)`. The shape
    fact, the format fact and the accumulator's neutrality are whatever proofs the printed operation carries. -/
theorem multiReduction_add_cols_apply {K b : ℕ} (src : FVec Ideal ⟨2, ![K, b]⟩ .f32)
    (hr : (⟨2, ![K, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 hr hφ hacc (ix1 j) = ∑ k : Fin K, src (ix2 k j) :=
  (Ideal.multiReduction_add_single src _ hr hφ hacc (ix1 j)).trans
    (Finset.sum_congr rfl fun k _ => congrArg src (idx2_ext _ k j rfl rfl))

end Idealize.ShloMosaic.ValueIdx
-- ==== Proof.LibSumBlocks.lean ====
/-
  A sum over an index range cut into equal consecutive blocks: the sum over `Fin N`, `N = a·b`, is the sum
  over the `a` blocks of the sums over the `b` positions inside each, position `k` of block `t` being the index
  `t·b + k`. In any commutative additive monoid (the extended reals among them), so no finiteness is asked.
-/
import Mathlib

namespace Cert.LibSumBlocks

/-- Position `k` of block `t` lies inside the range. -/
theorem block_lt {a b : ℕ} (t : Fin a) (k : Fin b) : t.val * b + k.val < a * b := by
  have h1 : t.val + 1 ≤ a := t.isLt
  have h2 : k.val < b := k.isLt
  calc t.val * b + k.val < t.val * b + b := by omega
    _ = (t.val + 1) * b := by ring
    _ ≤ a * b := Nat.mul_le_mul_right b h1

/-- The sum over `Fin N`, `N = a·b`, block by block. -/
theorem sum_blocks {M : Type*} [AddCommMonoid M] (a b N : ℕ) (h : N = a * b) (f : Fin N → M) :
    ∑ n : Fin N, f n = ∑ t : Fin a, ∑ k : Fin b, f ⟨t.val * b + k.val, h ▸ block_lt t k⟩ := by
  subst h
  rw [← Equiv.sum_comp finProdFinEquiv f, Fintype.sum_prod_type]
  refine Finset.sum_congr rfl fun t _ => Finset.sum_congr rfl fun k _ => ?_
  congr 1
  apply Fin.ext
  simp only [finProdFinEquiv_apply_val]
  ring

end Cert.LibSumBlocks
-- ==== Proof.KI.Val0.lean ====
import proofs.«158204_j29978871726570_1_alg».proof.Proof.Gen.KernelIdeal.Launch
import proofs.«158204_j29978871726570_1_alg».proof.Proof.Gen.KernelIdeal.Skeleton
import proofs.«158204_j29978871726570_1_alg».proof.Proof.Gen.KernelIdeal.Points
import proofs.«158204_j29978871726570_1_alg».proof.Proof.KI.R0
import proofs.«158204_j29978871726570_1_alg».proof.Proof.LibColSum
import proofs.«158204_j29978871726570_1_alg».proof.Proof.LibSumBlocks
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! # The statistics region's values

Each case's stores, read back, are the body's payloads of the tile and of what the carried buffers held; at the
extended reals the carried buffers after point `n` hold the column sums, and the column sums of squares, of the
rows of tiles `0 … n`; the last point stores their quotients by the row count. -/

theorem hz2 : (![0, 0] : Fin 2 → Nat) = fun _ => 0 := funext fun a => by fin_cases a <;> rfl

theorem sout0_A_0_eq (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond0_0 i) (hc2 : ¬cond0_2 i) (x0 : Vec F S2000x128 .f32) : sout0_A_0 c i arg1 harg1 arg2 harg2 arg3 harg3 arg4 harg4 arg5 harg5 hc0 hc2 x0 = k0_pay3 x0 (k0_pay1 (F := F)) := by
  unfold sout0_A_0
  rw [View.read_writes_eq_canon _ _ _ (scover0_A_0 c i arg1 harg1 arg2 harg2 arg3 harg3 arg4 harg4 arg5 harg5 hc0 hc2 x0)]
  unfold kernelRun0_A
  dsimp only
  sl_unfold_words
  refine (View.canon_cons_unit_zero (S := S1x128) hz2 _ _ _).trans ?_
  simp only [View.readCov_unit_zero (S := S1x128) _ hz2, View.readAt_eq_ld, harg1.read_unread, harg4.read_unread, harg5.read_unread, View.ld_unit_zero (S := S2000x128) hz2, View.ld_unit_zero (S := S1x128) hz2]
theorem sout0_A_1_eq (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond0_0 i) (hc2 : ¬cond0_2 i) (x0 : Vec F S2000x128 .f32) : sout0_A_1 c i arg1 harg1 arg2 harg2 arg3 harg3 arg4 harg4 arg5 harg5 hc0 hc2 x0 = k0_pay4 x0 (k0_pay2 (F := F)) := by
  unfold sout0_A_1
  rw [View.read_writes_eq_canon _ _ _ (scover0_A_1 c i arg1 harg1 arg2 harg2 arg3 harg3 arg4 harg4 arg5 harg5 hc0 hc2 x0)]
  unfold kernelRun0_A
  dsimp only
  sl_unfold_words
  refine (View.canon_cons_unit_zero (S := S1x128) hz2 _ _ _).trans ?_
  simp only [View.readCov_unit_zero (S := S1x128) _ hz2, View.readAt_eq_ld, harg1.read_unread, harg4.read_unread, harg5.read_unread, View.ld_unit_zero (S := S2000x128) hz2, View.ld_unit_zero (S := S1x128) hz2]
theorem sout0_B_0_eq (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : ¬cond0_2 i) (x0 : Vec F S2000x128 .f32) (xs0 xs1 : Vec F S1x128 .f32) : sout0_B_0 c i arg1 harg1 arg2 harg2 arg3 harg3 arg4 harg4 arg5 harg5 hc0 hc2 x0 xs0 xs1 = k0_pay3 x0 xs0 := by
  unfold sout0_B_0
  rw [View.read_writes_eq_canon _ _ _ (scover0_B_0 c i arg1 harg1 arg2 harg2 arg3 harg3 arg4 harg4 arg5 harg5 hc0 hc2 x0 xs0 xs1)]
  unfold kernelRun0_B
  dsimp only
  sl_unfold_words
  refine (View.canon_cons_unit_zero (S := S1x128) hz2 _ _ _).trans ?_
  simp only [View.readCov_unit_zero (S := S1x128) _ hz2, View.readAt_eq_ld, harg1.read_unread, harg4.read_unread, harg5.read_unread, View.ld_unit_zero (S := S2000x128) hz2, View.ld_unit_zero (S := S1x128) hz2]
theorem sout0_B_1_eq (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : ¬cond0_2 i) (x0 : Vec F S2000x128 .f32) (xs0 xs1 : Vec F S1x128 .f32) : sout0_B_1 c i arg1 harg1 arg2 harg2 arg3 harg3 arg4 harg4 arg5 harg5 hc0 hc2 x0 xs0 xs1 = k0_pay4 x0 xs1 := by
  unfold sout0_B_1
  rw [View.read_writes_eq_canon _ _ _ (scover0_B_1 c i arg1 harg1 arg2 harg2 arg3 harg3 arg4 harg4 arg5 harg5 hc0 hc2 x0 xs0 xs1)]
  unfold kernelRun0_B
  dsimp only
  sl_unfold_words
  refine (View.canon_cons_unit_zero (S := S1x128) hz2 _ _ _).trans ?_
  simp only [View.readCov_unit_zero (S := S1x128) _ hz2, View.readAt_eq_ld, harg1.read_unread, harg4.read_unread, harg5.read_unread, View.ld_unit_zero (S := S2000x128) hz2, View.ld_unit_zero (S := S1x128) hz2]
theorem sout0_C_0_eq (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : cond0_2 i) (x0 : Vec F S2000x128 .f32) (xs0 xs1 : Vec F S1x128 .f32) : sout0_C_0 c i arg1 harg1 arg2 harg2 arg3 harg3 arg4 harg4 arg5 harg5 hc0 hc2 x0 xs0 xs1 = k0_pay3 x0 xs0 := by
  unfold sout0_C_0
  rw [View.read_writes_eq_canon _ _ _ (scover0_C_0 c i arg1 harg1 arg2 harg2 arg3 harg3 arg4 harg4 arg5 harg5 hc0 hc2 x0 xs0 xs1)]
  unfold kernelRun0_C
  dsimp only
  sl_unfold_words
  refine (View.canon_cons_unit_zero (S := S1x128) hz2 _ _ _).trans ?_
  simp only [View.readCov_unit_zero (S := S1x128) _ hz2, View.readAt_eq_ld, harg1.read_unread, harg4.read_unread, harg5.read_unread, View.ld_unit_zero (S := S2000x128) hz2, View.ld_unit_zero (S := S1x128) hz2]
theorem sout0_C_1_eq (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : cond0_2 i) (x0 : Vec F S2000x128 .f32) (xs0 xs1 : Vec F S1x128 .f32) : sout0_C_1 c i arg1 harg1 arg2 harg2 arg3 harg3 arg4 harg4 arg5 harg5 hc0 hc2 x0 xs0 xs1 = k0_pay4 x0 xs1 := by
  unfold sout0_C_1
  rw [View.read_writes_eq_canon _ _ _ (scover0_C_1 c i arg1 harg1 arg2 harg2 arg3 harg3 arg4 harg4 arg5 harg5 hc0 hc2 x0 xs0 xs1)]
  unfold kernelRun0_C
  dsimp only
  sl_unfold_words
  refine (View.canon_cons_unit_zero (S := S1x128) hz2 _ _ _).trans ?_
  simp only [View.readCov_unit_zero (S := S1x128) _ hz2, View.readAt_eq_ld, harg1.read_unread, harg4.read_unread, harg5.read_unread, View.ld_unit_zero (S := S2000x128) hz2, View.ld_unit_zero (S := S1x128) hz2]
theorem out0_C_1_eq (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : cond0_2 i) (x0 : Vec F S2000x128 .f32) (xs0 xs1 : Vec F S1x128 .f32) : out0_C_1 c i arg1 harg1 arg2 harg2 arg3 harg3 arg4 harg4 arg5 harg5 hc0 hc2 x0 xs0 xs1 = k0_pay5 (k0_pay3 x0 xs0) := by
  unfold out0_C_1
  rw [View.read_writes_eq_canon _ _ _ (cover0_C_1 c i arg1 harg1 arg2 harg2 arg3 harg3 arg4 harg4 arg5 harg5 hc0 hc2 x0 xs0 xs1)]
  unfold kernelRun0_C
  dsimp only
  sl_unfold_words
  refine (View.canon_cons_unit_zero (S := S1x128) hz2 _ _ _).trans ?_
  simp only [View.readCov_unit_zero (S := S1x128) _ hz2, View.readAt_eq_ld, harg1.read_unread, harg4.read_unread, harg5.read_unread, View.ld_unit_zero (S := S2000x128) hz2, View.ld_unit_zero (S := S1x128) hz2]
theorem out0_C_2_eq (c : Dev nD) (i : grid0.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc2 : cond0_2 i) (x0 : Vec F S2000x128 .f32) (xs0 xs1 : Vec F S1x128 .f32) : out0_C_2 c i arg1 harg1 arg2 harg2 arg3 harg3 arg4 harg4 arg5 harg5 hc0 hc2 x0 xs0 xs1 = k0_pay6 (k0_pay3 x0 xs0) (k0_pay4 x0 xs1) := by
  unfold out0_C_2
  rw [View.read_writes_eq_canon _ _ _ (cover0_C_2 c i arg1 harg1 arg2 harg2 arg3 harg3 arg4 harg4 arg5 harg5 hc0 hc2 x0 xs0 xs1)]
  unfold kernelRun0_C
  dsimp only
  sl_unfold_words
  refine (View.canon_cons_unit_zero (S := S1x128) hz2 _ _ _).trans ?_
  simp only [View.readCov_unit_zero (S := S1x128) _ hz2, View.readAt_eq_ld, harg1.read_unread, harg4.read_unread, harg5.read_unread, View.ld_unit_zero (S := S2000x128) hz2, View.ld_unit_zero (S := S1x128) hz2]

/-! ## The payloads at an index, on the extended reals -/

/-- The row count, as the programs spell it. -/
abbrev cnt : EReal := Ideal.ofBits .f32 0x47C35000#32

theorem clr1_apply (i : S1x128.Idx) : k0_pay1 (F := Ideal) i = 0 := by
  unfold k0_pay1
  simp only [shapeCast_self]
  exact Ideal.ofBits_zero_f32
theorem clr2_apply (i : S1x128.Idx) : k0_pay2 (F := Ideal) i = 0 := by
  unfold k0_pay2
  simp only [shapeCast_self]
  exact Ideal.ofBits_zero_f32
theorem pay3_apply (x0 : Vec Ideal S2000x128 .f32) (s : Vec Ideal S1x128 .f32) (u : Fin 1) (j : Fin 128) :
    k0_pay3 (F := Ideal) x0 s (ix2 u j) = s (ix2 u j) + ∑ k : Fin 2000, x0 (ix2 k j) := by
  unfold k0_pay3
  simp only [shapeCast_self]
  refine (addf_apply _ _ _).trans ?_
  refine congrArg (s (ix2 u j) + ·) ?_
  refine (shapeCast_a_1a_apply _ _ u j).trans ?_
  exact multiReduction_add_cols_apply _ _ _ _ j
theorem pay4_apply (x0 : Vec Ideal S2000x128 .f32) (s : Vec Ideal S1x128 .f32) (u : Fin 1) (j : Fin 128) :
    k0_pay4 (F := Ideal) x0 s (ix2 u j) = s (ix2 u j) + ∑ k : Fin 2000, x0 (ix2 k j) * x0 (ix2 k j) := by
  unfold k0_pay4
  simp only [shapeCast_self]
  refine (addf_apply _ _ _).trans ?_
  refine congrArg (s (ix2 u j) + ·) ?_
  refine (shapeCast_a_1a_apply _ _ u j).trans ?_
  exact multiReduction_add_cols_apply _ _ _ _ j
theorem pay5_apply (s : Vec Ideal S1x128 .f32) (i : S1x128.Idx) : k0_pay5 (F := Ideal) s i = Ideal.div (s i) cnt := rfl
theorem pay6_apply (s q : Vec Ideal S1x128 .f32) (i : S1x128.Idx) :
    k0_pay6 (F := Ideal) s q i = Ideal.div (q i) cnt - Ideal.div (s i) cnt * Ideal.div (s i) cnt := rfl

/-! ## The tile at an index, the accumulation in closed form, and the two result arrays -/

variable (V : (c : Dev nD) → (b : Ref sig .tc) → Buf (Elt Ideal) ((c : Thread nD τ).loc b))

/-- The tile at a point and the whole argument array, as arrays of extended reals. -/
abbrev tile (c : Dev nD) (t : Fin cfg0.N) : Vec Ideal S2000x128 .f32 := iblk0 V c 0 t
abbrev xin (c : Dev nD) : S100000x128.Idx → EReal := V c main_arg0

/-- Row `r` of the array at column `j`, by a natural number (zero past the end). -/
def xr (x : S100000x128.Idx → EReal) (r : ℕ) (j : Fin 128) : EReal := if h : r < 100000 then x (ix2 ⟨r, h⟩ j) else 0
/-- Tile `s`'s column sum and column sum of squares. -/
def bsum (x : S100000x128.Idx → EReal) (s : ℕ) (j : Fin 128) : EReal := ∑ k : Fin 2000, xr x (s * 2000 + k.val) j
def bsq (x : S100000x128.Idx → EReal) (s : ℕ) (j : Fin 128) : EReal := ∑ k : Fin 2000, xr x (s * 2000 + k.val) j * xr x (s * 2000 + k.val) j

/-- The printed index maps over the grid: the tile window moves down one tile per point, the result windows stay. -/
theorem idx0_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 2) = 0 ∧ win0_2.index t (1 : Fin 2) = 0 :=
  (by decide +kernel : ∀ t : Fin grid0.N, _)

theorem iblk0_apply (c : Dev nD) (t : Fin cfg0.N) (k : Fin 2000) (j : Fin 128) :
    (tile V c t) (ix2 k j) = xr (xin V c) (t.val * 2000 + k.val) j := by
  have ht : t.val < 50 := lt_of_lt_of_eq t.isLt (show cfg0.N = 50 from N_0)
  have hk : k.val < 2000 := k.isLt
  have hlt : t.val * 2000 + k.val < 100000 := by omega
  unfold xr; rw [dif_pos hlt]
  show (xin V c) (((cfg0.win 0).blk t).view.emb (ix2 k j)) = _
  refine congrArg _ (funext fun a => Fin.ext ?_)
  obtain ⟨e0, e1, -⟩ := idx0_facts t
  match a with
  | ⟨0, _⟩ => show win0_0.index t (0 : Fin 2) * 2000 + 1 * k.val = t.val * 2000 + k.val; omega
  | ⟨1, _⟩ => show win0_0.index t (1 : Fin 2) * 128 + 1 * j.val = j.val; omega

theorem tile_sum (c : Dev nD) (t : Fin cfg0.N) (j : Fin 128) :
    ∑ k : Fin 2000, (tile V c t) (ix2 k j) = bsum (xin V c) t.val j :=
  Finset.sum_congr rfl fun k _ => iblk0_apply V c t k j
theorem tile_sq (c : Dev nD) (t : Fin cfg0.N) (j : Fin 128) :
    ∑ k : Fin 2000, (tile V c t) (ix2 k j) * (tile V c t) (ix2 k j) = bsq (xin V c) t.val j :=
  Finset.sum_congr rfl fun k _ => by rw [iblk0_apply V c t k j]

/-- After point `n` the carried buffers hold the column sums, and sums of squares, of tiles `0 … n`. -/
theorem acc0_apply (c : Dev nD) : ∀ (n : ℕ) (hn : n < cfg0.N) (u : Fin 1) (j : Fin 128),
    (acc0 V c n hn).1 (ix2 u j) = ∑ s ∈ Finset.range (n + 1), bsum (xin V c) s j
    ∧ (acc0 V c n hn).2 (ix2 u j) = ∑ s ∈ Finset.range (n + 1), bsq (xin V c) s j
  | 0, hn, u, j => by
    simp only [acc0]
    rw [sout0_A_0_eq, sout0_A_1_eq, pay3_apply, pay4_apply, clr1_apply, clr2_apply, tile_sum V c ⟨0, hn⟩ j, tile_sq V c ⟨0, hn⟩ j]
    refine ⟨?_, ?_⟩ <;> simp only [zero_add, Finset.sum_range_one] <;> rfl
  | n + 1, hn, u, j => by
    obtain ⟨ih1, ih2⟩ := acc0_apply c n (Nat.lt_of_succ_lt hn) u j
    simp only [acc0]
    split
    · dsimp only
      rw [sout0_C_0_eq, sout0_C_1_eq, pay3_apply, pay4_apply, ih1, ih2, tile_sum V c ⟨n + 1, hn⟩ j, tile_sq V c ⟨n + 1, hn⟩ j,
        Finset.sum_range_succ _ (n + 1), Finset.sum_range_succ _ (n + 1)]
      exact ⟨rfl, rfl⟩
    · dsimp only
      rw [sout0_B_0_eq, sout0_B_1_eq, pay3_apply, pay4_apply, ih1, ih2, tile_sum V c ⟨n + 1, hn⟩ j, tile_sq V c ⟨n + 1, hn⟩ j,
        Finset.sum_range_succ _ (n + 1), Finset.sum_range_succ _ (n + 1)]
      exact ⟨rfl, rfl⟩

/-- The fifty tiles are the hundred thousand rows. -/
theorem total_sum (x : S100000x128.Idx → EReal) (j : Fin 128) :
    ∑ s ∈ Finset.range 50, bsum x s j = ∑ r : Fin 100000, x (ix2 r j) := by
  rw [Finset.sum_range, Cert.LibSumBlocks.sum_blocks 50 2000 100000 rfl (fun r => x (ix2 r j))]
  refine Finset.sum_congr rfl fun t _ => Finset.sum_congr rfl fun k _ => ?_
  unfold xr
  rw [dif_pos (Cert.LibSumBlocks.block_lt t k)]
theorem total_sq (x : S100000x128.Idx → EReal) (j : Fin 128) :
    ∑ s ∈ Finset.range 50, bsq x s j = ∑ r : Fin 100000, x (ix2 r j) * x (ix2 r j) := by
  rw [Finset.sum_range, Cert.LibSumBlocks.sum_blocks 50 2000 100000 rfl (fun r => x (ix2 r j) * x (ix2 r j))]
  refine Finset.sum_congr rfl fun t _ => Finset.sum_congr rfl fun k _ => ?_
  unfold xr
  rw [dif_pos (Cert.LibSumBlocks.block_lt t k)]

/-- The column means and the column variances (mean of squares less the squared mean), as [1,128] arrays. -/
def kMean (x : S100000x128.Idx → EReal) : S1x128.Idx → EReal := fun i => Ideal.div (∑ r : Fin 100000, x (ix2 r (i 1))) cnt
def kVar (x : S100000x128.Idx → EReal) : S1x128.Idx → EReal := fun i =>
  Ideal.div (∑ r : Fin 100000, x (ix2 r (i 1)) * x (ix2 r (i 1))) cnt - kMean x i * kMean x i

/-- At the last point the carried buffers, with that point's tile added, hold the whole column sums. -/
theorem last_sums (c : Dev nD) (t : Fin cfg0.N) (h49 : t.val % 50 = 49) (u : Fin 1) (j : Fin 128) :
    (acc0 V c (t.val - 1) (Nat.lt_of_le_of_lt (Nat.sub_le _ _) t.isLt)).1 (ix2 u j) + ∑ k : Fin 2000, (tile V c t) (ix2 k j)
        = ∑ r : Fin 100000, (xin V c) (ix2 r j)
    ∧ (acc0 V c (t.val - 1) (Nat.lt_of_le_of_lt (Nat.sub_le _ _) t.isLt)).2 (ix2 u j) + ∑ k : Fin 2000, (tile V c t) (ix2 k j) * (tile V c t) (ix2 k j)
        = ∑ r : Fin 100000, (xin V c) (ix2 r j) * (xin V c) (ix2 r j) := by
  have ht : t.val < 50 := lt_of_lt_of_eq t.isLt (show cfg0.N = 50 from N_0)
  have e49 : t.val = 49 := by omega
  obtain ⟨a1, a2⟩ := acc0_apply V c (t.val - 1) (Nat.lt_of_le_of_lt (Nat.sub_le _ _) t.isLt) u j
  rw [a1, a2, tile_sum V c t j, tile_sq V c t j, show t.val - 1 + 1 = 49 from by omega, e49,
    ← Finset.sum_range_succ (fun s => bsum (xin V c) s j) 49, ← Finset.sum_range_succ (fun s => bsq (xin V c) s j) 49]
  exact ⟨total_sum _ j, total_sq _ j⟩

theorem emb0_1 (t : Fin cfg0.N) (u : Fin 1) (j : Fin 128) : (((cfg0.win 1).blk t).view.emb (ix2 u j)) 1 = j := by
  obtain ⟨-, -, -, e3, -⟩ := idx0_facts t
  apply Fin.ext
  show win0_1.index t (1 : Fin 2) * 128 + 1 * j.val = j.val
  omega
theorem emb0_2 (t : Fin cfg0.N) (u : Fin 1) (j : Fin 128) : (((cfg0.win 2).blk t).view.emb (ix2 u j)) 1 = j := by
  obtain ⟨-, -, -, -, -, e5⟩ := idx0_facts t
  apply Fin.ext
  show win0_2.index t (1 : Fin 2) * 128 + 1 * j.val = j.val
  omega

theorem flushed0_1_eq (c : Dev nD) (t : Fin cfg0.N) (hf : (cfg0.win 1).flush t = true) :
    (dat0 V c).flushed 1 t = ((cfg0.win 1).blk t).view.read (Elt Ideal) (kMean (xin V c)) := by
  have h49 : t.val % 50 = 49 := (flush0_1 t).mp hf
  have ht : t.val < 50 := lt_of_lt_of_eq t.isLt (show cfg0.N = 50 from N_0)
  have h0 : ¬cond0_0 (grid0.coords t) := fun h => by have := (hcond0_0 t).mp h; omega
  have h2 : cond0_2 (grid0.coords t) := (hcond0_2 t).mpr h49
  show (cfg0.win 1).cut (grid0.coords t) ((dat0 V c).after 1 t) = _
  rw [after0_1, outs0_C V c t h49 h0 h2]
  dsimp only
  rw [out0_C_1_eq]
  funext y
  obtain ⟨u, j, rfl⟩ : ∃ (u : Fin 1) (j : Fin 128), y = ix2 u j := ⟨y 0, y 1, eq_ix2 y⟩
  show k0_pay5 (F := Ideal) (k0_pay3 (F := Ideal) _ _) (ix2 u j) = kMean (xin V c) (((cfg0.win 1).blk t).view.emb (ix2 u j))
  unfold kMean
  rw [pay5_apply, pay3_apply, (last_sums V c t h49 u j).1, emb0_1 t u j]

theorem flushed0_2_eq (c : Dev nD) (t : Fin cfg0.N) (hf : (cfg0.win 2).flush t = true) :
    (dat0 V c).flushed 2 t = ((cfg0.win 2).blk t).view.read (Elt Ideal) (kVar (xin V c)) := by
  have h49 : t.val % 50 = 49 := (flush0_2 t).mp hf
  have ht : t.val < 50 := lt_of_lt_of_eq t.isLt (show cfg0.N = 50 from N_0)
  have h0 : ¬cond0_0 (grid0.coords t) := fun h => by have := (hcond0_0 t).mp h; omega
  have h2 : cond0_2 (grid0.coords t) := (hcond0_2 t).mpr h49
  show (cfg0.win 2).cut (grid0.coords t) ((dat0 V c).after 2 t) = _
  rw [after0_2, outs0_C V c t h49 h0 h2]
  dsimp only
  rw [out0_C_2_eq]
  funext y
  obtain ⟨u, j, rfl⟩ : ∃ (u : Fin 1) (j : Fin 128), y = ix2 u j := ⟨y 0, y 1, eq_ix2 y⟩
  show k0_pay6 (F := Ideal) (k0_pay3 (F := Ideal) _ _) (k0_pay4 (F := Ideal) _ _) (ix2 u j) = kVar (xin V c) (((cfg0.win 2).blk t).view.emb (ix2 u j))
  unfold kVar kMean
  rw [pay6_apply, pay3_apply, pay4_apply, (last_sums V c t h49 u j).1, (last_sums V c t h49 u j).2, emb0_2 t u j]

theorem mem_blk0_1 (t : Fin cfg0.N) (i : S1x128.Idx) :
    i ∈ ((cfg0.win 1).blk t).view.set ↔ ∀ a : Fin 2, win0_1.index t a * S1x128.size a ≤ (i a).val ∧ (i a).val < win0_1.index t a * S1x128.size a + S1x128.size a := by
  show i ∈ ((View.whole main_v0_0).slice (win0_1.rect t)).set ↔ _
  rw [View.set_slice_whole, Rect.mem_set_unit]
  exact Iff.rfl
theorem mem_blk0_2 (t : Fin cfg0.N) (i : S1x128.Idx) :
    i ∈ ((cfg0.win 2).blk t).view.set ↔ ∀ a : Fin 2, win0_2.index t a * S1x128.size a ≤ (i a).val ∧ (i a).val < win0_2.index t a * S1x128.size a + S1x128.size a := by
  show i ∈ ((View.whole main_v0_1).slice (win0_2.rect t)).set ↔ _
  rw [View.set_slice_whole, Rect.mem_set_unit]
  exact Iff.rfl

theorem last_lt : (49 : ℕ) < cfg0.N := by rw [show cfg0.N = 50 from N_0]; omega

theorem cover0_1 (i : S1x128.Idx) : ∃ t : Fin cfg0.N, (cfg0.win 1).flush t = true ∧ i ∈ ((cfg0.win 1).blk t).view.set := by
  refine ⟨⟨49, last_lt⟩, (flush0_1 _).mpr rfl, ?_⟩
  rw [mem_blk0_1]
  obtain ⟨-, -, e2, e3, -, -⟩ := idx0_facts ⟨49, last_lt⟩
  have h0 : (i 0).val < 1 := (i 0).isLt
  have h1 : (i 1).val < 128 := (i 1).isLt
  intro a
  match a with
  | ⟨0, _⟩ => show win0_1.index ⟨49, last_lt⟩ (0 : Fin 2) * 1 ≤ (i 0).val ∧ (i 0).val < win0_1.index ⟨49, last_lt⟩ (0 : Fin 2) * 1 + 1; omega
  | ⟨1, _⟩ => show win0_1.index ⟨49, last_lt⟩ (1 : Fin 2) * 128 ≤ (i 1).val ∧ (i 1).val < win0_1.index ⟨49, last_lt⟩ (1 : Fin 2) * 128 + 128; omega
theorem cover0_2 (i : S1x128.Idx) : ∃ t : Fin cfg0.N, (cfg0.win 2).flush t = true ∧ i ∈ ((cfg0.win 2).blk t).view.set := by
  refine ⟨⟨49, last_lt⟩, (flush0_2 _).mpr rfl, ?_⟩
  rw [mem_blk0_2]
  obtain ⟨-, -, -, -, e4, e5⟩ := idx0_facts ⟨49, last_lt⟩
  have h0 : (i 0).val < 1 := (i 0).isLt
  have h1 : (i 1).val < 128 := (i 1).isLt
  intro a
  match a with
  | ⟨0, _⟩ => show win0_2.index ⟨49, last_lt⟩ (0 : Fin 2) * 1 ≤ (i 0).val ∧ (i 0).val < win0_2.index ⟨49, last_lt⟩ (0 : Fin 2) * 1 + 1; omega
  | ⟨1, _⟩ => show win0_2.index ⟨49, last_lt⟩ (1 : Fin 2) * 128 ≤ (i 1).val ∧ (i 1).val < win0_2.index ⟨49, last_lt⟩ (1 : Fin 2) * 128 + 128; omega

/-- After the region the two result arrays hold the column means and the column variances of the argument array. -/
theorem final0_1 (c : Dev nD) : (dat0 V c).arrAt 1 cfg0.N = kMean (xin V c) :=
  (dat0 V c).arrAt_eq_of_cover 1 _ (fun t hf => flushed0_1_eq V c t hf) cover0_1
theorem final0_2 (c : Dev nD) : (dat0 V c).arrAt 2 cfg0.N = kVar (xin V c) :=
  (dat0 V c).arrAt_eq_of_cover 2 _ (fun t hf => flushed0_2_eq V c t hf) cover0_2

end Cert.KernelIdeal.Hand

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.KI.Val1.lean ====
/- Region 1 as one function of its input arrays: row r of the result is tanh of (the row of the first input, normalised column by column with the mean and
   variance rows, scaled by γ and shifted by β, times the 128×128 matrix) plus the bias row. -/
import proofs.«158204_j29978871726570_1_alg».proof.Proof.KI.Reg1
import proofs.«158204_j29978871726570_1_alg».proof.Proof.LibDot
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The stored value at an entry of the block -/

/-- The product's dimension numbers: rows of a [2000,128] block against columns of a [128,128] matrix. -/
theorem plain_lin : Cert.LibDot.Plain dot_S2000x128_S128x128_S2000x128_1_0_0_1_n_n where
  hrank := rfl
  hs := rfl
  hl0 := fun j k => by
    unfold DotDims.lhsIdx
    rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
    rfl
  hl1 := fun j k => dot_S2000x128_S128x128_S2000x128_1_0_0_1_n_n.lhsIdx_val_of_single rfl j k
  hr0 := fun j k => dot_S2000x128_S128x128_S2000x128_1_0_0_1_n_n.rhsIdx_val_of_single rfl j k
  hr1 := fun j k => by
    unfold DotDims.rhsIdx
    rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
    rfl

/-- The value region 1 stores, at row p and column q of the block: the normalised row p, scaled and shifted,
    against column q of the matrix, plus the bias at q, through tanh. -/
theorem pay1_apply (x0 : Vec Ideal S2000x128 .f32) (x1 x2 x3 x4 : Vec Ideal S1x128 .f32) (x5 : Vec Ideal S128x128 .f32)
    (x6 : Vec Ideal S1x128 .f32) (p : Fin 2000) (q : Fin 128) :
    k1_pay1 (F := Ideal) x0 x1 x2 x3 x4 x5 x6 (ix2 p q)
      = Ideal.tanh ((∑ k : Fin 128, (((x0 (ix2 p k) - x1 (ix2 0 k)) * Ideal.rsqrt (x2 (ix2 0 k) + Ideal.ofBits .f32 0x3727C5AC#32)) * x3 (ix2 0 k) + x4 (ix2 0 k)) * x5 (ix2 k q)) + x6 (ix2 0 q)) := by
  unfold k1_pay1
  simp only [shapeCast_self]
  refine congrArg Ideal.tanh ?_
  refine (congrArg₂ HAdd.hAdd (Cert.LibDot.matmul_ix2 plain_lin none _ _ p q) (broadcastTo_1b_ab_apply x6 _ p q)).trans ?_
  refine congrArg (· + x6 (ix2 0 q)) (Finset.sum_congr rfl fun k _ => ?_)
  simp only [truncf_apply, addf_apply, mulf_apply, subf_apply, broadcastTo_1b_ab_apply]
  rfl

/-! ## The whole output array as one function of the input arrays -/

/-- Row r, column cc of the result: the row normalised with the per-column mean and variance, scaled and shifted,
    multiplied into column cc of the matrix, plus the bias, through tanh. -/
def G1 (x : S100000x128.Idx → EReal) (mean2 var2 gamma2 beta2 : S1x128.Idx → EReal) (W : S128x128.Idx → EReal)
    (b2 : S1x128.Idx → EReal) : S100000x128.Idx → EReal := fun i =>
  Ideal.tanh ((∑ k : Fin 128, (((x (ix2 (i 0) k) - mean2 (ix2 0 k)) * Ideal.rsqrt (var2 (ix2 0 k) + Ideal.ofBits .f32 0x3727C5AC#32)) * gamma2 (ix2 0 k) + beta2 (ix2 0 k)) * W (ix2 k (i 1))) + b2 (ix2 0 (i 1)))

theorem G1_apply (x : S100000x128.Idx → EReal) (mean2 var2 gamma2 beta2 : S1x128.Idx → EReal) (W : S128x128.Idx → EReal)
    (b2 : S1x128.Idx → EReal) (r : Fin 100000) (cc : Fin 128) :
    G1 x mean2 var2 gamma2 beta2 W b2 (ix2 r cc)
      = Ideal.tanh ((∑ k : Fin 128, (((x (ix2 r k) - mean2 (ix2 0 k)) * Ideal.rsqrt (var2 (ix2 0 k) + Ideal.ofBits .f32 0x3727C5AC#32)) * gamma2 (ix2 0 k) + beta2 (ix2 0 k)) * W (ix2 k cc)) + b2 (ix2 0 cc)) := rfl

section Region
variable (V : (c : Dev nD) → (b : Ref sig .tc) → Buf (Elt Ideal) ((c : Thread nD τ).loc b))

/-! ## Where the blocks sit: the index maps over the 50 points -/

theorem zero_offsets1 : (![0, 0] : Fin 2 → Nat) = fun _ => 0 := funext fun a => by fin_cases a <;> rfl

/-- Point `t` reads and writes rows 2000·t … 2000·t + 1999 (block index `t` on the row axis, 0 on the column axis);
    every other input window is its whole array at every point (block index 0 on both axes). -/
theorem idx_facts1 : ∀ t : Fin cfg1.N,
    win1_0.index t (0 : Fin 2) = t.val ∧ win1_0.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Every block of rows is some point's. -/
theorem idx_onto1 : ∀ (q0 : Fin 50) (q1 : Fin 1), ∃ t : Fin cfg1.N, win1_7.index t = ![q0.val + 0, q1.val + 0] :=
  (by decide +kernel : ∀ (q0 : Fin 50) (q1 : Fin 1), ∃ t : Fin grid1.N, win1_7.index t = ![q0.val + 0, q1.val + 0])

/-- The array row that row `p` of point `t`'s block is. -/
def row1 (t : Fin cfg1.N) (p : Fin 2000) : Fin 100000 :=
  ⟨t.val * 2000 + p.val, by have h : t.val < 50 := lt_of_lt_of_eq t.isLt N_1; omega⟩

/-- Entry (p, q) of point `t`'s output block is entry (2000·t + p, q) of the array. -/
theorem emb1_7 (t : Fin cfg1.N) (p : Fin 2000) (q : Fin 128) :
    ((cfg1.win 7).blk t).view.emb (ix2 p q) = ix2 (row1 t p) q := by
  obtain ⟨-, -, e0, e1, -⟩ := idx_facts1 t
  funext a; apply Fin.ext
  match a with
  | ⟨0, _⟩ => show win1_7.index t (0 : Fin 2) * 2000 + 1 * p.val = t.val * 2000 + p.val; omega
  | ⟨1, _⟩ => show win1_7.index t (1 : Fin 2) * 128 + 1 * q.val = q.val; omega

/-! ## The input windows' blocks read off their arrays -/

/-- Window 0's block at point `t` is rows 2000·t … of its array. -/
theorem blk1_0 (c : Dev nD) (t : Fin cfg1.N) (p : Fin 2000) (k : Fin 128) :
    iblk1 V c 0 t (ix2 p k) = V c (Pipeline.arrRef spec1 0) (ix2 (row1 t p) k) := by
  show V c (Pipeline.arrRef spec1 0) (((cfg1.win 0).blk t).view.emb (ix2 p k)) = _
  refine congrArg (V c (Pipeline.arrRef spec1 0)) ?_
  obtain ⟨e0, e1, -, -, -, -, -, -, -, -, -, -, -, -, -, -⟩ := idx_facts1 t
  funext a; apply Fin.ext
  match a with
  | ⟨0, _⟩ => show win1_0.index t (0 : Fin 2) * 2000 + 1 * p.val = t.val * 2000 + p.val; omega
  | ⟨1, _⟩ => show win1_0.index t (1 : Fin 2) * 128 + 1 * k.val = k.val; omega
/-- Window 1's block at every point is its whole array. -/
theorem blk1_1 (c : Dev nD) (t : Fin cfg1.N) (a : Fin 1) (b : Fin 128) :
    iblk1 V c 1 t (ix2 a b) = V c (Pipeline.arrRef spec1 1) (ix2 a b) := by
  show V c (Pipeline.arrRef spec1 1) (((cfg1.win 1).blk t).view.emb (ix2 a b)) = _
  refine congrArg (V c (Pipeline.arrRef spec1 1)) ?_
  obtain ⟨-, -, -, -, e0, e1, -, -, -, -, -, -, -, -, -, -⟩ := idx_facts1 t
  funext ax; apply Fin.ext
  match ax with
  | ⟨0, _⟩ => show win1_1.index t (0 : Fin 2) * 1 + 1 * a.val = a.val; omega
  | ⟨1, _⟩ => show win1_1.index t (1 : Fin 2) * 128 + 1 * b.val = b.val; omega
/-- Window 2's block at every point is its whole array. -/
theorem blk1_2 (c : Dev nD) (t : Fin cfg1.N) (a : Fin 1) (b : Fin 128) :
    iblk1 V c 2 t (ix2 a b) = V c (Pipeline.arrRef spec1 2) (ix2 a b) := by
  show V c (Pipeline.arrRef spec1 2) (((cfg1.win 2).blk t).view.emb (ix2 a b)) = _
  refine congrArg (V c (Pipeline.arrRef spec1 2)) ?_
  obtain ⟨-, -, -, -, -, -, e0, e1, -, -, -, -, -, -, -, -⟩ := idx_facts1 t
  funext ax; apply Fin.ext
  match ax with
  | ⟨0, _⟩ => show win1_2.index t (0 : Fin 2) * 1 + 1 * a.val = a.val; omega
  | ⟨1, _⟩ => show win1_2.index t (1 : Fin 2) * 128 + 1 * b.val = b.val; omega
/-- Window 3's block at every point is its whole array. -/
theorem blk1_3 (c : Dev nD) (t : Fin cfg1.N) (a : Fin 1) (b : Fin 128) :
    iblk1 V c 3 t (ix2 a b) = V c (Pipeline.arrRef spec1 3) (ix2 a b) := by
  show V c (Pipeline.arrRef spec1 3) (((cfg1.win 3).blk t).view.emb (ix2 a b)) = _
  refine congrArg (V c (Pipeline.arrRef spec1 3)) ?_
  obtain ⟨-, -, -, -, -, -, -, -, e0, e1, -, -, -, -, -, -⟩ := idx_facts1 t
  funext ax; apply Fin.ext
  match ax with
  | ⟨0, _⟩ => show win1_3.index t (0 : Fin 2) * 1 + 1 * a.val = a.val; omega
  | ⟨1, _⟩ => show win1_3.index t (1 : Fin 2) * 128 + 1 * b.val = b.val; omega
/-- Window 4's block at every point is its whole array. -/
theorem blk1_4 (c : Dev nD) (t : Fin cfg1.N) (a : Fin 1) (b : Fin 128) :
    iblk1 V c 4 t (ix2 a b) = V c (Pipeline.arrRef spec1 4) (ix2 a b) := by
  show V c (Pipeline.arrRef spec1 4) (((cfg1.win 4).blk t).view.emb (ix2 a b)) = _
  refine congrArg (V c (Pipeline.arrRef spec1 4)) ?_
  obtain ⟨-, -, -, -, -, -, -, -, -, -, e0, e1, -, -, -, -⟩ := idx_facts1 t
  funext ax; apply Fin.ext
  match ax with
  | ⟨0, _⟩ => show win1_4.index t (0 : Fin 2) * 1 + 1 * a.val = a.val; omega
  | ⟨1, _⟩ => show win1_4.index t (1 : Fin 2) * 128 + 1 * b.val = b.val; omega
/-- Window 5's block at every point is its whole array. -/
theorem blk1_5 (c : Dev nD) (t : Fin cfg1.N) (a : Fin 128) (b : Fin 128) :
    iblk1 V c 5 t (ix2 a b) = V c (Pipeline.arrRef spec1 5) (ix2 a b) := by
  show V c (Pipeline.arrRef spec1 5) (((cfg1.win 5).blk t).view.emb (ix2 a b)) = _
  refine congrArg (V c (Pipeline.arrRef spec1 5)) ?_
  obtain ⟨-, -, -, -, -, -, -, -, -, -, -, -, e0, e1, -, -⟩ := idx_facts1 t
  funext ax; apply Fin.ext
  match ax with
  | ⟨0, _⟩ => show win1_5.index t (0 : Fin 2) * 128 + 1 * a.val = a.val; omega
  | ⟨1, _⟩ => show win1_5.index t (1 : Fin 2) * 128 + 1 * b.val = b.val; omega
/-- Window 6's block at every point is its whole array. -/
theorem blk1_6 (c : Dev nD) (t : Fin cfg1.N) (a : Fin 1) (b : Fin 128) :
    iblk1 V c 6 t (ix2 a b) = V c (Pipeline.arrRef spec1 6) (ix2 a b) := by
  show V c (Pipeline.arrRef spec1 6) (((cfg1.win 6).blk t).view.emb (ix2 a b)) = _
  refine congrArg (V c (Pipeline.arrRef spec1 6)) ?_
  obtain ⟨-, -, -, -, -, -, -, -, -, -, -, -, -, -, e0, e1⟩ := idx_facts1 t
  funext ax; apply Fin.ext
  match ax with
  | ⟨0, _⟩ => show win1_6.index t (0 : Fin 2) * 1 + 1 * a.val = a.val; omega
  | ⟨1, _⟩ => show win1_6.index t (1 : Fin 2) * 128 + 1 * b.val = b.val; omega

/-! ## What a point writes back, and the array after the last point -/

/-- What point `t` writes back is block `t` of `G1` of the input arrays. -/
theorem flushed1_eq (c : Dev nD) (t : Fin cfg1.N) :
    (dat1 V c).flushed 7 t = ((cfg1.win 7).blk t).view.read (Elt Ideal) (G1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) := by
  show (cfg1.win 7).cut (grid1.coords t) ((dat1 V c).after 7 t) = _
  rw [after1_7]
  unfold out1_7
  rw [View.canon_unit_zero zero_offsets1]
  simp only [View.ld_unit_zero (S := S2000x128) zero_offsets1, View.ld_unit_zero (S := S1x128) zero_offsets1, View.ld_unit_zero (S := S128x128) zero_offsets1]
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (iblk1 V c 6 t) (ix2 p q)
    = G1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (((cfg1.win 7).blk t).view.emb (ix2 p q))
  rw [emb1_7 t p q, G1_apply]
  refine (pay1_apply _ _ _ _ _ _ _ p q).trans ?_
  simp only [blk1_0 V c t, blk1_1 V c t, blk1_2 V c t, blk1_3 V c t, blk1_4 V c t, blk1_5 V c t, blk1_6 V c t]

/-- An index of the array is in point `t`'s block iff each coordinate is in the block's range on its axis. -/
theorem mem_blk1 (t : Fin cfg1.N) (i : S100000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v8).slice (win1_7.rect t)).set ↔ _
  rw [View.set_slice_whole, Rect.mem_set_unit]
  exact Iff.rfl

/-- Every index of the array is in some point's block: row r is in the block of point r / 2000. -/
theorem cover1 (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  obtain ⟨t, ht⟩ := idx_onto1 ⟨(i 0).val / 2000 - 0, by omega⟩ ⟨(i 1).val / 128 - 0, by omega⟩
  have q0 : win1_7.index t (0 : Fin 2) = (i 0).val / 2000 - 0 + 0 := congrFun ht 0
  have q1 : win1_7.index t (1 : Fin 2) = (i 1).val / 128 - 0 + 0 := congrFun ht 1
  refine ⟨t, flush1_7 t, ?_⟩
  rw [mem_blk1]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 128 ≤ (i 1).val ∧ (i 1).val < win1_7.index t (1 : Fin 2) * 128 + 128; omega

/-- The output array after the last point is `G1` of the input arrays as the region finds them. -/
theorem final1 (c : Dev nD) : (dat1 V c).arrAt 7 cfg1.N = G1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) :=
  (dat1 V c).arrAt_eq_of_cover 7 (G1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) (fun t _ => flushed1_eq V c t) cover1

/-- The input arrays after the last point are as the region found them. -/
theorem arrAt1_0 (c : Dev nD) : (dat1 V c).arrAt 0 cfg1.N = V c (Pipeline.arrRef spec1 0) :=
  ((dat1 V c).arrAt_in 0 rfl _).trans (A_eq1 V c 0)
theorem arrAt1_1 (c : Dev nD) : (dat1 V c).arrAt 1 cfg1.N = V c (Pipeline.arrRef spec1 1) :=
  ((dat1 V c).arrAt_in 1 rfl _).trans (A_eq1 V c 1)
theorem arrAt1_2 (c : Dev nD) : (dat1 V c).arrAt 2 cfg1.N = V c (Pipeline.arrRef spec1 2) :=
  ((dat1 V c).arrAt_in 2 rfl _).trans (A_eq1 V c 2)
theorem arrAt1_3 (c : Dev nD) : (dat1 V c).arrAt 3 cfg1.N = V c (Pipeline.arrRef spec1 3) :=
  ((dat1 V c).arrAt_in 3 rfl _).trans (A_eq1 V c 3)
theorem arrAt1_4 (c : Dev nD) : (dat1 V c).arrAt 4 cfg1.N = V c (Pipeline.arrRef spec1 4) :=
  ((dat1 V c).arrAt_in 4 rfl _).trans (A_eq1 V c 4)
theorem arrAt1_5 (c : Dev nD) : (dat1 V c).arrAt 5 cfg1.N = V c (Pipeline.arrRef spec1 5) :=
  ((dat1 V c).arrAt_in 5 rfl _).trans (A_eq1 V c 5)
theorem arrAt1_6 (c : Dev nD) : (dat1 V c).arrAt 6 cfg1.N = V c (Pipeline.arrRef spec1 6) :=
  ((dat1 V c).arrAt_in 6 rfl _).trans (A_eq1 V c 6)

end Region

end Cert.KernelIdeal.Hand

end
-- ==== Proof.KI.Val2.lean ====
/- Region 2 as one function of its input arrays: row r of the result is (tanh of (row r of the first input times the 128×128 matrix, plus its bias row)) times the
   128×64 matrix, plus the second bias row. -/
import proofs.«158204_j29978871726570_1_alg».proof.Proof.KI.Reg2
import proofs.«158204_j29978871726570_1_alg».proof.Proof.LibDot
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The stored value at an entry of the block -/

/-- The first product's dimension numbers: rows of a [2000,128] block against columns of a [128,128] matrix. -/
theorem plain_sg : Cert.LibDot.Plain dot_S2000x128_S128x128_S2000x128_1_0_0_1_n_n where
  hrank := rfl
  hs := rfl
  hl0 := fun j k => by
    unfold DotDims.lhsIdx
    rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
    rfl
  hl1 := fun j k => dot_S2000x128_S128x128_S2000x128_1_0_0_1_n_n.lhsIdx_val_of_single rfl j k
  hr0 := fun j k => dot_S2000x128_S128x128_S2000x128_1_0_0_1_n_n.rhsIdx_val_of_single rfl j k
  hr1 := fun j k => by
    unfold DotDims.rhsIdx
    rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
    rfl

/-- The second product's dimension numbers: rows of a [2000,128] block against columns of a [128,64] matrix. -/
theorem plain_out : Cert.LibDot.Plain dot_S2000x128_S128x64_S2000x64_1_0_0_1_n_n where
  hrank := rfl
  hs := rfl
  hl0 := fun j k => by
    unfold DotDims.lhsIdx
    rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
    rfl
  hl1 := fun j k => dot_S2000x128_S128x64_S2000x64_1_0_0_1_n_n.lhsIdx_val_of_single rfl j k
  hr0 := fun j k => dot_S2000x128_S128x64_S2000x64_1_0_0_1_n_n.rhsIdx_val_of_single rfl j k
  hr1 := fun j k => by
    unfold DotDims.rhsIdx
    rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
    rfl

/-- The value region 2 stores, at row p and column q of the block: row p against the first matrix plus its bias,
    through tanh, then against column q of the second matrix, plus the second bias at q. -/
theorem pay2_apply (x0 : Vec Ideal S2000x128 .f32) (x1 : Vec Ideal S128x128 .f32) (x2 : Vec Ideal S1x128 .f32)
    (x3 : Vec Ideal S128x64 .f32) (x4 : Vec Ideal S1x64 .f32) (p : Fin 2000) (q : Fin 64) :
    k2_pay1 (F := Ideal) x0 x1 x2 x3 x4 (ix2 p q)
      = (∑ k : Fin 128, Ideal.tanh ((∑ j : Fin 128, x0 (ix2 p j) * x1 (ix2 j k)) + x2 (ix2 0 k)) * x3 (ix2 k q)) + x4 (ix2 0 q) := by
  unfold k2_pay1
  simp only [shapeCast_self]
  refine (congrArg₂ HAdd.hAdd (Cert.LibDot.matmul_ix2 plain_out none _ _ p q) (broadcastTo_1b_ab_apply x4 _ p q)).trans ?_
  refine congrArg (· + x4 (ix2 0 q)) (Finset.sum_congr rfl fun k _ => ?_)
  simp only [truncf_apply]
  refine congrArg (· * x3 (ix2 k q)) ?_
  refine congrArg Ideal.tanh ?_
  exact congrArg₂ HAdd.hAdd (Cert.LibDot.matmul_ix2 plain_sg none _ _ p k) (broadcastTo_1b_ab_apply x2 _ p k)

/-! ## The whole output array as one function of the input arrays -/

/-- Row r, column cc of the result: the row multiplied into the first matrix plus its bias, through tanh,
    multiplied into column cc of the second matrix, plus the second bias. -/
def G2 (h : S100000x128.Idx → EReal) (Wsg : S128x128.Idx → EReal) (bsg2 : S1x128.Idx → EReal) (Wout : S128x64.Idx → EReal)
    (bout2 : S1x64.Idx → EReal) : S100000x64.Idx → EReal := fun i =>
  (∑ k : Fin 128, Ideal.tanh ((∑ j : Fin 128, h (ix2 (i 0) j) * Wsg (ix2 j k)) + bsg2 (ix2 0 k)) * Wout (ix2 k (i 1))) + bout2 (ix2 0 (i 1))

theorem G2_apply (h : S100000x128.Idx → EReal) (Wsg : S128x128.Idx → EReal) (bsg2 : S1x128.Idx → EReal) (Wout : S128x64.Idx → EReal)
    (bout2 : S1x64.Idx → EReal) (r : Fin 100000) (cc : Fin 64) :
    G2 h Wsg bsg2 Wout bout2 (ix2 r cc)
      = (∑ k : Fin 128, Ideal.tanh ((∑ j : Fin 128, h (ix2 r j) * Wsg (ix2 j k)) + bsg2 (ix2 0 k)) * Wout (ix2 k cc)) + bout2 (ix2 0 cc) := rfl

section Region
variable (V : (c : Dev nD) → (b : Ref sig .tc) → Buf (Elt Ideal) ((c : Thread nD τ).loc b))

/-! ## Where the blocks sit: the index maps over the 50 points -/

theorem zero_offsets2 : (![0, 0] : Fin 2 → Nat) = fun _ => 0 := funext fun a => by fin_cases a <;> rfl

/-- Point `t` reads and writes rows 2000·t … 2000·t + 1999 (block index `t` on the row axis, 0 on the column axis);
    every other input window is its whole array at every point (block index 0 on both axes). -/
theorem idx_facts2 : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Every block of rows is some point's. -/
theorem idx_onto2 : ∀ (q0 : Fin 50) (q1 : Fin 1), ∃ t : Fin cfg2.N, win2_5.index t = ![q0.val + 0, q1.val + 0] :=
  (by decide +kernel : ∀ (q0 : Fin 50) (q1 : Fin 1), ∃ t : Fin grid2.N, win2_5.index t = ![q0.val + 0, q1.val + 0])

/-- The array row that row `p` of point `t`'s block is. -/
def row2 (t : Fin cfg2.N) (p : Fin 2000) : Fin 100000 :=
  ⟨t.val * 2000 + p.val, by have h : t.val < 50 := lt_of_lt_of_eq t.isLt N_2; omega⟩

/-- Entry (p, q) of point `t`'s output block is entry (2000·t + p, q) of the array. -/
theorem emb2_5 (t : Fin cfg2.N) (p : Fin 2000) (q : Fin 64) :
    ((cfg2.win 5).blk t).view.emb (ix2 p q) = ix2 (row2 t p) q := by
  obtain ⟨-, -, e0, e1, -⟩ := idx_facts2 t
  funext a; apply Fin.ext
  match a with
  | ⟨0, _⟩ => show win2_5.index t (0 : Fin 2) * 2000 + 1 * p.val = t.val * 2000 + p.val; omega
  | ⟨1, _⟩ => show win2_5.index t (1 : Fin 2) * 64 + 1 * q.val = q.val; omega

/-! ## The input windows' blocks read off their arrays -/

/-- Window 0's block at point `t` is rows 2000·t … of its array. -/
theorem blk2_0 (c : Dev nD) (t : Fin cfg2.N) (p : Fin 2000) (k : Fin 128) :
    iblk2 V c 0 t (ix2 p k) = V c (Pipeline.arrRef spec2 0) (ix2 (row2 t p) k) := by
  show V c (Pipeline.arrRef spec2 0) (((cfg2.win 0).blk t).view.emb (ix2 p k)) = _
  refine congrArg (V c (Pipeline.arrRef spec2 0)) ?_
  obtain ⟨e0, e1, -, -, -, -, -, -, -, -, -, -⟩ := idx_facts2 t
  funext a; apply Fin.ext
  match a with
  | ⟨0, _⟩ => show win2_0.index t (0 : Fin 2) * 2000 + 1 * p.val = t.val * 2000 + p.val; omega
  | ⟨1, _⟩ => show win2_0.index t (1 : Fin 2) * 128 + 1 * k.val = k.val; omega
/-- Window 1's block at every point is its whole array. -/
theorem blk2_1 (c : Dev nD) (t : Fin cfg2.N) (a : Fin 128) (b : Fin 128) :
    iblk2 V c 1 t (ix2 a b) = V c (Pipeline.arrRef spec2 1) (ix2 a b) := by
  show V c (Pipeline.arrRef spec2 1) (((cfg2.win 1).blk t).view.emb (ix2 a b)) = _
  refine congrArg (V c (Pipeline.arrRef spec2 1)) ?_
  obtain ⟨-, -, -, -, e0, e1, -, -, -, -, -, -⟩ := idx_facts2 t
  funext ax; apply Fin.ext
  match ax with
  | ⟨0, _⟩ => show win2_1.index t (0 : Fin 2) * 128 + 1 * a.val = a.val; omega
  | ⟨1, _⟩ => show win2_1.index t (1 : Fin 2) * 128 + 1 * b.val = b.val; omega
/-- Window 2's block at every point is its whole array. -/
theorem blk2_2 (c : Dev nD) (t : Fin cfg2.N) (a : Fin 1) (b : Fin 128) :
    iblk2 V c 2 t (ix2 a b) = V c (Pipeline.arrRef spec2 2) (ix2 a b) := by
  show V c (Pipeline.arrRef spec2 2) (((cfg2.win 2).blk t).view.emb (ix2 a b)) = _
  refine congrArg (V c (Pipeline.arrRef spec2 2)) ?_
  obtain ⟨-, -, -, -, -, -, e0, e1, -, -, -, -⟩ := idx_facts2 t
  funext ax; apply Fin.ext
  match ax with
  | ⟨0, _⟩ => show win2_2.index t (0 : Fin 2) * 1 + 1 * a.val = a.val; omega
  | ⟨1, _⟩ => show win2_2.index t (1 : Fin 2) * 128 + 1 * b.val = b.val; omega
/-- Window 3's block at every point is its whole array. -/
theorem blk2_3 (c : Dev nD) (t : Fin cfg2.N) (a : Fin 128) (b : Fin 64) :
    iblk2 V c 3 t (ix2 a b) = V c (Pipeline.arrRef spec2 3) (ix2 a b) := by
  show V c (Pipeline.arrRef spec2 3) (((cfg2.win 3).blk t).view.emb (ix2 a b)) = _
  refine congrArg (V c (Pipeline.arrRef spec2 3)) ?_
  obtain ⟨-, -, -, -, -, -, -, -, e0, e1, -, -⟩ := idx_facts2 t
  funext ax; apply Fin.ext
  match ax with
  | ⟨0, _⟩ => show win2_3.index t (0 : Fin 2) * 128 + 1 * a.val = a.val; omega
  | ⟨1, _⟩ => show win2_3.index t (1 : Fin 2) * 64 + 1 * b.val = b.val; omega
/-- Window 4's block at every point is its whole array. -/
theorem blk2_4 (c : Dev nD) (t : Fin cfg2.N) (a : Fin 1) (b : Fin 64) :
    iblk2 V c 4 t (ix2 a b) = V c (Pipeline.arrRef spec2 4) (ix2 a b) := by
  show V c (Pipeline.arrRef spec2 4) (((cfg2.win 4).blk t).view.emb (ix2 a b)) = _
  refine congrArg (V c (Pipeline.arrRef spec2 4)) ?_
  obtain ⟨-, -, -, -, -, -, -, -, -, -, e0, e1⟩ := idx_facts2 t
  funext ax; apply Fin.ext
  match ax with
  | ⟨0, _⟩ => show win2_4.index t (0 : Fin 2) * 1 + 1 * a.val = a.val; omega
  | ⟨1, _⟩ => show win2_4.index t (1 : Fin 2) * 64 + 1 * b.val = b.val; omega

/-! ## What a point writes back, and the array after the last point -/

/-- What point `t` writes back is block `t` of `G2` of the input arrays. -/
theorem flushed2_eq (c : Dev nD) (t : Fin cfg2.N) :
    (dat2 V c).flushed 5 t = ((cfg2.win 5).blk t).view.read (Elt Ideal) (G2 (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero zero_offsets2]
  simp only [View.ld_unit_zero (S := S2000x128) zero_offsets2, View.ld_unit_zero (S := S128x128) zero_offsets2, View.ld_unit_zero (S := S1x128) zero_offsets2, View.ld_unit_zero (S := S128x64) zero_offsets2, View.ld_unit_zero (S := S1x64) zero_offsets2]
  funext j
  obtain ⟨p, q, rfl⟩ : ∃ (p : Fin 2000) (q : Fin 64), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = G2 (V c (Pipeline.arrRef spec2 0)) (V c (Pipeline.arrRef spec2 1)) (V c (Pipeline.arrRef spec2 2)) (V c (Pipeline.arrRef spec2 3)) (V c (Pipeline.arrRef spec2 4)) (((cfg2.win 5).blk t).view.emb (ix2 p q))
  rw [emb2_5 t p q, G2_apply]
  refine (pay2_apply _ _ _ _ _ p q).trans ?_
  simp only [blk2_0 V c t, blk2_1 V c t, blk2_2 V c t, blk2_3 V c t, blk2_4 V c t]

/-- An index of the array is in point `t`'s block iff each coordinate is in the block's range on its axis. -/
theorem mem_blk2 (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v63).slice (win2_5.rect t)).set ↔ _
  rw [View.set_slice_whole, Rect.mem_set_unit]
  exact Iff.rfl

/-- Every index of the array is in some point's block: row r is in the block of point r / 2000. -/
theorem cover2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ := idx_onto2 ⟨(i 0).val / 2000 - 0, by omega⟩ ⟨(i 1).val / 64 - 0, by omega⟩
  have q0 : win2_5.index t (0 : Fin 2) = (i 0).val / 2000 - 0 + 0 := congrFun ht 0
  have q1 : win2_5.index t (1 : Fin 2) = (i 1).val / 64 - 0 + 0 := congrFun ht 1
  refine ⟨t, flush2_5 t, ?_⟩
  rw [mem_blk2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 64 ≤ (i 1).val ∧ (i 1).val < win2_5.index t (1 : Fin 2) * 64 + 64; omega

/-- The output array after the last point is `G2` of the input arrays as the region finds them. -/
theorem final2 (c : Dev nD) : (dat2 V c).arrAt 5 cfg2.N = G2 (V c (Pipeline.arrRef spec2 0)) (V c (Pipeline.arrRef spec2 1)) (V c (Pipeline.arrRef spec2 2)) (V c (Pipeline.arrRef spec2 3)) (V c (Pipeline.arrRef spec2 4)) :=
  (dat2 V c).arrAt_eq_of_cover 5 (G2 (V c (Pipeline.arrRef spec2 0)) (V c (Pipeline.arrRef spec2 1)) (V c (Pipeline.arrRef spec2 2)) (V c (Pipeline.arrRef spec2 3)) (V c (Pipeline.arrRef spec2 4))) (fun t _ => flushed2_eq V c t) cover2

/-- The input arrays after the last point are as the region found them. -/
theorem arrAt2_0 (c : Dev nD) : (dat2 V c).arrAt 0 cfg2.N = V c (Pipeline.arrRef spec2 0) :=
  ((dat2 V c).arrAt_in 0 rfl _).trans (A_eq2 V c 0)
theorem arrAt2_1 (c : Dev nD) : (dat2 V c).arrAt 1 cfg2.N = V c (Pipeline.arrRef spec2 1) :=
  ((dat2 V c).arrAt_in 1 rfl _).trans (A_eq2 V c 1)
theorem arrAt2_2 (c : Dev nD) : (dat2 V c).arrAt 2 cfg2.N = V c (Pipeline.arrRef spec2 2) :=
  ((dat2 V c).arrAt_in 2 rfl _).trans (A_eq2 V c 2)
theorem arrAt2_3 (c : Dev nD) : (dat2 V c).arrAt 3 cfg2.N = V c (Pipeline.arrRef spec2 3) :=
  ((dat2 V c).arrAt_in 3 rfl _).trans (A_eq2 V c 3)
theorem arrAt2_4 (c : Dev nD) : (dat2 V c).arrAt 4 cfg2.N = V c (Pipeline.arrRef spec2 4) :=
  ((dat2 V c).arrAt_in 4 rfl _).trans (A_eq2 V c 4)

end Region

end Cert.KernelIdeal.Hand

end
-- ==== Proof.KernelGlue.lean ====
import proofs.«158204_j29978871726570_1_alg».proof.Proof.Gen.KernelIdeal
import proofs.«158204_j29978871726570_1_alg».proof.Proof.Gen.KernelIdeal.Launch
import Idealize.ShloMosaic.PureOps.Ideal

/-!
# What the second region finds in its operand arrays

Between the first and the second kernel region the program only re-lays vectors: the two statistics come out
of the first region as [1,128] rows, are flattened to 128 entries and laid out as [1,128] rows again; the scale,
the shift and the first layer's bias, given as 128 entries, are laid out as [1,128] rows. The node features and the
first weight matrix are untouched.
-/

set_option maxRecDepth 8192

noncomputable section

namespace Cert.KernelIdeal.Glue

open Cert.KernelIdeal Cert.KernelIdeal.Gen Idealize.ShloMosaic Idealize.ShloMosaic.TcCoe Idealize.SL.Sem
  Idealize.ShloMosaic.StableHlo

variable (V : Valuation τ sig (Elt Ideal))

/-- The mean row the second region reads: the first region's mean row, flattened and laid out again. -/
theorem pre_mean : StableHlo.after (main_part0_ops0 (F := Ideal)) V (Proc.devRef .tc main_v3)
    = shapeCast S1x128 (shapeCast S128 (V (Proc.devRef .tc main_v0_0)) shapeCasts_S1x128_S128) shapeCasts_S128_S1x128 := by
  after_results_simp
  rfl

/-- The variance row likewise. -/
theorem pre_var : StableHlo.after (main_part0_ops0 (F := Ideal)) V (Proc.devRef .tc main_v4)
    = shapeCast S1x128 (shapeCast S128 (V (Proc.devRef .tc main_v0_1)) shapeCasts_S1x128_S128) shapeCasts_S128_S1x128 := by
  after_results_simp
  rfl

/-- The scale as a row. -/
theorem pre_gamma : StableHlo.after (main_part0_ops0 (F := Ideal)) V (Proc.devRef .tc main_v5)
    = shapeCast S1x128 (V (Proc.devRef .tc main_arg4)) shapeCasts_S128_S1x128 := by
  after_results_simp
  rfl

/-- The shift as a row. -/
theorem pre_beta : StableHlo.after (main_part0_ops0 (F := Ideal)) V (Proc.devRef .tc main_v6)
    = shapeCast S1x128 (V (Proc.devRef .tc main_arg5)) shapeCasts_S128_S1x128 := by
  after_results_simp
  rfl

/-- The first layer's bias as a row. -/
theorem pre_bin : StableHlo.after (main_part0_ops0 (F := Ideal)) V (Proc.devRef .tc main_v7)
    = shapeCast S1x128 (V (Proc.devRef .tc main_arg7)) shapeCasts_S128_S1x128 := by
  after_results_simp
  rfl

/-- The node features are untouched. -/
theorem pre_x : StableHlo.after (main_part0_ops0 (F := Ideal)) V (Proc.devRef .tc main_arg0)
    = V (Proc.devRef .tc main_arg0) := by
  after_results_simp

/-- The first weight matrix is untouched. -/
theorem pre_win : StableHlo.after (main_part0_ops0 (F := Ideal)) V (Proc.devRef .tc main_arg6)
    = V (Proc.devRef .tc main_arg6) := by
  after_results_simp

end Cert.KernelIdeal.Glue

end
-- ==== Proof.RefDefs.lean ====
import proofs.«158204_j29978871726570_1_alg».proof.Defs
import proofs.«158204_j29978871726570_1_alg».proof.Proof.Gen.ReferenceIdeal
import proofs.«158204_j29978871726570_1_alg».proof.Proof.Gen.ReferenceIdeal.Run

/-!
# The reference's result in stages

The reference computes, from the node features x : [100000, 128]:

* the column means  mean j = (∑ r, x r j) / 100000  and the column variances
  var j = (∑ r, (x r j - mean j)²) / 100000  (refMean, refVar);
* the normalised, scaled and shifted features pushed through the first dense layer,
  h0 = tanh (((x - mean) * rsqrt (var + ε) * γ + β) · W_in + b_in), as a function of x AND of the two
  statistics, which are parameters here (stageH0);
* four rounds of neighbourhood aggregation over the edge list (hops): each round gathers the row of
  the edge's source node, scales it by the edge's weight and adds it into the row of the edge's destination node;
* the last two dense layers, out = tanh (h · W_sg + b_sg) · W_out + b_out (stageOut).

Each stage is written in the host operations the reference itself is made of, so that the reference's
result IS their composition, by unfolding.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

/-- A vector of 128 entries repeated down the 100000 rows. -/
abbrev rows128 (v : FVec Ideal S128 .f32) : FVec Ideal S100000x128 .f32 :=
  broadcastInDim S100000x128 ![0, 1] bcast_S1x128_S100000x128_0_1 (broadcastInDim S1x128 ![1] bcast_S128_S1x128_1 v)

/-- A vector of 64 entries repeated down the 100000 rows. -/
abbrev rows64 (v : FVec Ideal S64 .f32) : FVec Ideal S100000x64 .f32 :=
  broadcastInDim S100000x64 ![0, 1] bcast_S1x64_S100000x64_0_1 (broadcastInDim S1x64 ![1] bcast_S64_S1x64_1 v)

/-- The number of rows, 100000 as an f32 word, in each of the 128 columns. -/
abbrev count128 : FVec Ideal S128 .f32 :=
  broadcastInDim S128 ![] bcast_S_S128 (constant (F := Ideal) S_ .f32 0x47C35000#32)

/-- The column means. -/
def refMean (x : FVec Ideal S100000x128 .f32) : FVec Ideal S128 .f32 :=
  Host.divf (Host.reduceAdd x (constant (F := Ideal) S_ .f32 0x00000000#32) reducesTo_S100000x128_S128_d0 h_S_) count128

/-- The column variances: the mean of the squared deviations from the column mean. -/
def refVar (x : FVec Ideal S100000x128 .f32) : FVec Ideal S128 .f32 :=
  Host.divf (Host.reduceAdd (mulf (subf x (rows128 (refMean x))) (subf x (rows128 (refMean x))))
    (constant (F := Ideal) S_ .f32 0x00000000#32) reducesTo_S100000x128_S128_d0 h_S_) count128

/-- Normalisation by given statistics, scale and shift, the first dense layer and tanh. -/
def stageH0 (x : FVec Ideal S100000x128 .f32) (mean var gamma beta : FVec Ideal S128 .f32)
    (Win : FVec Ideal S128x128 .f32) (bin : FVec Ideal S128 .f32) : FVec Ideal S100000x128 .f32 :=
  Host.tanh (addf (Host.dotGeneral dot_S100000x128_S128x128_S100000x128_1_0_0_1_n_n none
    (addf (mulf (mulf (subf x (rows128 mean))
      (rows128 (Host.rsqrt (addf var (broadcastInDim S128 ![] bcast_S_S128 (constant (F := Ideal) S_ .f32 0x3727C5AC#32))))))
      (rows128 gamma)) (rows128 beta)) Win) (rows128 bin))

/-- One round of aggregation: for every edge, the row of its source node (a negative index counted from the end),
    times the edge's weight, added into the row of its destination node, starting from zero. -/
def hop (src dst : IVec S1600000 32) (val : FVec Ideal S1600000 .f32) (h : FVec Ideal S100000x128 .f32) :
    FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf (broadcastInDim S1600000x128 ![0, 1] bcast_S1600000x1_S1600000x128_0_1
        (broadcastInDim S1600000x1 ![0] bcast_S1600000_S1600000x1_0 val))
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))

/-- The four rounds of aggregation. -/
def hops (src dst : IVec S1600000 32) (val : FVec Ideal S1600000 .f32) (h : FVec Ideal S100000x128 .f32) :
    FVec Ideal S100000x128 .f32 :=
  hop src dst val (hop src dst val (hop src dst val (hop src dst val h)))

/-- The last two dense layers. -/
def stageOut (h4 : FVec Ideal S100000x128 .f32) (Wsg : FVec Ideal S128x128 .f32) (bsg : FVec Ideal S128 .f32)
    (Wout : FVec Ideal S128x64 .f32) (bout : FVec Ideal S64 .f32) : FVec Ideal S100000x64 .f32 :=
  addf (Host.dotGeneral dot_S100000x128_S128x64_S100000x64_1_0_0_1_n_n none
    (Host.tanh (addf (Host.dotGeneral dot_S100000x128_S128x128_S100000x128_1_0_0_1_n_n none h4 Wsg) (rows128 bsg))) Wout)
    (rows64 bout)

/-- The reference's result is the composition of the stages. -/
theorem ref_result (m : (ℓ : Loc nD τ sig) → Buf (Elt Ideal) ℓ) (c : Dev nD) :
    Cert.ReferenceIdeal.Value.res_main_v90 (F := Ideal) m c
      = stageOut (hops (m ((c.tc : Thread nD τ).loc main_arg1)) (m ((c.tc : Thread nD τ).loc main_arg2))
            (m ((c.tc : Thread nD τ).loc main_arg3))
          (stageH0 (m ((c.tc : Thread nD τ).loc main_arg0)) (refMean (m ((c.tc : Thread nD τ).loc main_arg0)))
            (refVar (m ((c.tc : Thread nD τ).loc main_arg0))) (m ((c.tc : Thread nD τ).loc main_arg4))
            (m ((c.tc : Thread nD τ).loc main_arg5)) (m ((c.tc : Thread nD τ).loc main_arg6))
            (m ((c.tc : Thread nD τ).loc main_arg7))))
          (m ((c.tc : Thread nD τ).loc main_arg8)) (m ((c.tc : Thread nD τ).loc main_arg9))
          (m ((c.tc : Thread nD τ).loc main_arg10)) (m ((c.tc : Thread nD τ).loc main_arg11)) := by
  unfold Cert.ReferenceIdeal.Value.res_main_v90
  rfl

end Cert.ReferenceIdeal.RefValue

end
-- ==== Proof.RefStats.lean ====
import proofs.«158204_j29978871726570_1_alg».proof.Proof.RefDefs
import proofs.«158204_j29978871726570_1_alg».proof.Proof.Gen.ReferenceIdeal.Read
import proofs.«158204_j29978871726570_1_alg».proof.Proof.LibRowSum

/-!
# The reference's column statistics, entry by entry

Column j of the mean is the sum of column j of x divided by the row count; column j of the variance is the
sum over the rows of the squared deviation from that mean, divided by the row count. The sums start from the
zero word, which is the extended real 0; the row count stays the f32 word it is written as.
-/

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

theorem refMean_eq (x : FVec Ideal S100000x128 .f32) : refMean x = val_main_v2 (F := Ideal) x := rfl

theorem refVar_eq (x : FVec Ideal S100000x128 .f32) : refVar x = val_main_v9 (F := Ideal) x := rfl

/-- The entry of x that the first column sum adds at step k of column j is entry (k, j). -/
theorem idx_sum_mean (j : Fin 128) (k : Fin 100000) : idx_main_v0 (ix1 j) k = ix2 k j :=
  funext fun a => Fin.ext (by match a with | ⟨0, _⟩ => rfl | ⟨1, _⟩ => rfl)

/-- The same of the second column sum. -/
theorem idx_sum_var (j : Fin 128) (k : Fin 100000) : idx_main_v7 (ix1 j) k = ix2 k j :=
  funext fun a => Fin.ext (by match a with | ⟨0, _⟩ => rfl | ⟨1, _⟩ => rfl)

/-- The mean subtracted at entry (k, j) is column j of the mean. -/
theorem idx_mean_at (j : Fin 128) (k : Fin 100000) :
    idx_main_v3 (idx_main_v4 (ix2 k j : S100000x128.Idx)) = ix1 j :=
  funext fun a => Fin.ext (by match a with | ⟨0, _⟩ => rfl)

/-- Column j of the mean. -/
theorem refMean_apply (x : FVec Ideal S100000x128 .f32) (j : Fin 128) :
    refMean x (ix1 j) = Ideal.div (∑ r : Fin 100000, x (ix2 r j)) (Ideal.ofBits .f32 0x47C35000#32) := by
  rw [refMean_eq, val_main_v2_apply, val_main_v0_apply, val_main_v1_apply, val_main_cst_0_apply, val_main_cst_apply]
  simp only [Ideal.hostDivf_def, Ideal.ofBits_def, Ideal.ofBits_zero_f32, zero_add, idx_sum_mean]

/-- Column j of the variance. -/
theorem refVar_apply (x : FVec Ideal S100000x128 .f32) (j : Fin 128) :
    refVar x (ix1 j)
      = Ideal.div (∑ r : Fin 100000, (x (ix2 r j) - refMean x (ix1 j)) * (x (ix2 r j) - refMean x (ix1 j)))
          (Ideal.ofBits .f32 0x47C35000#32) := by
  rw [refVar_eq, refMean_eq, val_main_v9_apply, val_main_v7_apply, val_main_v8_apply, val_main_cst_2_apply,
    val_main_cst_1_apply]
  simp only [val_main_v6_apply, val_main_v5_apply, val_main_v4_apply, val_main_v3_apply, Ideal.hostDivf_def,
    Ideal.ofBits_def, Ideal.ofBits_zero_f32, zero_add, Ideal.mulf_def, Ideal.subf_def, idx_sum_var, idx_mean_at]

end Cert.ReferenceIdeal.RefValue

end
-- ==== Proof.RefStages.lean ====
import proofs.«158204_j29978871726570_1_alg».proof.Proof.RefDefs
import proofs.«158204_j29978871726570_1_alg».proof.Proof.Gen.ReferenceIdeal.Read
import proofs.«158204_j29978871726570_1_alg».proof.Proof.LibRowSum
import proofs.«158204_j29978871726570_1_alg».proof.Proof.LibDot

/-!
# The dense stages of the reference, entry by entry

Entry (r, c) of the first stage is tanh of the inner product of row r of the normalised features with column c
of W_in, plus b_in c; the normalised feature (r, k) is ((x r k - mean k) * rsqrt (var k + ε)) * γ k + β k.
Entry (r, c) of the last stage is the inner product of tanh (h r · W_sg + b_sg) with column c of W_out, plus b_out c.
A bias or a statistic, a vector along the columns, is repeated down the rows, so at (r, k) it is its entry k.
-/

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The [100000,128] x [128,128] product contracts the columns of the left factor with the rows of the right. -/
theorem plain128 : Cert.LibDot.Plain dot_S100000x128_S128x128_S100000x128_1_0_0_1_n_n :=
  ⟨rfl, rfl, lhs_main_v25_0, lhs_main_v25_1, rhs_main_v25_0, rhs_main_v25_1⟩

/-- The [100000,128] x [128,64] product likewise. -/
theorem plain64 : Cert.LibDot.Plain dot_S100000x128_S128x64_S100000x64_1_0_0_1_n_n :=
  ⟨rfl, rfl, lhs_main_v87_0, lhs_main_v87_1, rhs_main_v87_0, rhs_main_v87_1⟩

/-- A vector repeated down the rows, at (r, c), is its entry c. -/
theorem rows128_apply (v : FVec Ideal S128 .f32) (r : Fin 100000) (c : Fin 128) : rows128 v (ix2 r c) = v (ix1 c) := by
  rw [show rows128 v = val_main_v20 (F := Ideal) v from rfl, val_main_v20_apply, val_main_v19_apply]
  exact congrArg v (funext fun a => Fin.ext (by match a with | ⟨0, _⟩ => rfl))

theorem rows64_apply (v : FVec Ideal S64 .f32) (r : Fin 100000) (c : Fin 64) : rows64 v (ix2 r c) = v (ix1 c) := by
  rw [show rows64 v = val_main_v89 (F := Ideal) v from rfl, val_main_v89_apply, val_main_v88_apply]
  exact congrArg v (funext fun a => Fin.ext (by match a with | ⟨0, _⟩ => rfl))

/-- The normalised, scaled and shifted feature at (r, k). -/
theorem normalised_apply (x : FVec Ideal S100000x128 .f32) (mean var gamma beta : FVec Ideal S128 .f32)
    (r : Fin 100000) (k : Fin 128) :
    (addf (mulf (mulf (subf x (rows128 mean))
      (rows128 (Host.rsqrt (addf var (broadcastInDim S128 ![] bcast_S_S128 (constant (F := Ideal) S_ .f32 0x3727C5AC#32))))))
      (rows128 gamma)) (rows128 beta)) (ix2 r k)
      = ((x (ix2 r k) - mean (ix1 k)) * Ideal.rsqrt (var (ix1 k) + Ideal.ofBits .f32 0x3727C5AC#32)) * gamma (ix1 k)
          + beta (ix1 k) := by
  rw [addf_apply, mulf_apply, mulf_apply, subf_apply, rows128_apply, rows128_apply, rows128_apply, rows128_apply]
  rfl

/-- Entry (r, c) of the first dense stage. -/
theorem stageH0_apply (x : FVec Ideal S100000x128 .f32) (mean var gamma beta : FVec Ideal S128 .f32)
    (Win : FVec Ideal S128x128 .f32) (bin : FVec Ideal S128 .f32) (r : Fin 100000) (c : Fin 128) :
    stageH0 x mean var gamma beta Win bin (ix2 r c)
      = Ideal.tanh ((∑ k : Fin 128,
          (((x (ix2 r k) - mean (ix1 k)) * Ideal.rsqrt (var (ix1 k) + Ideal.ofBits .f32 0x3727C5AC#32)) * gamma (ix1 k)
            + beta (ix1 k)) * Win (ix2 k c)) + bin (ix1 c)) := by
  unfold stageH0
  refine Eq.trans (b := Ideal.tanh (_ + _)) rfl ?_
  rw [Cert.LibDot.dotGeneral_ix2 plain128, rows128_apply]
  exact congrArg (fun s => Ideal.tanh (s + _))
    (Finset.sum_congr rfl fun k _ => congrArg (· * _) (normalised_apply x mean var gamma beta r k))

/-- Entry (r, c) of the last two dense layers. -/
theorem stageOut_apply (h4 : FVec Ideal S100000x128 .f32) (Wsg : FVec Ideal S128x128 .f32) (bsg : FVec Ideal S128 .f32)
    (Wout : FVec Ideal S128x64 .f32) (bout : FVec Ideal S64 .f32) (r : Fin 100000) (c : Fin 64) :
    stageOut h4 Wsg bsg Wout bout (ix2 r c)
      = (∑ k : Fin 128, Ideal.tanh ((∑ j : Fin 128, h4 (ix2 r j) * Wsg (ix2 j k)) + bsg (ix1 k)) * Wout (ix2 k c))
          + bout (ix1 c) := by
  unfold stageOut
  rw [addf_apply, Cert.LibDot.dotGeneral_ix2 plain64, rows64_apply]
  refine congrArg (· + _) (Finset.sum_congr rfl fun k _ => congrArg (· * _) ?_)
  refine Eq.trans (b := Ideal.tanh (_ + _)) rfl ?_
  rw [Cert.LibDot.dotGeneral_ix2 plain128, rows128_apply]

end Cert.ReferenceIdeal.RefValue

end
-- ==== Proof.RefHopsKernel.lean ====
import proofs.«158204_j29978871726570_1_alg».proof.Proof.RefDefs
import proofs.«158204_j29978871726570_1_alg».proof.Proof.Gen.KernelIdeal
import proofs.«158204_j29978871726570_1_alg».proof.Proof.Gen.KernelIdeal.Launch

/-!
# The kernel program's aggregation rounds are the reference's

Between its second and third kernel regions the kernel program runs on the host the same four rounds of
neighbourhood aggregation as the reference, operation for operation: the same gathers, products and
accumulating scatters over the same edge arrays, in the same order, with the same constants. So whatever the
second region left in its output array, the host stretch leaves the four rounds of it.
-/

set_option maxRecDepth 8192

noncomputable section

namespace Cert.ReferenceIdeal.RefValue

open Idealize.ShloMosaic Idealize.ShloMosaic.TcCoe Idealize.SL.Sem Idealize.ShloMosaic.StableHlo

set_option maxHeartbeats 4000000 in
/-- From any contents of the device's buffers, the host stretch leaves in its last aggregation buffer the four rounds of
    aggregation of what the second region's output array held, over the edge arrays as they were. -/
theorem hops_kernel (V : Valuation Cert.KernelIdeal.τ Cert.KernelIdeal.sig (Elt Ideal)) :
    StableHlo.after (Cert.KernelIdeal.Gen.hostOps2 (F := Ideal)) V (Proc.devRef .tc Cert.KernelIdeal.main_v60)
      = hops (V (Proc.devRef .tc Cert.KernelIdeal.main_arg1)) (V (Proc.devRef .tc Cert.KernelIdeal.main_arg2))
          (V (Proc.devRef .tc Cert.KernelIdeal.main_arg3)) (V (Proc.devRef .tc Cert.KernelIdeal.main_v8)) := by
  after_results_simp
  rfl

/-! The same host stretch as the program's two consecutive windows run it: the first 51 operations, then the last 15. -/

set_option maxHeartbeats 4000000 in
/-- The two windows one after the other leave the four rounds of aggregation, as the whole stretch does. -/
theorem hops_kernel' (V : Valuation Cert.KernelIdeal.τ Cert.KernelIdeal.sig (Elt Ideal)) :
    StableHlo.after (Cert.KernelIdeal.Gen.main_part1_ops0 (F := Ideal))
        (StableHlo.after (Cert.KernelIdeal.Gen.main_part0_ops1 (F := Ideal)) V) (Proc.devRef .tc Cert.KernelIdeal.main_v60)
      = hops (V (Proc.devRef .tc Cert.KernelIdeal.main_arg1)) (V (Proc.devRef .tc Cert.KernelIdeal.main_arg2))
          (V (Proc.devRef .tc Cert.KernelIdeal.main_arg3)) (V (Proc.devRef .tc Cert.KernelIdeal.main_v8)) := by
  after_results_simp
  rfl

set_option maxHeartbeats 4000000 in
/-- The second hidden layer's bias as the last region reads it: the 128 entries as one row. -/
theorem bsg_kernel' (V : Valuation Cert.KernelIdeal.τ Cert.KernelIdeal.sig (Elt Ideal)) :
    StableHlo.after (Cert.KernelIdeal.Gen.main_part1_ops0 (F := Ideal))
        (StableHlo.after (Cert.KernelIdeal.Gen.main_part0_ops1 (F := Ideal)) V) (Proc.devRef .tc Cert.KernelIdeal.main_v61)
      = shapeCast Cert.KernelIdeal.S1x128 (V (Proc.devRef .tc Cert.KernelIdeal.main_arg9))
          Cert.KernelIdeal.Gen.shapeCasts_S128_S1x128 := by
  after_results_simp
  rfl

set_option maxHeartbeats 4000000 in
/-- The output layer's bias as the last region reads it: the 64 entries as one row. -/
theorem bout_kernel' (V : Valuation Cert.KernelIdeal.τ Cert.KernelIdeal.sig (Elt Ideal)) :
    StableHlo.after (Cert.KernelIdeal.Gen.main_part1_ops0 (F := Ideal))
        (StableHlo.after (Cert.KernelIdeal.Gen.main_part0_ops1 (F := Ideal)) V) (Proc.devRef .tc Cert.KernelIdeal.main_v62)
      = shapeCast Cert.KernelIdeal.S1x64 (V (Proc.devRef .tc Cert.KernelIdeal.main_arg11))
          Cert.KernelIdeal.Gen.shapeCasts_S64_S1x64 := by
  after_results_simp
  rfl

set_option maxHeartbeats 4000000 in
/-- The two weight matrices of the last region are untouched by the host stretch. -/
theorem wsg_kernel' (V : Valuation Cert.KernelIdeal.τ Cert.KernelIdeal.sig (Elt Ideal)) :
    StableHlo.after (Cert.KernelIdeal.Gen.main_part1_ops0 (F := Ideal))
        (StableHlo.after (Cert.KernelIdeal.Gen.main_part0_ops1 (F := Ideal)) V) (Proc.devRef .tc Cert.KernelIdeal.main_arg8)
      = V (Proc.devRef .tc Cert.KernelIdeal.main_arg8) := by
  after_results_simp

set_option maxHeartbeats 4000000 in
theorem wout_kernel' (V : Valuation Cert.KernelIdeal.τ Cert.KernelIdeal.sig (Elt Ideal)) :
    StableHlo.after (Cert.KernelIdeal.Gen.main_part1_ops0 (F := Ideal))
        (StableHlo.after (Cert.KernelIdeal.Gen.main_part0_ops1 (F := Ideal)) V) (Proc.devRef .tc Cert.KernelIdeal.main_arg10)
      = V (Proc.devRef .tc Cert.KernelIdeal.main_arg10) := by
  after_results_simp

end Cert.ReferenceIdeal.RefValue

end
-- ==== Proof.RefValue.lean ====
import proofs.«158204_j29978871726570_1_alg».proof.Proof.RefDefs
import proofs.«158204_j29978871726570_1_alg».proof.Proof.RefStats
import proofs.«158204_j29978871726570_1_alg».proof.Proof.RefStages
import proofs.«158204_j29978871726570_1_alg».proof.Proof.RefHopsKernel
import proofs.«158204_j29978871726570_1_alg».proof.Proof.Gen.ReferenceIdeal.Read

/-!
# The reference's value

The reference's result buffer, as a function of the argument arrays, is the composition

  stageOut (hops src dst val (stageH0 x (refMean x) (refVar x) γ β W_in b_in)) W_sg b_sg W_out b_out

of its stages (RefDefs); the statistics and the two dense stages are read entry by entry (RefStats, RefStages),
and the aggregation rounds in the middle are the very operations the kernel program runs on the host
(RefHopsKernel), so they are compared as a whole and never opened. This module gathers the four.
-/

noncomputable section

namespace Cert.ReferenceIdeal.RefValue

open Cert.ReferenceIdeal Idealize.ShloMosaic Idealize.SL.Sem

/-- The stage form of the result, against the name the generated read-back gives it. -/
theorem ref_result_val (m : (ℓ : Loc nD τ sig) → Buf (Elt Ideal) ℓ) (c : Dev nD) :
    Cert.ReferenceIdeal.Value.res_out0 (F := Ideal) m c
      = stageOut (hops (m ((c.tc : Thread nD τ).loc main_arg1)) (m ((c.tc : Thread nD τ).loc main_arg2))
            (m ((c.tc : Thread nD τ).loc main_arg3))
          (stageH0 (m ((c.tc : Thread nD τ).loc main_arg0)) (refMean (m ((c.tc : Thread nD τ).loc main_arg0)))
            (refVar (m ((c.tc : Thread nD τ).loc main_arg0))) (m ((c.tc : Thread nD τ).loc main_arg4))
            (m ((c.tc : Thread nD τ).loc main_arg5)) (m ((c.tc : Thread nD τ).loc main_arg6))
            (m ((c.tc : Thread nD τ).loc main_arg7))))
          (m ((c.tc : Thread nD τ).loc main_arg8)) (m ((c.tc : Thread nD τ).loc main_arg9))
          (m ((c.tc : Thread nD τ).loc main_arg10)) (m ((c.tc : Thread nD τ).loc main_arg11)) :=
  ref_result m c

end Cert.ReferenceIdeal.RefValue

end
-- ==== Proof.VarLaw.lean ====
import Idealize.ShloMosaic.PureOps.Ideal
import Mathlib.Tactic.Ring
import Mathlib.Tactic.FieldSimp
import Mathlib.Tactic.NormNum
import Mathlib.Algebra.BigOperators.Ring.Finset

/-!
# The variance law

For finitely many REAL numbers x r, with N their count, S = ∑ x r, Q = ∑ x r * x r and
mean μ = S / N, the mean of the squared deviations is the mean of the squares minus the squared
mean:

  (∑ r, (x r - μ) * (x r - μ)) / N = Q / N - μ * μ.

Expanding the square, ∑ (x r - μ)² = Q - 2 μ S + N μ², and μ S = N μ². The law uses
distributivity and cancellation, so it is a law of the reals, not of the extended reals: it is proved
in ℝ and carried to extended reals whose entries are all real. Division is the extended reals'
quotient, here always by a nonzero real.
-/

noncomputable section

namespace Cert.Proof.VarLaw

open Idealize.ShloMosaic

/-- The law in the reals. -/
theorem var_real {ι : Type} [Fintype ι] (y : ι → ℝ) (N : ℝ) (hN : N = Fintype.card ι) (hN0 : N ≠ 0) :
    (∑ r, (y r - (∑ r, y r) / N) * (y r - (∑ r, y r) / N)) / N
      = (∑ r, y r * y r) / N - ((∑ r, y r) / N) * ((∑ r, y r) / N) := by
  have h1 : ∑ r, (y r - (∑ r, y r) / N) * (y r - (∑ r, y r) / N)
      = (∑ r, y r * y r) - 2 * ((∑ r, y r) / N) * (∑ r, y r)
        + N * ((∑ r, y r) / N * ((∑ r, y r) / N)) := by
    have h2 : ∀ r, (y r - (∑ r, y r) / N) * (y r - (∑ r, y r) / N)
        = y r * y r - 2 * ((∑ r, y r) / N) * y r + ((∑ r, y r) / N * ((∑ r, y r) / N)) := fun r => by ring
    simp only [h2]
    rw [Finset.sum_add_distrib, Finset.sum_sub_distrib, ← Finset.mul_sum, Finset.sum_const,
      Finset.card_univ, nsmul_eq_mul, ← hN]
  rw [h1]
  field_simp
  ring

/-- The coercion of the reals into the extended reals commutes with finite sums. -/
theorem coe_sum {ι : Type} (s : Finset ι) (y : ι → ℝ) :
    ((∑ r ∈ s, y r : ℝ) : EReal) = ∑ r ∈ s, (y r : EReal) := by
  classical
  induction s using Finset.induction_on with
  | empty => simp
  | insert a s ha ih => rw [Finset.sum_insert ha, Finset.sum_insert ha, EReal.coe_add, ih]

/-- The quotient of two reals, the divisor not zero, is the real quotient. -/
theorem div_coe_coe (a : ℝ) {N : ℝ} (hN0 : N ≠ 0) : Ideal.div (a : EReal) (N : EReal) = ((a / N : ℝ) : EReal) := by
  rw [Ideal.div_coe hN0, ← EReal.coe_mul, one_div, div_eq_mul_inv]

/-- The f32 word 0x47C35000 denotes the real number 100000. -/
theorem ofBits_count : Ideal.ofBits .f32 0x47C35000#32 = ((100000 : ℝ) : EReal) := by
  simp [Ideal.ofBits, Ideal.ieee]
  norm_cast
  norm_num

/-- The law on extended reals all of whose entries are real. -/
theorem var_law {ι : Type} [Fintype ι] (x : ι → EReal) (hx : ∀ r, ∃ y : ℝ, x r = (y : EReal))
    (N : ℝ) (hN : N = Fintype.card ι) (hN0 : N ≠ 0) :
    Ideal.div (∑ r, (x r - Ideal.div (∑ r, x r) (N : EReal)) * (x r - Ideal.div (∑ r, x r) (N : EReal))) (N : EReal)
      = Ideal.div (∑ r, x r * x r) (N : EReal)
        - Ideal.div (∑ r, x r) (N : EReal) * Ideal.div (∑ r, x r) (N : EReal) := by
  choose y hy using hx
  obtain rfl : x = fun r => (y r : EReal) := funext hy
  simp only [← coe_sum, div_coe_coe _ hN0, ← EReal.coe_sub, ← EReal.coe_mul]
  exact congrArg _ (var_real y N hN hN0)

end Cert.Proof.VarLaw

end
-- ==== Proof.RefVarMoments.lean ====
import proofs.«158204_j29978871726570_1_alg».proof.Proof.RefStats
import proofs.«158204_j29978871726570_1_alg».proof.Proof.VarLaw

/-!
# The reference's variance from the first two moments

When every entry of x is a real number, column j of the reference's variance, the mean of the squared deviations
from the column mean, is the mean of the squares of column j minus the square of its mean: the variance law applied
to the 100000 entries of the column, the row count's f32 word being the real number 100000.
-/

noncomputable section

namespace Cert.ReferenceIdeal.RefValue

open Cert.ReferenceIdeal Idealize.ShloMosaic Idealize.ShloMosaic.ValueIdx Cert.Proof.VarLaw

/-- Column j of the variance of an array of reals is the column's mean square minus its squared mean. -/
theorem refVar_apply_moments (x : FVec Ideal S100000x128 .f32) (hx : ∀ i, ∃ y : ℝ, x i = (y : EReal)) (j : Fin 128) :
    refVar x (ix1 j)
      = Ideal.div (∑ r : Fin 100000, x (ix2 r j) * x (ix2 r j)) (Ideal.ofBits .f32 0x47C35000#32)
          - refMean x (ix1 j) * refMean x (ix1 j) := by
  rw [refVar_apply, refMean_apply, ofBits_count]
  exact var_law (fun r : Fin 100000 => x (ix2 r j)) (fun r => hx _) 100000 (by simp) (by norm_num)

end Cert.ReferenceIdeal.RefValue

end
-- ==== Proof.Bridge.lean ====
import proofs.«158204_j29978871726570_1_alg».proof.Proof.KI.Val0
import proofs.«158204_j29978871726570_1_alg».proof.Proof.KI.Val1
import proofs.«158204_j29978871726570_1_alg».proof.Proof.KI.Val2
import proofs.«158204_j29978871726570_1_alg».proof.Proof.RefValue
import proofs.«158204_j29978871726570_1_alg».proof.Proof.RefVarMoments
import Idealize.ShloMosaic.Lib.ValueLayout

/-!
# The two sides meet

The kernel's dense stages and the reference's are the same functions of their operands, entry by entry, once
three things are said. A vector laid out as one row [1,128] has at (0, k) the vector's entry k, and a row
flattened has at k the row's entry (0, k). The kernel's mean row is the reference's column mean: both are the
column sum over the row count. And the kernel's variance row, the mean of the squares minus the squared mean, is
the reference's mean of squared deviations: this is the variance law, and it is here that the entries of the node
features must be real numbers.
-/

noncomputable section

namespace Cert.Proof.Bridge

open Idealize.ShloMosaic Idealize.ShloMosaic.ValueIdx Cert.ReferenceIdeal.RefValue Cert.KernelIdeal.Hand

/-- A vector of 128 entries as one row. -/
abbrev sc1 (v : Cert.KernelIdeal.S128.Idx → EReal) : Cert.KernelIdeal.S1x128.Idx → EReal :=
  shapeCast Cert.KernelIdeal.S1x128 v Cert.KernelIdeal.Gen.shapeCasts_S128_S1x128

/-- A row of 128 entries flattened. -/
abbrev sc0 (w : Cert.KernelIdeal.S1x128.Idx → EReal) : Cert.KernelIdeal.S128.Idx → EReal :=
  shapeCast Cert.KernelIdeal.S128 w Cert.KernelIdeal.Gen.shapeCasts_S1x128_S128

theorem sc1_apply (v : Cert.KernelIdeal.S128.Idx → EReal) (k : Fin 128) : sc1 v (ix2 0 k) = v (ix1 k) :=
  shapeCast_a_1a_apply v _ 0 k

theorem sc0_apply (w : Cert.KernelIdeal.S1x128.Idx → EReal) (k : Fin 128) : sc0 w (ix1 k) = w (ix2 0 k) :=
  shapeCast_1a_a_apply w _ k

/-- The kernel's mean row, flattened, is the reference's column mean. -/
theorem mean_flat (x : Cert.KernelIdeal.S100000x128.Idx → EReal) (k : Fin 128) :
    sc0 (kMean x) (ix1 k) = refMean x (ix1 k) := by
  rw [sc0_apply, refMean_apply]
  rfl

/-- The kernel's variance row, flattened, is the reference's column variance, the entries of x being real. -/
theorem var_flat (x : Cert.KernelIdeal.S100000x128.Idx → EReal) (hx : ∀ i, ∃ y : ℝ, x i = (y : EReal)) (k : Fin 128) :
    sc0 (kVar x) (ix1 k) = refVar x (ix1 k) := by
  rw [sc0_apply, refVar_apply_moments x hx, refMean_apply]
  rfl

/-- The kernel's first dense stage over its own statistics is the reference's over the reference's. -/
theorem bridge1 (x : Cert.KernelIdeal.S100000x128.Idx → EReal) (hx : ∀ i, ∃ y : ℝ, x i = (y : EReal))
    (gamma beta bin : Cert.KernelIdeal.S128.Idx → EReal) (Win : Cert.KernelIdeal.S128x128.Idx → EReal) :
    G1 x (sc1 (sc0 (kMean x))) (sc1 (sc0 (kVar x))) (sc1 gamma) (sc1 beta) Win (sc1 bin)
      = stageH0 x (refMean x) (refVar x) gamma beta Win bin := by
  funext i
  obtain ⟨r, c, rfl⟩ : ∃ (r : Fin 100000) (c : Fin 128), i = ix2 r c := ⟨i 0, i 1, eq_ix2 i⟩
  rw [G1_apply, stageH0_apply]
  simp only [sc1_apply, mean_flat, var_flat x hx]

/-- The kernel's last two dense layers are the reference's. -/
theorem bridge2 (h : Cert.KernelIdeal.S100000x128.Idx → EReal) (Wsg : Cert.KernelIdeal.S128x128.Idx → EReal)
    (bsg : Cert.KernelIdeal.S128.Idx → EReal) (Wout : Cert.KernelIdeal.S128x64.Idx → EReal)
    (bout : Cert.KernelIdeal.S64.Idx → EReal) :
    G2 h Wsg (sc1 bsg) Wout (shapeCast Cert.KernelIdeal.S1x64 bout Cert.KernelIdeal.Gen.shapeCasts_S64_S1x64)
      = stageOut h Wsg bsg Wout bout := by
  funext i
  obtain ⟨r, c, rfl⟩ : ∃ (r : Fin 100000) (c : Fin 64), i = ix2 r c := ⟨i 0, i 1, eq_ix2 i⟩
  rw [G2_apply, stageOut_apply]
  simp only [sc1_apply, shapeCast_a_1a_apply]

end Cert.Proof.Bridge

end
-- ==== Proof.Finite.lean ====
import proofs.«158204_j29978871726570_1_alg».proof.Defs
import proofs.«158204_j29978871726570_1_alg».proof.Proof.Gen.Pre_finite_inputs
import Idealize.ShloMosaic.Lib.ReduceAll
import Idealize.ShloMosaic.Lib.ValueIdx
import Idealize.ShloMosaic.PureOps.Ideal.Laws

/-!
# Every entry of the node-feature array is a real number

The precondition says of each argument array that the absolute value of every entry is below
+∞, all twelve facts joined by "and" into one bit that is 1. An extended real whose absolute value
max x (-x) is below +∞ is neither -∞ nor +∞, so it is a real. Here the first of the twelve facts is
read back: the entries of the first argument, the [100000, 128] array of node features.
-/

noncomputable section

namespace Cert.Proof.Finite

open Idealize.ShloMosaic Idealize.SL.Sem

/-- The shape of rank zero has one index. -/
instance : Subsingleton Cert.Pre_finite_inputs.S_.Idx := ⟨fun a b => funext fun d => d.elim0⟩

/-- The f32 word 0x7F800000 denotes +∞. -/
theorem ofBits_inf : Ideal.ofBits .f32 0x7F800000#32 = ⊤ := by simp [Ideal.ofBits, Ideal.ieee]

/-- An extended real whose absolute value compares below +∞ is a real. -/
theorem real_of_abs_lt (x : EReal)
    (h : Ideal.cmp .olt (max x (-x)) (Ideal.ofBits .f32 0x7F800000#32) = 1#1) : ∃ y : ℝ, x = (y : EReal) := by
  rw [ofBits_inf] at h
  induction x using EReal.rec with
  | bot => simp [Ideal.cmp] at h
  | top => simp [Ideal.cmp] at h
  | coe r => exact ⟨r, rfl⟩

/-- The same of an entry of an array, in the form the printed precondition compares it. -/
theorem entry_real {s : Shape} (hb : Cert.Pre_finite_inputs.S_.BroadcastsInDim s (![] : Fin 0 → Fin s.rank))
    (x : FVec Ideal s .f32) (i : s.Idx)
    (h : cmpf .olt (Host.absf x) (broadcastInDim s ![] hb (constant (F := Ideal) Cert.Pre_finite_inputs.S_ .f32 0x7F800000#32)) i = 1#1) :
    ∃ y : ℝ, x i = (y : EReal) :=
  real_of_abs_lt (x i) h

/-- Under the precondition every entry of the first argument is a real, on every device. -/
theorem x_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S100000x128.Idx) :
    ∃ y : ℝ, (m ((c.tc : Thread Cert.KernelIdeal.nD Cert.KernelIdeal.τ).loc Cert.KernelIdeal.main_arg0)) i = (y : EReal) := by
  have h0 := congrFun (h c) ValueIdx.ix0
  dsimp only [Cert.Pre_finite_inputs.fn, Cert.Pre_finite_inputs.fn_part1, Cert.Pre_finite_inputs.fn_part2] at h0
  have h1 := (IntOp.andi_eq_one.1 h0).1
  have h2 := (IntOp.andi_eq_one.1 h1).1
  have h3 := (IntOp.andi_eq_one.1 h2).1
  have h4 := (IntOp.andi_eq_one.1 h3).1
  have h5 := (IntOp.andi_eq_one.1 h4).1
  have h6 := (IntOp.andi_eq_one.1 h5).1
  have h7 := (IntOp.andi_eq_one.1 h6).1
  have h8 := (IntOp.andi_eq_one.1 h7).1
  have h9 := (IntOp.andi_eq_one.1 h8).1
  exact entry_real _ _ i (Host.reduce_andi_all _ _ _ _ _ h9 i)

end Cert.Proof.Finite

end
-- ==== Proof.KI.Final.lean ====
import proofs.«158204_j29978871726570_1_alg».proof.Proof.Gen.KernelIdeal.Launch
import proofs.«158204_j29978871726570_1_alg».proof.Proof.Gen.KernelIdeal.Skeleton
import proofs.«158204_j29978871726570_1_alg».proof.Proof.Gen.KernelIdeal.Points
import proofs.«158204_j29978871726570_1_alg».proof.Proof.KI.Args
import proofs.«158204_j29978871726570_1_alg».proof.Proof.KI.Val0
import proofs.«158204_j29978871726570_1_alg».proof.Proof.KI.Val1
import proofs.«158204_j29978871726570_1_alg».proof.Proof.KI.Val2
import proofs.«158204_j29978871726570_1_alg».proof.Proof.KernelGlue
import proofs.«158204_j29978871726570_1_alg».proof.Proof.RefValue
import proofs.«158204_j29978871726570_1_alg».proof.Proof.Bridge
import proofs.«158204_j29978871726570_1_alg».proof.Proof.Finite
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The result array, read through the whole run

The last boundary's contents at the result buffer are the third region's closed form of what the host hops
leave, which are the hops of the second region's closed form of the first region's means and variances:
the reference's own stages, the variance in its mean-of-squares form (which needs the data finite). -/

open Cert.ReferenceIdeal.RefValue

variable (m : (ℓ : Loc nD τ sig) → Buf (Elt Ideal) ℓ) (ρ : Dev nD → PrngReg)

theorem W1_launch (c : Dev nD) (a : Ref sig .tc) (ha : a ≠ main_v0_0) (hb : a ≠ main_v0_1) :
    W1 m ρ c (Proc.devRef .tc a) = m ((c : Thread nD τ).loc a) := (W1_keep m ρ c a ha hb).trans rfl
theorem W3_launch (c : Dev nD) (a : Ref sig .tc) (h8 : a ≠ main_v8) (h0 : a ∉ ops0_W) (ha : a ≠ main_v0_0) (hb : a ≠ main_v0_1) :
    W3 m ρ c (Proc.devRef .tc a) = m ((c : Thread nD τ).loc a) :=
  (W3_keep m ρ c a h8).trans <| (W2_of m ρ c a h0).trans <| W1_launch m ρ c a ha hb

/-- The first region leaves the column means and variances of the argument array. -/
theorem mean_eq (c : Dev nD) : W1 m ρ c (Proc.devRef .tc main_v0_0) = kMean (m ((c : Thread nD τ).loc main_arg0)) :=
  (W1_arr m ρ c 1).trans (final0_1 (V0 m ρ) c)
theorem var_eq (c : Dev nD) : W1 m ρ c (Proc.devRef .tc main_v0_1) = kVar (m ((c : Thread nD τ).loc main_arg0)) :=
  (W1_arr m ρ c 2).trans (final0_2 (V0 m ρ) c)

/-- The second region leaves the reference's normalised, projected and squashed array. -/
theorem h0_eq (hpre : Cert.Pre_KernelIdeal m) (c : Dev nD) :
    W3 m ρ c (Proc.devRef .tc main_v8) = stageH0 (m ((c : Thread nD τ).loc main_arg0)) (refMean (m ((c : Thread nD τ).loc main_arg0))) (refVar (m ((c : Thread nD τ).loc main_arg0)))
      (m ((c : Thread nD τ).loc main_arg4)) (m ((c : Thread nD τ).loc main_arg5)) (m ((c : Thread nD τ).loc main_arg6)) (m ((c : Thread nD τ).loc main_arg7)) := by
  refine (W3_arr m ρ c 7).trans ?_
  rw [final1 (V2 m ρ) c]
  show G1 (StableHlo.after (main_part0_ops0 (F := Ideal)) (W1 m ρ c) (Proc.devRef .tc main_arg0)) (StableHlo.after (main_part0_ops0 (F := Ideal)) (W1 m ρ c) (Proc.devRef .tc main_v3)) (StableHlo.after (main_part0_ops0 (F := Ideal)) (W1 m ρ c) (Proc.devRef .tc main_v4)) (StableHlo.after (main_part0_ops0 (F := Ideal)) (W1 m ρ c) (Proc.devRef .tc main_v5))
    (StableHlo.after (main_part0_ops0 (F := Ideal)) (W1 m ρ c) (Proc.devRef .tc main_v6)) (StableHlo.after (main_part0_ops0 (F := Ideal)) (W1 m ρ c) (Proc.devRef .tc main_arg6)) (StableHlo.after (main_part0_ops0 (F := Ideal)) (W1 m ρ c) (Proc.devRef .tc main_v7)) = _
  rw [Cert.KernelIdeal.Glue.pre_x, Cert.KernelIdeal.Glue.pre_mean, Cert.KernelIdeal.Glue.pre_var, Cert.KernelIdeal.Glue.pre_gamma,
    Cert.KernelIdeal.Glue.pre_beta, Cert.KernelIdeal.Glue.pre_win, Cert.KernelIdeal.Glue.pre_bin]
  rw [mean_eq, var_eq, W1_launch m ρ c main_arg0 (by decide) (by decide), W1_launch m ρ c main_arg4 (by decide) (by decide),
    W1_launch m ρ c main_arg5 (by decide) (by decide), W1_launch m ρ c main_arg6 (by decide) (by decide),
    W1_launch m ρ c main_arg7 (by decide) (by decide)]
  exact Cert.Proof.Bridge.bridge1 _ (Cert.Proof.Finite.x_real m hpre c) _ _ _ _

/-- The result array ends at the reference's stages of the argument arrays. -/
theorem result_eq (hpre : Cert.Pre_KernelIdeal m) (c : Dev nD) :
    W6 m ρ c (Proc.devRef .tc main_v63) = stageOut (hops (m ((c : Thread nD τ).loc main_arg1)) (m ((c : Thread nD τ).loc main_arg2)) (m ((c : Thread nD τ).loc main_arg3))
      (stageH0 (m ((c : Thread nD τ).loc main_arg0)) (refMean (m ((c : Thread nD τ).loc main_arg0))) (refVar (m ((c : Thread nD τ).loc main_arg0)))
        (m ((c : Thread nD τ).loc main_arg4)) (m ((c : Thread nD τ).loc main_arg5)) (m ((c : Thread nD τ).loc main_arg6)) (m ((c : Thread nD τ).loc main_arg7))))
      (m ((c : Thread nD τ).loc main_arg8)) (m ((c : Thread nD τ).loc main_arg9)) (m ((c : Thread nD τ).loc main_arg10)) (m ((c : Thread nD τ).loc main_arg11)) := by
  refine (W6_arr m ρ c 5).trans ?_
  rw [final2 (V5 m ρ) c]
  show G2 (StableHlo.after (main_part1_ops0 (F := Ideal)) (StableHlo.after (main_part0_ops1 (F := Ideal)) (W3 m ρ c)) (Proc.devRef .tc main_v60)) (StableHlo.after (main_part1_ops0 (F := Ideal)) (StableHlo.after (main_part0_ops1 (F := Ideal)) (W3 m ρ c)) (Proc.devRef .tc main_arg8)) (StableHlo.after (main_part1_ops0 (F := Ideal)) (StableHlo.after (main_part0_ops1 (F := Ideal)) (W3 m ρ c)) (Proc.devRef .tc main_v61)) (StableHlo.after (main_part1_ops0 (F := Ideal)) (StableHlo.after (main_part0_ops1 (F := Ideal)) (W3 m ρ c)) (Proc.devRef .tc main_arg10))
    (StableHlo.after (main_part1_ops0 (F := Ideal)) (StableHlo.after (main_part0_ops1 (F := Ideal)) (W3 m ρ c)) (Proc.devRef .tc main_v62)) = _
  rw [hops_kernel' (W3 m ρ c), wsg_kernel' (W3 m ρ c), bsg_kernel' (W3 m ρ c), wout_kernel' (W3 m ρ c), bout_kernel' (W3 m ρ c)]
  rw [W3_launch m ρ c main_arg1 (by decide) (by decide) (by decide) (by decide), W3_launch m ρ c main_arg2 (by decide) (by decide) (by decide) (by decide), W3_launch m ρ c main_arg3 (by decide) (by decide) (by decide) (by decide),
    W3_launch m ρ c main_arg8 (by decide) (by decide) (by decide) (by decide), W3_launch m ρ c main_arg9 (by decide) (by decide) (by decide) (by decide), W3_launch m ρ c main_arg10 (by decide) (by decide) (by decide) (by decide),
    W3_launch m ρ c main_arg11 (by decide) (by decide) (by decide) (by decide), h0_eq m ρ hpre c]
  exact Cert.Proof.Bridge.bridge2 _ _ _ _ _

end Cert.KernelIdeal.Hand

end
-- ==== Proof.RefFrame.lean ====
import proofs.«158204_j29978871726570_1_alg».proof.Defs
import proofs.«158204_j29978871726570_1_alg».proof.Proof.Gen.ReferenceIdeal
import proofs.«158204_j29978871726570_1_alg».proof.Proof.Gen.Pre_finite_inputs
import proofs.«158204_j29978871726570_1_alg».proof.Proof.Gen.ReferenceIdeal.Run

/-!
# The reference runs and leaves its arguments unchanged

The reference is a straight line of host operations with no kernel launch: its run terminates with the
result buffer at the operations' composed term and every argument array as it was. Dropping the result
leaves the frame.
-/

noncomputable section

namespace Cert.Proof.Claims

open Idealize.ShloMosaic Idealize.SL.Sem

theorem frame_ri : Cert.frame_ReferenceIdeal := fun m ρ _ =>
  (θ_run Cert.ReferenceIdeal.defs _ _).mono (fun _ h c => (h c).2)
    (Cert.ReferenceIdeal.Value.run (F := Ideal) m ρ)

end Cert.Proof.Claims

end
-- ==== Proof.lean ====
/- The proof of `Cert.Claim`.

   A graph network's forward pass — batch normalisation over 100000 rows, a linear layer with tanh, four hops of a
   sparse adjacency (gather, scale, scatter-add), a linear layer with tanh and a last linear layer — computed by three
   tiled kernel regions around the hops, against the same pass written with whole-array operations.

   The three frames: each program runs to the end, faults nowhere and leaves its arguments alone (Proof/K/, Proof/KI/:
   the regions' bodies case by case, the regions among the host stretches; Proof/RefFrame.lean for the reference).
   The idealization rewrote nothing, so `preserves` is trivial.
   Equality of the results at the extended reals: tile by tile the first region accumulates the column sums and sums of
   squares, so it leaves mean = S/n and the variance as Q/n - mean², where the reference takes the mean of squared
   deviations; the two agree for finite data (Proof/VarLaw.lean), which is the one place the precondition is used.
   Everything after the statistics is the same function of them on both sides: a tile's rows of a matrix product are
   the rows of the whole product, and the hops are literally the same host operations. -/
import proofs.«158204_j29978871726570_1_alg».proof.Defs
import proofs.«158204_j29978871726570_1_alg».proof.Proof.K.Args
import proofs.«158204_j29978871726570_1_alg».proof.Proof.KI.Args
import proofs.«158204_j29978871726570_1_alg».proof.Proof.KI.Final
import proofs.«158204_j29978871726570_1_alg».proof.Proof.RefFrame
import proofs.«158204_j29978871726570_1_alg».proof.Proof.RefValue
import proofs.«158204_j29978871726570_1_alg».proof.Proof.Gen.Kernel
import proofs.«158204_j29978871726570_1_alg».proof.Proof.Gen.KernelIdeal
import proofs.«158204_j29978871726570_1_alg».proof.Proof.Gen.ReferenceIdeal
import proofs.«158204_j29978871726570_1_alg».proof.Proof.Gen.Pre_finite_inputs
import Idealize.ShloMosaic.Adequacy
import Idealize.ShloMosaic.Init

noncomputable section

namespace Cert.Proof

open Idealize.ShloMosaic Idealize.SL.Sem

theorem frame_p : Cert.frame_Kernel := fun m ρ _ => Cert.Kernel.Hand.frame (F := Bits) m ρ
theorem frame_pi : Cert.frame_KernelIdeal := fun m ρ _ => Cert.KernelIdeal.Hand.frame (F := Ideal) m ρ

/-- Both idealized programs end with the reference's stages of the (agreeing) argument arrays in their result array. -/
theorem algebraic : Cert.algebraic_KernelIdeal_ReferenceIdeal := by
  intro m ρ m' ρ' hpre hagree
  refine ⟨fun c => Cert.KernelIdeal.Hand.W6 m ρ c (Proc.devRef .tc Cert.KernelIdeal.main_v63), Cert.KernelIdeal.Hand.run_result (F := Ideal) m ρ, ?_⟩
  refine (θ_run Cert.ReferenceIdeal.defs _ _).mono (fun r h c => ⟨(h c).1.trans ?_, (h c).2⟩)
    (Cert.ReferenceIdeal.Value.run (F := Ideal) m' ρ')
  show Cert.ReferenceIdeal.Value.res_main_v90 m' c = Cert.KernelIdeal.Hand.W6 m ρ c (Proc.devRef .tc Cert.KernelIdeal.main_v63)
  rw [Cert.KernelIdeal.Hand.result_eq m ρ hpre c, Cert.ReferenceIdeal.RefValue.ref_result m' c]
  obtain ⟨e0, e1, e2, e3, e4, e5, e6, e7, e8, e9, e10, e11⟩ := hagree c
  rw [e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_p, frame_pi, Cert.Proof.Claims.frame_ri, trivial, algebraic⟩

end Cert.Proof

end
